-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg16 : FVec F S128 .f32) (main_arg17 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg13 : FVec F S128 .f32) (main_arg14 : FVec F S128 .f32) (main_arg15 : FVec F S128 .f32) (main_arg16 : FVec F S128 .f32) (main_arg17 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x128 .f32) (main_arg1 : FVec F S800000x128 .f32) (main_arg2 : IVec S800000 32) (main_arg3 : IVec S800000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S2000x128 : Shape := ⟨2, ![2000, 128]⟩
abbrev S1x128 : Shape := ⟨2, ![1, 128]⟩
abbrev S_ : Shape := ⟨0, ![]⟩
abbrev S800000x1 : Shape := ⟨2, ![800000, 1]⟩
abbrev S200x1x128 : Shape := ⟨3, ![200, 1, 128]⟩
abbrev S4000x128 : Shape := ⟨2, ![4000, 128]⟩
abbrev S1x1x128 : Shape := ⟨3, ![1, 1, 128]⟩
abbrev S25x1x128 : Shape := ⟨3, ![25, 1, 128]⟩
abbrev S200x128 : Shape := ⟨2, ![200, 128]⟩
abbrev S25x128 : Shape := ⟨2, ![25, 128]⟩
abbrev S8000x128 : Shape := ⟨2, ![8000, 128]⟩

abbrev nBuf : Space → Nat
  | .hbm => 101
  | .vmem => 72
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S50000x128, .f32⟩
  | .hbm, ⟨19, _⟩ => ⟨S50000x128, .bf16⟩
  | .hbm, ⟨20, _⟩ => ⟨S50000x128, .bf16⟩
  | .hbm, ⟨21, _⟩ => ⟨S50000x128, .bf16⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .bf16⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .bf16⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .bf16⟩
  | .hbm, ⟨49, _⟩ => ⟨S800000x128, .f32⟩
  | .hbm, ⟨50, _⟩ => ⟨S800000x128, .f32⟩
  | .hbm, ⟨51, _⟩ => ⟨S800000x128, .f32⟩
  | .hbm, ⟨52, _⟩ => ⟨S200x1x128, .f32⟩
  | .hbm, ⟨53, _⟩ => ⟨S200x1x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S50000x128, .f32⟩
  | .hbm, ⟨63, _⟩ => ⟨S25x1x128, .f32⟩
  | .hbm, ⟨64, _⟩ => ⟨S25x1x128, .f32⟩
  | .hbm, ⟨65, _⟩ => ⟨S200x128, .f32⟩
  | .hbm, ⟨66, _⟩ => ⟨S_, .f32⟩
  | .hbm, ⟨67, _⟩ => ⟨S128, .f32⟩
  | .hbm, ⟨68, _⟩ => ⟨S200x128, .f32⟩
  | .hbm, ⟨69, _⟩ => ⟨S_, .f32⟩
  | .hbm, ⟨70, _⟩ => ⟨S128, .f32⟩
  | .hbm, ⟨71, _⟩ => ⟨S25x128, .f32⟩
  | .hbm, ⟨72, _⟩ => ⟨S_, .f32⟩
  | .hbm, ⟨73, _⟩ => ⟨S128, .f32⟩
  | .hbm, ⟨74, _⟩ => ⟨S25x128, .f32⟩
  | .hbm, ⟨75, _⟩ => ⟨S_, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S_, .f32⟩
  | .hbm, ⟨92, _⟩ => ⟨S128, .f32⟩
  | .hbm, ⟨93, _⟩ => ⟨S128, .f32⟩
  | .hbm, ⟨94, _⟩ => ⟨S128, .f32⟩
  | .hbm, ⟨95, _⟩ => ⟨S128, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S800000x128, .f32⟩
  | .hbm, ⟨100, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | .local _ .vmem, ⟨12, _⟩ => ⟨S2000x128, .bf16⟩
  | .local _ .vmem, ⟨13, _⟩ => ⟨S2000x128, .bf16⟩
  | .local _ .vmem, ⟨14, _⟩ => ⟨S2000x128, .bf16⟩
  | .local _ .vmem, ⟨15, _⟩ => ⟨S2000x128, .bf16⟩
  | .local _ .vmem, ⟨16, _⟩ => ⟨S2000x128, .bf16⟩
  | .local _ .vmem, ⟨17, _⟩ => ⟨S2000x128, .bf16⟩
  | .local _ .vmem, ⟨18, _⟩ => ⟨S4000x128, .f32⟩
  | .local _ .vmem, ⟨19, _⟩ => ⟨S4000x128, .f32⟩
  | .local _ .vmem, ⟨20, _⟩ => ⟨S128x128, .f32⟩
  | .local _ .vmem, ⟨21, _⟩ => ⟨S128, .f32⟩
  | .local _ .vmem, ⟨22, _⟩ => ⟨S4000x128, .bf16⟩
  | .local _ .vmem, ⟨23, _⟩ => ⟨S4000x128, .bf16⟩
  | .local _ .vmem, ⟨24, _⟩ => ⟨S4000x128, .bf16⟩
  | .local _ .vmem, ⟨25, _⟩ => ⟨S4000x128, .bf16⟩
  | .local _ .vmem, ⟨26, _⟩ => ⟨S4000x128, .bf16⟩
  | .local _ .vmem, ⟨27, _⟩ => ⟨S4000x128, .bf16⟩
  | .local _ .vmem, ⟨28, _⟩ => ⟨S4000x128, .f32⟩
  | .local _ .vmem, ⟨29, _⟩ => ⟨S4000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S1x1x128, .f32⟩
  | .local _ .vmem, ⟨35, _⟩ => ⟨S1x1x128, .f32⟩
  | .local _ .vmem, ⟨36, _⟩ => ⟨S1x1x128, .f32⟩
  | .local _ .vmem, ⟨37, _⟩ => ⟨S1x1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S1x1x128, .f32⟩
  | .local _ .vmem, ⟨49, _⟩ => ⟨S1x1x128, .f32⟩
  | .local _ .vmem, ⟨50, _⟩ => ⟨S1x1x128, .f32⟩
  | .local _ .vmem, ⟨51, _⟩ => ⟨S1x1x128, .f32⟩
  | .local _ .vmem, ⟨52, _⟩ => ⟨S8000x128, .f32⟩
  | .local _ .vmem, ⟨53, _⟩ => ⟨S8000x128, .f32⟩
  | .local _ .vmem, ⟨54, _⟩ => ⟨S8000x128, .f32⟩
  | .local _ .vmem, ⟨55, _⟩ => ⟨S8000x128, .f32⟩
  | .local _ .vmem, ⟨56, _⟩ => ⟨S128, .f32⟩
  | .local _ .vmem, ⟨57, _⟩ => ⟨S128, .f32⟩
  | .local _ .vmem, ⟨58, _⟩ => ⟨S128, .f32⟩
  | .local _ .vmem, ⟨59, _⟩ => ⟨S128, .f32⟩
  | .local _ .vmem, ⟨60, _⟩ => ⟨S8000x128, .f32⟩
  | .local _ .vmem, ⟨61, _⟩ => ⟨S8000x128, .f32⟩
  | .local _ .vmem, ⟨62, _⟩ => ⟨S2000x128, .f32⟩
  | .local _ .vmem, ⟨63, _⟩ => ⟨S2000x128, .f32⟩
  | .local _ .vmem, ⟨64, _⟩ => ⟨S2000x128, .f32⟩
  | .local _ .vmem, ⟨65, _⟩ => ⟨S2000x128, .f32⟩
  | .local _ .vmem, ⟨66, _⟩ => ⟨S128, .f32⟩
  | .local _ .vmem, ⟨67, _⟩ => ⟨S128, .f32⟩
  | .local _ .vmem, ⟨68, _⟩ => ⟨S128, .f32⟩
  | .local _ .vmem, ⟨69, _⟩ => ⟨S128, .f32⟩
  | .local _ .vmem, ⟨70, _⟩ => ⟨S2000x128, .f32⟩
  | .local _ .vmem, ⟨71, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev main_v0_2 : Ref sig .tc := ⟨.hbm, 20, rfl⟩
abbrev main_v0_3 : Ref sig .tc := ⟨.hbm, 21, rfl⟩
abbrev main_c : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c_1 : Ref sig .tc := ⟨.hbm, 31, rfl⟩
abbrev main_v8 : Ref sig .tc := ⟨.hbm, 32, rfl⟩
abbrev main_v9 : Ref sig .tc := ⟨.hbm, 33, rfl⟩
abbrev main_c_2 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_3 : Ref sig .tc := ⟨.hbm, 40, rfl⟩
abbrev main_v15 : Ref sig .tc := ⟨.hbm, 41, rfl⟩
abbrev main_v16 : Ref sig .tc := ⟨.hbm, 42, rfl⟩
abbrev main_c_4 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22_0 : Ref sig .tc := ⟨.hbm, 49, rfl⟩
abbrev main_v22_1 : Ref sig .tc := ⟨.hbm, 50, rfl⟩
abbrev main_v22_2 : Ref sig .tc := ⟨.hbm, 51, rfl⟩
abbrev main_v22_3 : Ref sig .tc := ⟨.hbm, 52, rfl⟩
abbrev main_v22_4 : Ref sig .tc := ⟨.hbm, 53, rfl⟩
abbrev main_cst : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst_5 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29_0 : Ref sig .tc := ⟨.hbm, 62, rfl⟩
abbrev main_v29_1 : Ref sig .tc := ⟨.hbm, 63, rfl⟩
abbrev main_v29_2 : Ref sig .tc := ⟨.hbm, 64, rfl⟩
abbrev main_v30 : Ref sig .tc := ⟨.hbm, 65, rfl⟩
abbrev main_cst_6 : Ref sig .tc := ⟨.hbm, 66, rfl⟩
abbrev main_v31 : Ref sig .tc := ⟨.hbm, 67, rfl⟩
abbrev main_v32 : Ref sig .tc := ⟨.hbm, 68, rfl⟩
abbrev main_cst_7 : Ref sig .tc := ⟨.hbm, 69, rfl⟩
abbrev main_v33 : Ref sig .tc := ⟨.hbm, 70, rfl⟩
abbrev main_v34 : Ref sig .tc := ⟨.hbm, 71, rfl⟩
abbrev main_cst_8 : Ref sig .tc := ⟨.hbm, 72, rfl⟩
abbrev main_v35 : Ref sig .tc := ⟨.hbm, 73, rfl⟩
abbrev main_v36 : Ref sig .tc := ⟨.hbm, 74, rfl⟩
abbrev main_cst_9 : Ref sig .tc := ⟨.hbm, 75, rfl⟩
abbrev main_v37 : Ref sig .tc := ⟨.hbm, 76, rfl⟩
abbrev main_cst_10 : Ref sig .tc := ⟨.hbm, 77, rfl⟩
abbrev main_v38 : Ref sig .tc := ⟨.hbm, 78, rfl⟩
abbrev main_v39 : Ref sig .tc := ⟨.hbm, 79, rfl⟩
abbrev main_cst_11 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_12 : Ref sig .tc := ⟨.hbm, 85, rfl⟩
abbrev main_v44 : Ref sig .tc := ⟨.hbm, 86, rfl⟩
abbrev main_v45 : Ref sig .tc := ⟨.hbm, 87, rfl⟩
abbrev main_cst_13 : Ref sig .tc := ⟨.hbm, 88, rfl⟩
abbrev main_v46 : Ref sig .tc := ⟨.hbm, 89, rfl⟩
abbrev main_v47 : Ref sig .tc := ⟨.hbm, 90, rfl⟩
abbrev main_cst_14 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_15 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg2_0 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg1_1 : Ref sig .tc := ⟨.vmem, 41, rfl⟩
abbrev cc2_stg2_0 : Ref sig .tc := ⟨.vmem, 42, rfl⟩
abbrev cc2_stg2_1 : Ref sig .tc := ⟨.vmem, 43, rfl⟩
abbrev cc2_stg3_0 : Ref sig .tc := ⟨.vmem, 44, rfl⟩
abbrev cc2_stg3_1 : Ref sig .tc := ⟨.vmem, 45, rfl⟩
abbrev cc2_stg4_0 : Ref sig .tc := ⟨.vmem, 46, rfl⟩
abbrev cc2_stg4_1 : Ref sig .tc := ⟨.vmem, 47, rfl⟩
abbrev cc2_stg5_0 : Ref sig .tc := ⟨.vmem, 48, rfl⟩
abbrev cc2_stg5_1 : Ref sig .tc := ⟨.vmem, 49, rfl⟩
abbrev cc2_stg6_0 : Ref sig .tc := ⟨.vmem, 50, rfl⟩
abbrev cc2_stg6_1 : Ref sig .tc := ⟨.vmem, 51, rfl⟩
abbrev cc3_stg0_0 : Ref sig .tc := ⟨.vmem, 52, rfl⟩
abbrev cc3_stg0_1 : Ref sig .tc := ⟨.vmem, 53, rfl⟩
abbrev cc3_stg1_0 : Ref sig .tc := ⟨.vmem, 54, rfl⟩
abbrev cc3_stg1_1 : Ref sig .tc := ⟨.vmem, 55, rfl⟩
abbrev cc3_stg2_0 : Ref sig .tc := ⟨.vmem, 56, rfl⟩
abbrev cc3_stg3_0 : Ref sig .tc := ⟨.vmem, 57, rfl⟩
abbrev cc3_stg4_0 : Ref sig .tc := ⟨.vmem, 58, rfl⟩
abbrev cc3_stg5_0 : Ref sig .tc := ⟨.vmem, 59, rfl⟩
abbrev cc3_stg6_0 : Ref sig .tc := ⟨.vmem, 60, rfl⟩
abbrev cc3_stg6_1 : Ref sig .tc := ⟨.vmem, 61, rfl⟩
abbrev cc4_stg0_0 : Ref sig .tc := ⟨.vmem, 62, rfl⟩
abbrev cc4_stg0_1 : Ref sig .tc := ⟨.vmem, 63, rfl⟩
abbrev cc4_stg1_0 : Ref sig .tc := ⟨.vmem, 64, rfl⟩
abbrev cc4_stg1_1 : Ref sig .tc := ⟨.vmem, 65, rfl⟩
abbrev cc4_stg2_0 : Ref sig .tc := ⟨.vmem, 66, rfl⟩
abbrev cc4_stg3_0 : Ref sig .tc := ⟨.vmem, 67, rfl⟩
abbrev cc4_stg4_0 : Ref sig .tc := ⟨.vmem, 68, rfl⟩
abbrev cc4_stg5_0 : Ref sig .tc := ⟨.vmem, 69, rfl⟩
abbrev cc4_stg6_0 : Ref sig .tc := ⟨.vmem, 70, rfl⟩
abbrev cc4_stg6_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem2_0 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem2_1 : DmaSem sig := 43
abbrev cc2_sem3_0 : DmaSem sig := 44
abbrev cc2_sem3_1 : DmaSem sig := 45
abbrev cc2_sem4_0 : DmaSem sig := 46
abbrev cc2_sem4_1 : DmaSem sig := 47
abbrev cc2_sem5_0 : DmaSem sig := 48
abbrev cc2_sem5_1 : DmaSem sig := 49
abbrev cc2_sem6_0 : DmaSem sig := 50
abbrev cc2_sem6_1 : DmaSem sig := 51
abbrev cc3_sem0_0 : DmaSem sig := 52
abbrev cc3_sem0_1 : DmaSem sig := 53
abbrev cc3_sem1_0 : DmaSem sig := 54
abbrev cc3_sem1_1 : DmaSem sig := 55
abbrev cc3_sem2_0 : DmaSem sig := 56
abbrev cc3_sem3_0 : DmaSem sig := 57
abbrev cc3_sem4_0 : DmaSem sig := 58
abbrev cc3_sem5_0 : DmaSem sig := 59
abbrev cc3_sem6_0 : DmaSem sig := 60
abbrev cc3_sem6_1 : DmaSem sig := 61
abbrev cc4_sem0_0 : DmaSem sig := 62
abbrev cc4_sem0_1 : DmaSem sig := 63
abbrev cc4_sem1_0 : DmaSem sig := 64
abbrev cc4_sem1_1 : DmaSem sig := 65
abbrev cc4_sem2_0 : DmaSem sig := 66
abbrev cc4_sem3_0 : DmaSem sig := 67
abbrev cc4_sem4_0 : DmaSem sig := 68
abbrev cc4_sem5_0 : DmaSem sig := 69
abbrev cc4_sem6_0 : DmaSem sig := 70
abbrev cc4_sem6_1 : DmaSem sig := 71

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2000x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2000x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x1x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S8000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  inb_S4000x128_S4000x128_0_0 : ∀ a, (![0, 0] : Fin 2 → Nat) a + S4000x128.size a ≤ S4000x128.size a
  h_S4000x128 : 0 < S4000x128.numel
  broadcasts_S1x128_S4000x128 : S1x128.Broadcasts S4000x128
  shapeCasts_S4000x128_S4000x128 : S4000x128.ShapeCasts S4000x128
  reduces_S4000x128_S128 : S4000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  bcast_S_S50000x128 : S_.BroadcastsInDim S50000x128 (![] : Fin 0 → Fin S50000x128.rank)
  shapeCasts_S2000x128_S2000x128 : S2000x128.ShapeCasts S2000x128
  reduces_S2000x128_S128 : S2000x128.Reduces [0] S128
  shapeCasts_S200x1x128_S200x128 : S200x1x128.ShapeCasts S200x128
  reducesTo_S200x128_S128_d0 : S200x128.ReducesTo [0] S128
  h_S_ : 0 < S_.numel
  shapeCasts_S25x1x128_S25x128 : S25x1x128.ShapeCasts S25x128
  reducesTo_S25x128_S128_d0 : S25x128.ReducesTo [0] S128
  bcast_S_S128 : S_.BroadcastsInDim S128 (![] : Fin 0 → Fin S128.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  shapeCasts_S128_S128 : S128.ShapeCasts S128
  broadcasts_S1x128_S8000x128 : S1x128.Broadcasts S8000x128
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .f32 = 32 ∨ (Rect.block (s := S50000x128) S2000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S50000x128.size a
  hwx0_10 : ∀ i : grid0.Coords, EltTy.bits .bf16 = 32 ∨ (Rect.block (s := S50000x128) S2000x128.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S50000x128.size a
  hwx0_11 : ∀ i : grid0.Coords, EltTy.bits .bf16 = 32 ∨ (Rect.block (s := S50000x128) S2000x128.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2000x128.size a ≤ S50000x128.size a
  hwx0_12 : ∀ i : grid0.Coords, EltTy.bits .bf16 = 32 ∨ (Rect.block (s := S50000x128) S2000x128.size (cc0_transform_12 i) (hinb0_12 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S800000x128.size a
  hwx1_0 : ∀ i : grid1.Coords, EltTy.bits .f32 = 32 ∨ (Rect.block (s := S800000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S800000x128.size a
  hwx1_3 : ∀ i : grid1.Coords, EltTy.bits .bf16 = 32 ∨ (Rect.block (s := S800000x128) S4000x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S800000x128.size a
  hwx1_4 : ∀ i : grid1.Coords, EltTy.bits .bf16 = 32 ∨ (Rect.block (s := S800000x128) S4000x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S800000x128.size a
  hwx1_5 : ∀ i : grid1.Coords, EltTy.bits .bf16 = 32 ∨ (Rect.block (s := S800000x128) S4000x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S800000x128.size a
  hwx1_6 : ∀ i : grid1.Coords, EltTy.bits .f32 = 32 ∨ (Rect.block (s := S800000x128) S4000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S800000x128.size a
  hwx1_7 : ∀ i : grid1.Coords, EltTy.bits .f32 = 32 ∨ (Rect.block (s := S800000x128) S4000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x128.size a ≤ S800000x128.size a
  hwx1_8 : ∀ i : grid1.Coords, EltTy.bits .f32 = 32 ∨ (Rect.block (s := S800000x128) S4000x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x128.size a ≤ S200x1x128.size a
  hwx1_9 : ∀ i : grid1.Coords, EltTy.bits .f32 = 32 ∨ (Rect.block (s := S200x1x128) S1x1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x1x128.size a ≤ S200x1x128.size a
  hwx1_10 : ∀ i : grid1.Coords, EltTy.bits .f32 = 32 ∨ (Rect.block (s := S200x1x128) S1x1x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x128.size a ≤ S25x1x128.size a
  hwx2_5 : ∀ i : grid2.Coords, EltTy.bits .f32 = 32 ∨ (Rect.block (s := S25x1x128) S1x1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1x128.size a ≤ S25x1x128.size a
  hwx2_6 : ∀ i : grid2.Coords, EltTy.bits .f32 = 32 ∨ (Rect.block (s := S25x1x128) S1x1x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S800000x128.size a
  hwx3_0 : ∀ i : grid3.Coords, EltTy.bits .f32 = 32 ∨ (Rect.block (s := S800000x128) S8000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x128.size a ≤ S800000x128.size a
  hwx3_1 : ∀ i : grid3.Coords, EltTy.bits .f32 = 32 ∨ (Rect.block (s := S800000x128) S8000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S8000x128.size a ≤ S800000x128.size a
  hwx3_6 : ∀ i : grid3.Coords, EltTy.bits .f32 = 32 ∨ (Rect.block (s := S800000x128) S8000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128.size a ≤ S128.size a
  hwx4_5 : ∀ i : grid4.Coords, EltTy.bits .f32 = 32 ∨ (Rect.block (s := S128) S128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S50000x128.size a
  hwx4_6 : ∀ i : grid4.Coords, EltTy.bits .f32 = 32 ∨ (Rect.block (s := S50000x128) S2000x128.size (cc4_transform_6 i) (hinb4_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg10) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S2000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S2000x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_2) S2000x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_3) S2000x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14) S4000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21) S4000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v22_0) S4000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v22_1) S4000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v22_2) S4000x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v22_3) S1x1x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v22_4) S1x1x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v0_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg0) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v29_0) S2000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v29_1) S1x1x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v29_2) S1x1x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v22_0) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S8000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg16) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg17) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v45) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v54) S8000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v29_0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v47) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v53) S128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v55) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S_ : Shape := ⟨0, ![]⟩
abbrev S800000x1 : Shape := ⟨2, ![800000, 1]⟩
abbrev S50000 : Shape := ⟨1, ![50000]⟩
abbrev S50000x1 : Shape := ⟨2, ![50000, 1]⟩

abbrev nBuf : Space → Nat
  | .hbm => 173
  | .vmem => 0
  | .smem => 0
  | _ => 0

abbrev hbmTy0_0 (i : Nat) : BufTy := match i % 128 with
  | 0 => ⟨S50000x128, .f32⟩
  | 1 => ⟨S800000x128, .f32⟩
  | 2 => ⟨S800000, .i32⟩
  | 3 => ⟨S800000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128, .f32⟩
  | 15 => ⟨S128, .f32⟩
  | 16 => ⟨S128, .f32⟩
  | 17 => ⟨S128, .f32⟩
  | 18 => ⟨S50000x128, .f32⟩
  | 19 => ⟨S1x128, .f32⟩
  | 20 => ⟨S50000x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | 34 => ⟨S800000x128, .f32⟩
  | 35 => ⟨S1x128, .f32⟩
  | 36 => ⟨S800000x128, .f32⟩
  | 37 => ⟨S800000x128, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S800000x128, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S800000x128, .f32⟩
  | 58 => ⟨S800000x128, .f32⟩
  | 59 => ⟨S800000x128, .f32⟩
  | 60 => ⟨S_, .f32⟩
  | 61 => ⟨S800000x128, .f32⟩
  | 62 => ⟨S800000x128, .f32⟩
  | 63 => ⟨S_, .f32⟩
  | 64 => ⟨S800000x128, .f32⟩
  | 65 => ⟨S800000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S800000x128, .f32⟩
  | 76 => ⟨S_, .f32⟩
  | 77 => ⟨S50000x128, .f32⟩
  | 78 => ⟨S800000x1, .i32⟩
  | 79 => ⟨S50000x128, .f32⟩
  | 80 => ⟨S_, .f32⟩
  | 81 => ⟨S50000x128, .f32⟩
  | 82 => ⟨S800000x1, .i32⟩
  | 83 => ⟨S50000x128, .f32⟩
  | 84 => ⟨S_, .f32⟩
  | 85 => ⟨S800000, .f32⟩
  | 86 => ⟨S_, .f32⟩
  | 87 => ⟨S50000, .f32⟩
  | 88 => ⟨S800000x1, .i32⟩
  | 89 => ⟨S50000, .f32⟩
  | 90 => ⟨S_, .f32⟩
  | 91 => ⟨S50000x128, .f32⟩
  | 92 => ⟨S50000x128, .i1⟩
  | 93 => ⟨S_, .f32⟩
  | 94 => ⟨S_, .f32⟩
  | 95 => ⟨S50000x128, .f32⟩
  | 96 => ⟨S50000x128, .f32⟩
  | 97 => ⟨S50000x128, .f32⟩
  | 98 => ⟨S50000x128, .f32⟩
  | 99 => ⟨S50000x1, .f32⟩
  | 100 => ⟨S_, .f32⟩
  | 101 => ⟨S50000x1, .f32⟩
  | 102 => ⟨S50000x1, .i1⟩
  | 103 => ⟨S50000x128, .i1⟩
  | 104 => ⟨S50000x128, .f32⟩
  | 105 => ⟨S_, .f32⟩
  | 106 => ⟨S128, .f32⟩
  | 107 => ⟨S_, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S50000x128, .f32⟩
  | 114 => ⟨S_, .f32⟩
  | 115 => ⟨S128, .f32⟩
  | 116 => ⟨S_, .f32⟩
  | 117 => ⟨S128, .f32⟩
  | 118 => ⟨S128, .f32⟩
  | 119 => ⟨S1x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S128, .f32⟩
  | 127 => ⟨S128, .f32⟩
  | _ => ⟨S50000x128, .f32⟩

abbrev hbmTy0_1 (i : Nat) : BufTy := match i % 128 with
  | 0 => ⟨S128, .f32⟩
  | 1 => ⟨S1x128, .f32⟩
  | 2 => ⟨S50000x128, .f32⟩
  | 3 => ⟨S50000x128, .f32⟩
  | 4 => ⟨S1x128, .f32⟩
  | 5 => ⟨S50000x128, .f32⟩
  | 6 => ⟨S50000x128, .f32⟩
  | 7 => ⟨S_, .f32⟩
  | 8 => ⟨S50000x128, .f32⟩
  | 9 => ⟨S50000x128, .f32⟩
  | 10 => ⟨S50000x128, .f32⟩
  | 11 => ⟨S_, .f32⟩
  | 12 => ⟨S128, .f32⟩
  | 13 => ⟨S_, .f32⟩
  | 14 => ⟨S128, .f32⟩
  | 15 => ⟨S128, .f32⟩
  | 16 => ⟨S1x128, .f32⟩
  | 17 => ⟨S800000x128, .f32⟩
  | 18 => ⟨S800000x128, .f32⟩
  | 19 => ⟨S800000x128, .f32⟩
  | 20 => ⟨S_, .f32⟩
  | 21 => ⟨S128, .f32⟩
  | 22 => ⟨S_, .f32⟩
  | 23 => ⟨S128, .f32⟩
  | 24 => ⟨S128, .f32⟩
  | 25 => ⟨S1x128, .f32⟩
  | 26 => ⟨S800000x128, .f32⟩
  | 27 => ⟨S800000x128, .f32⟩
  | 28 => ⟨S1x128, .f32⟩
  | 29 => ⟨S800000x128, .f32⟩
  | 30 => ⟨S800000x128, .f32⟩
  | 31 => ⟨S_, .f32⟩
  | 32 => ⟨S128, .f32⟩
  | 33 => ⟨S128, .f32⟩
  | 34 => ⟨S128, .f32⟩
  | 35 => ⟨S1x128, .f32⟩
  | 36 => ⟨S800000x128, .f32⟩
  | 37 => ⟨S800000x128, .f32⟩
  | 38 => ⟨S1x128, .f32⟩
  | 39 => ⟨S800000x128, .f32⟩
  | 40 => ⟨S800000x128, .f32⟩
  | 41 => ⟨S_, .f32⟩
  | 42 => ⟨S800000x128, .f32⟩
  | 43 => ⟨S800000x128, .f32⟩
  | 44 => ⟨S800000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_v20 : Ref sig .tc := ⟨.hbm, 39, rfl⟩
abbrev main_v21 : Ref sig .tc := ⟨.hbm, 40, rfl⟩
abbrev main_c_0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_1 : Ref sig .tc := ⟨.hbm, 48, rfl⟩
abbrev main_v28 : Ref sig .tc := ⟨.hbm, 49, rfl⟩
abbrev main_v29 : Ref sig .tc := ⟨.hbm, 50, rfl⟩
abbrev main_c_2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_c_4 : Ref sig .tc := ⟨.hbm, 66, rfl⟩
abbrev main_v42 : Ref sig .tc := ⟨.hbm, 67, rfl⟩
abbrev main_v43 : Ref sig .tc := ⟨.hbm, 68, rfl⟩
abbrev main_c_5 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_cst_9 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_call0_v0 : Ref sig .tc := ⟨.hbm, 94, rfl⟩
abbrev main_call0_v1 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_v67 : Ref sig .tc := ⟨.hbm, 102, rfl⟩
abbrev main_call1_v0 : Ref sig .tc := ⟨.hbm, 103, rfl⟩
abbrev main_v68 : Ref sig .tc := ⟨.hbm, 104, rfl⟩
abbrev main_cst_13 : Ref sig .tc := ⟨.hbm, 105, rfl⟩
abbrev main_v69 : Ref sig .tc := ⟨.hbm, 106, rfl⟩
abbrev main_cst_14 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_15 : Ref sig .tc := ⟨.hbm, 114, rfl⟩
abbrev main_v76 : Ref sig .tc := ⟨.hbm, 115, rfl⟩
abbrev main_cst_16 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_17 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_call2_cst : Ref sig .tc := ⟨.hbm, 135, rfl⟩
abbrev main_call2_v0 : Ref sig .tc := ⟨.hbm, 136, rfl⟩
abbrev main_v94 : Ref sig .tc := ⟨.hbm, 137, rfl⟩
abbrev main_v95 : Ref sig .tc := ⟨.hbm, 138, rfl⟩
abbrev main_cst_18 : Ref sig .tc := ⟨.hbm, 139, rfl⟩
abbrev main_v96 : Ref sig .tc := ⟨.hbm, 140, rfl⟩
abbrev main_cst_19 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_20 : Ref sig .tc := ⟨.hbm, 148, rfl⟩
abbrev main_v103 : Ref sig .tc := ⟨.hbm, 149, rfl⟩
abbrev main_cst_21 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_22 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_call3_cst : Ref sig .tc := ⟨.hbm, 169, rfl⟩
abbrev main_call3_v0 : Ref sig .tc := ⟨.hbm, 170, rfl⟩
abbrev main_v121 : Ref sig .tc := ⟨.hbm, 171, rfl⟩
abbrev main_v122 : Ref sig .tc := ⟨.hbm, 172, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  reducesTo_S800000x128_S128_d0 : S800000x128.ReducesTo [0] S128
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.KernelRun.lean ====
/-
  The idealized kernel's run with EVERY unscoped buffer of the TensorCore named after the run: the memory the last
  region leaves. The kernel's @main is five pipelined regions among three stretches of host operations; the generated
  frame folds the memory through them (region k's arrays at what its write-backs leave, a stretch's buffers at its
  operations' results) and this module keeps the whole final memory in the post instead of the arguments only, so that
  the two result arrays can be read off it.
-/
import proofs.«139856_j11905649344612_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, and every unscoped buffer of the
    TensorCore ends at the contents the fold through the regions and the host stretches names (`W8`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.Gen

end
-- ==== Proof.ValueTools.lean ====
/-
  Small facts about layout and reduction operations read at an entry, over two-axis arrays with explicit coordinates:
  a length-b vector laid as one row and repeated down the rows reads, at (p, c), the vector at c; a sum over the
  row axis of an [R, C] array reads, at column c, the sum over the rows of the entries of that column (for a vector
  reduction and for the host's reduction from an initial value); a [1, C] row re-laid as [1, 1, C] reads the same entry.
-/
import Idealize.ShloMosaic.Lib.Pipeline.Value
import Idealize.ShloMosaic.Lib.ValueIdx
import Idealize.ShloMosaic.Lib.ValueLayout
import Idealize.ShloMosaic.PureOps.Ideal.Laws

noncomputable section

namespace Cert.ValueTools

open Idealize.ShloMosaic Idealize.ShloMosaic.ValueIdx

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A length-`b` vector laid as one row and repeated down `a` rows reads, at `(p, c)`, the vector at `c`. -/
theorem rowBcast_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The sum over the row axis of an `[R, C]` array of extended reals, at column `c`: the sum over the rows. -/
theorem colSum_apply {φ : FTy} {R C : ℕ} (src : FVec Ideal ⟨2, ![R, C]⟩ φ) (acc : BitVec φ.bits)
    (h : Shape.Reduces ⟨2, ![R, C]⟩ [0] ⟨1, ![C]⟩) (hφ : FKind.Formats φ) (hacc : acc = FKind.add.neutral φ hφ) (c : Fin C) :
    multiReduction .add [0] ⟨1, ![C]⟩ src acc h hφ hacc (ix1 c) = ∑ k : Fin R, src (ix2 k c) := by
  refine (Ideal.multiReduction_add_single src acc h hφ hacc (ix1 c)).trans ?_
  refine Finset.sum_congr rfl fun k _ => congrArg src ?_
  funext a
  match a with
  | ⟨0, _⟩ => rfl
  | ⟨1, _⟩ => rfl

/-- The host's sum over the row axis from an initial value, at column `c`: the initial value plus the sum over the rows. -/
theorem hostColSum_apply {R C : ℕ} (x : (⟨2, ![R, C]⟩ : Shape).Idx → EReal) (init : EReal)
    (h' : Shape.ReducesTo ⟨2, ![R, C]⟩ [0] ⟨1, ![C]⟩) (h : Shape.Reduces ⟨2, ![R, C]⟩ [0] ⟨1, ![C]⟩) (c : Fin C) :
    Ideal.hostReduceAdd h' x init (ix1 c) = init + ∑ k : Fin R, x (ix2 k c) := by
  refine (Ideal.hostReduceAdd_single h' h x init (ix1 c)).trans ?_
  refine congrArg (init + ·) (Finset.sum_congr rfl fun k _ => congrArg x ?_)
  funext a
  match a with
  | ⟨0, _⟩ => rfl
  | ⟨1, _⟩ => rfl

/-- The sum and the product of two extended reals, spelt as functions (so that an operand whose type only reduces to the
    extended reals is accepted as one). -/
abbrev radd (a b : EReal) : EReal := a + b
abbrev rmul (a b : EReal) : EReal := a * b

/-- Sums and products of equal extended reals are equal (the congruences the entry lemmas are assembled with). -/
theorem congr_add {a a' b b' : EReal} (h1 : a = a') (h2 : b = b') : a + b = a' + b' := by rw [h1, h2]
theorem congr_mul {a a' b b' : EReal} (h1 : a = a') (h2 : b = b') : a * b = a' * b' := by rw [h1, h2]
end Cert.ValueTools

end
-- ==== Proof.Spec.lean ====
/-
  The layer's arithmetic at one entry, as functions of extended reals; both programs are read down to these.
  `bnEntry`: batch normalisation with given mean and variance, scale and shift, clamped below at zero and added to the
  residual: res + max (g · (x − μ) · (var + ε)^(-1/2) + b, 0), with ε the float nearest 1e-5.
  `aggEntry`: the gated aggregate a + num / den', den' being den with a zero replaced by one.
-/
import Idealize.ShloMosaic.PureOps.Ideal
import Idealize.ShloMosaic.PureOps.Ideal.Laws

noncomputable section

namespace Cert.Spec

open Idealize.ShloMosaic

/-- The float nearest 1e-5, as the extended real its word denotes. -/
def eps : EReal := Ideal.ofBits .f32 0x3727C5AC#32

/-- Normalise, scale, shift, clamp at zero, add the residual. -/
def bnEntry (x res g b mu var : EReal) : EReal :=
  res + max (g * (x - mu) * Ideal.rsqrt (var + eps) + b) 0

/-- The aggregate before the fallback: `a + num / den'`, `den'` being `den` with a zero replaced by one. -/
def aggEntry (a num den : EReal) : EReal :=
  a + Ideal.div num (if den = 0 then 1 else den)

/-- The gated aggregate with its fallback, as a program tests it on a word `den`: where `den > 0`, `a + num / den'`
    (`den'` being `den` with a zero replaced by one); elsewhere the node's own feature `h`. -/
def aggRaw (den a num h : EReal) : EReal :=
  Scalar.select (Ideal.cmp .ogt den (Ideal.ofBits .f32 0x00000000#32))
    (a + Ideal.div num (Scalar.select (Ideal.cmp .oeq den (Ideal.ofBits .f32 0x00000000#32)) (Ideal.ofBits .f32 0x3F800000#32) den)) h

theorem bnEntry_congr {a0 a1 a2 a3 a4 a5 b0 b1 b2 b3 b4 b5 : EReal} (e0 : a0 = b0) (e1 : a1 = b1) (e2 : a2 = b2)
    (e3 : a3 = b3) (e4 : a4 = b4) (e5 : a5 = b5) : bnEntry a0 a1 a2 a3 a4 a5 = bnEntry b0 b1 b2 b3 b4 b5 := by
  rw [e0, e1, e2, e3, e4, e5]
theorem aggRaw_congr {a0 a1 a2 a3 b0 b1 b2 b3 : EReal} (e0 : a0 = b0) (e1 : a1 = b1) (e2 : a2 = b2) (e3 : a3 = b3) :
    aggRaw a0 a1 a2 a3 = aggRaw b0 b1 b2 b3 := by
  rw [e0, e1, e2, e3]

end Cert.Spec

end
-- ==== Proof.Region0.lean ====
/-
  Region 0 of the kernel (the four node projections, 25 row blocks of 2000 nodes): after the region each of its four output
  arrays holds, at every entry (n, c), (∑ₖ h[n,k] · W[k,c]) + b[c] for its own weight W and bias b, of the arrays the region
  found. Block t of an output is the product of block t of h with the whole weight, plus the bias along the rows; the
  blocks tile the array. (The three narrower outputs are format changes of such a sum: the identity on extended reals.)
-/
import proofs.«139856_j11905649344612_2_alg».proof.Proof.Gen.KernelIdeal.Frame
import proofs.«139856_j11905649344612_2_alg».proof.Proof.ValueTools
import proofs.«139856_j11905649344612_2_alg».proof.Proof.Spec

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.ValueTools Cert.Spec
open Idealize.ShloMosaic.Pipeline (Dat Cfg Window)

variable (V : (c : Dev nD) → (b : Ref sig .tc) → Buf (Elt Ideal) ((c : Thread nD τ).loc b))

theorem lhs0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem rhs0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem rhs1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block's matrix product into a zero accumulator, at entry `(p, q)`: the sum over `k` of row `p` of the left block
    times column `q` of the right matrix. -/
theorem matmul_entry {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs0 _ _
    | ⟨1, _⟩ => exact (lhs1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs0 _ _).trans hk
    | ⟨1, _⟩ => exact rhs1 _ _)
  rw [el, er]

/-- Row `r` of block `b` is row `2000 b + r` of the array. -/
def blockRow (b : Fin 25) (r : Fin 2000) : Fin 50000 := ⟨b.val * 2000 + r.val, by have := b.isLt; have := r.isLt; omega⟩

/-- Rows of x times W, plus b along the rows. -/
def linRows (x : S50000x128.Idx → EReal) (W : S128x128.Idx → EReal) (b : S128.Idx → EReal) : S50000x128.Idx → EReal :=
  fun i => (∑ k : Fin 128, x (ix2 (i 0) k) * W (ix2 k (i 1))) + b (ix1 (i 1))

theorem out9_eq (x0 : Vec Ideal S2000x128 .f32) (x1 x3 x5 x7 : Vec Ideal S128x128 .f32) (x2 x4 x6 x8 : Vec Ideal S128 .f32) :
    out0_9 (F := Ideal) x0 x1 x2 x3 x4 x5 x6 x7 x8 = k0_pay3 x0 x1 x2 := by
  unfold out0_9; rw [View.canon_unit_zero hz2]
  simp only [View.ld_unit_zero (S := S2000x128) hz2, View.ld_unit_zero (S := S128x128) hz2, View.ld_unit_zero (S := S128) hz1]
theorem out10_eq (x0 : Vec Ideal S2000x128 .f32) (x1 x3 x5 x7 : Vec Ideal S128x128 .f32) (x2 x4 x6 x8 : Vec Ideal S128 .f32) :
    out0_10 (F := Ideal) x0 x1 x2 x3 x4 x5 x6 x7 x8 = k0_pay5 x0 x3 x4 := by
  unfold out0_10; rw [View.canon_unit_zero hz2]
  simp only [View.ld_unit_zero (S := S2000x128) hz2, View.ld_unit_zero (S := S128x128) hz2, View.ld_unit_zero (S := S128) hz1]
theorem out11_eq (x0 : Vec Ideal S2000x128 .f32) (x1 x3 x5 x7 : Vec Ideal S128x128 .f32) (x2 x4 x6 x8 : Vec Ideal S128 .f32) :
    out0_11 (F := Ideal) x0 x1 x2 x3 x4 x5 x6 x7 x8 = k0_pay6 x0 x5 x6 := by
  unfold out0_11; rw [View.canon_unit_zero hz2]
  simp only [View.ld_unit_zero (S := S2000x128) hz2, View.ld_unit_zero (S := S128x128) hz2, View.ld_unit_zero (S := S128) hz1]
theorem out12_eq (x0 : Vec Ideal S2000x128 .f32) (x1 x3 x5 x7 : Vec Ideal S128x128 .f32) (x2 x4 x6 x8 : Vec Ideal S128 .f32) :
    out0_12 (F := Ideal) x0 x1 x2 x3 x4 x5 x6 x7 x8 = k0_pay1 (k0_pay4 x0 x7 x8) := by
  unfold out0_12; rw [View.canon_unit_zero hz2]
  simp only [View.ld_unit_zero (S := S2000x128) hz2, View.ld_unit_zero (S := S128x128) hz2, View.ld_unit_zero (S := S128) hz1]

theorem pay3_apply (x0 : Vec Ideal S2000x128 .f32) (W : Vec Ideal S128x128 .f32) (b : Vec Ideal S128 .f32) (p : Fin 2000) (q : Fin 128) :
    k0_pay3 (F := Ideal) x0 W b (ix2 p q) = (∑ k : Fin 128, x0 (ix2 p k) * W (ix2 k q)) + b (ix1 q) := by
  unfold k0_pay3 k0_pay2
  simp only [addf_apply, rowBcast_apply]
  rw [matmul_entry]
  rfl
theorem pay5_apply (x0 : Vec Ideal S2000x128 .f32) (W : Vec Ideal S128x128 .f32) (b : Vec Ideal S128 .f32) (p : Fin 2000) (q : Fin 128) :
    k0_pay5 (F := Ideal) x0 W b (ix2 p q) = (∑ k : Fin 128, x0 (ix2 p k) * W (ix2 k q)) + b (ix1 q) := by
  unfold k0_pay5 k0_pay2
  simp only [addf_apply, truncf_apply, rowBcast_apply]
  rw [matmul_entry]
  rfl
theorem pay6_apply (x0 : Vec Ideal S2000x128 .f32) (W : Vec Ideal S128x128 .f32) (b : Vec Ideal S128 .f32) (p : Fin 2000) (q : Fin 128) :
    k0_pay6 (F := Ideal) x0 W b (ix2 p q) = (∑ k : Fin 128, x0 (ix2 p k) * W (ix2 k q)) + b (ix1 q) := by
  unfold k0_pay6 k0_pay2
  simp only [addf_apply, truncf_apply, rowBcast_apply]
  rw [matmul_entry]
  rfl
theorem pay14_apply (x0 : Vec Ideal S2000x128 .f32) (W : Vec Ideal S128x128 .f32) (b : Vec Ideal S128 .f32) (p : Fin 2000) (q : Fin 128) :
    k0_pay1 (F := Ideal) (k0_pay4 x0 W b) (ix2 p q) = (∑ k : Fin 128, x0 (ix2 p k) * W (ix2 k q)) + b (ix1 q) := by
  unfold k0_pay1 k0_pay4 k0_pay2
  simp only [addf_apply, truncf_apply, rowBcast_apply]
  rw [matmul_entry]
  rfl

/-- The printed index maps over the grid: the node block moves with the point, the weights and biases stay. -/
theorem idx_in : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = 0 ∧ win0_7.index t (1 : Fin 2) = 0 ∧ win0_8.index t (0 : Fin 1) = 0 :=
  (by decide +kernel : ∀ t : Fin grid0.N, _)
theorem idx_out9 : ∀ t : Fin cfg0.N, win0_9.index t (0 : Fin 2) = t.val ∧ win0_9.index t (1 : Fin 2) = 0 :=
  (by decide +kernel : ∀ t : Fin grid0.N, _)
theorem idx_out10 : ∀ t : Fin cfg0.N, win0_10.index t (0 : Fin 2) = t.val ∧ win0_10.index t (1 : Fin 2) = 0 :=
  (by decide +kernel : ∀ t : Fin grid0.N, _)
theorem idx_out11 : ∀ t : Fin cfg0.N, win0_11.index t (0 : Fin 2) = t.val ∧ win0_11.index t (1 : Fin 2) = 0 :=
  (by decide +kernel : ∀ t : Fin grid0.N, _)
theorem idx_out12 : ∀ t : Fin cfg0.N, win0_12.index t (0 : Fin 2) = t.val ∧ win0_12.index t (1 : Fin 2) = 0 :=
  (by decide +kernel : ∀ t : Fin grid0.N, _)

set_option maxHeartbeats 4000000 in
theorem flushed9_eq (c : Dev nD) (t : Fin cfg0.N) :
    (dat0 V c).flushed 9 t = ((cfg0.win 9).blk t).view.read (Elt Ideal) (linRows (V c main_arg0) (V c main_arg4) (V c main_arg5)) := by
  show (cfg0.win 9).cut (grid0.coords t) ((dat0 V c).after 9 t) = _
  rw [after0_9, out9_eq]
  obtain ⟨a0, a1, w10, w11, v2, w30, w31, v4, w50, w51, v6, w70, w71, v8⟩ := idx_in t
  obtain ⟨o0, o1⟩ := idx_out9 t
  funext j
  obtain ⟨p, q, rfl⟩ : ∃ (p : Fin 2000) (q : Fin 128), j = ix2 p q := ⟨j 0, j 1, eq_ix2 j⟩
  refine (pay3_apply _ _ _ p q).trans ?_
  have h0 : ∀ (a : Fin 2000) (b : Fin 128), ((cfg0.win 0).blk t).view.emb (ix2 a b) = ix2 (blockRow t a) b := by
    intro a b; funext ax; apply Fin.ext
    match ax with
    | ⟨0, _⟩ => show win0_0.index t (0 : Fin 2) * 2000 + 1 * a.val = t.val * 2000 + a.val; omega
    | ⟨1, _⟩ => show win0_0.index t (1 : Fin 2) * 128 + 1 * b.val = b.val; omega
  have hW : ∀ (a : Fin 128) (b : Fin 128), ((cfg0.win 1).blk t).view.emb (ix2 a b) = ix2 a b := by
    intro a b; funext ax; apply Fin.ext
    match ax with
    | ⟨0, _⟩ => show win0_1.index t (0 : Fin 2) * 128 + 1 * a.val = a.val; omega
    | ⟨1, _⟩ => show win0_1.index t (1 : Fin 2) * 128 + 1 * b.val = b.val; omega
  have hB : ∀ (b : Fin 128), ((cfg0.win 2).blk t).view.emb (ix1 b) = ix1 b := by
    intro b; funext ax; apply Fin.ext
    match ax with
    | ⟨0, _⟩ => show win0_2.index t (0 : Fin 1) * 128 + 1 * b.val = b.val; omega
  have ho : ((cfg0.win 9).blk t).view.emb (ix2 p q) = ix2 (blockRow t p) q := by
    funext ax; apply Fin.ext
    match ax with
    | ⟨0, _⟩ => show win0_9.index t (0 : Fin 2) * 2000 + 1 * p.val = t.val * 2000 + p.val; omega
    | ⟨1, _⟩ => show win0_9.index t (1 : Fin 2) * 128 + 1 * q.val = q.val; omega
  show _ = linRows (V c main_arg0) (V c main_arg4) (V c main_arg5) (((cfg0.win 9).blk t).view.emb (ix2 p q))
  refine Eq.trans ?_ (congrArg (linRows (V c main_arg0) (V c main_arg4) (V c main_arg5)) ho).symm
  show radd (∑ k : Fin 128, rmul (V c main_arg0 (((cfg0.win 0).blk t).view.emb (ix2 p k))) (V c main_arg4 (((cfg0.win 1).blk t).view.emb (ix2 k q))))
      (V c main_arg5 (((cfg0.win 2).blk t).view.emb (ix1 q)))
    = radd (∑ k : Fin 128, rmul (V c main_arg0 (ix2 (blockRow t p) k)) (V c main_arg4 (ix2 k q))) (V c main_arg5 (ix1 q))
  exact congr_add (Finset.sum_congr rfl fun k _ => congr_mul (congrArg (V c main_arg0) (h0 p k)) (congrArg (V c main_arg4) (hW k q)))
    (congrArg (V c main_arg5) (hB q))
set_option maxHeartbeats 4000000 in
theorem flushed10_eq (c : Dev nD) (t : Fin cfg0.N) :
    (dat0 V c).flushed 10 t = ((cfg0.win 10).blk t).view.read (Elt Ideal) (linRows (V c main_arg0) (V c main_arg6) (V c main_arg7)) := by
  show (cfg0.win 10).cut (grid0.coords t) ((dat0 V c).after 10 t) = _
  rw [after0_10, out10_eq]
  obtain ⟨a0, a1, w10, w11, v2, w30, w31, v4, w50, w51, v6, w70, w71, v8⟩ := idx_in t
  obtain ⟨o0, o1⟩ := idx_out10 t
  funext j
  obtain ⟨p, q, rfl⟩ : ∃ (p : Fin 2000) (q : Fin 128), j = ix2 p q := ⟨j 0, j 1, eq_ix2 j⟩
  refine (pay5_apply _ _ _ p q).trans ?_
  have h0 : ∀ (a : Fin 2000) (b : Fin 128), ((cfg0.win 0).blk t).view.emb (ix2 a b) = ix2 (blockRow t a) b := by
    intro a b; funext ax; apply Fin.ext
    match ax with
    | ⟨0, _⟩ => show win0_0.index t (0 : Fin 2) * 2000 + 1 * a.val = t.val * 2000 + a.val; omega
    | ⟨1, _⟩ => show win0_0.index t (1 : Fin 2) * 128 + 1 * b.val = b.val; omega
  have hW : ∀ (a : Fin 128) (b : Fin 128), ((cfg0.win 3).blk t).view.emb (ix2 a b) = ix2 a b := by
    intro a b; funext ax; apply Fin.ext
    match ax with
    | ⟨0, _⟩ => show win0_3.index t (0 : Fin 2) * 128 + 1 * a.val = a.val; omega
    | ⟨1, _⟩ => show win0_3.index t (1 : Fin 2) * 128 + 1 * b.val = b.val; omega
  have hB : ∀ (b : Fin 128), ((cfg0.win 4).blk t).view.emb (ix1 b) = ix1 b := by
    intro b; funext ax; apply Fin.ext
    match ax with
    | ⟨0, _⟩ => show win0_4.index t (0 : Fin 1) * 128 + 1 * b.val = b.val; omega
  have ho : ((cfg0.win 10).blk t).view.emb (ix2 p q) = ix2 (blockRow t p) q := by
    funext ax; apply Fin.ext
    match ax with
    | ⟨0, _⟩ => show win0_10.index t (0 : Fin 2) * 2000 + 1 * p.val = t.val * 2000 + p.val; omega
    | ⟨1, _⟩ => show win0_10.index t (1 : Fin 2) * 128 + 1 * q.val = q.val; omega
  show _ = linRows (V c main_arg0) (V c main_arg6) (V c main_arg7) (((cfg0.win 10).blk t).view.emb (ix2 p q))
  refine Eq.trans ?_ (congrArg (linRows (V c main_arg0) (V c main_arg6) (V c main_arg7)) ho).symm
  show radd (∑ k : Fin 128, rmul (V c main_arg0 (((cfg0.win 0).blk t).view.emb (ix2 p k))) (V c main_arg6 (((cfg0.win 3).blk t).view.emb (ix2 k q))))
      (V c main_arg7 (((cfg0.win 4).blk t).view.emb (ix1 q)))
    = radd (∑ k : Fin 128, rmul (V c main_arg0 (ix2 (blockRow t p) k)) (V c main_arg6 (ix2 k q))) (V c main_arg7 (ix1 q))
  exact congr_add (Finset.sum_congr rfl fun k _ => congr_mul (congrArg (V c main_arg0) (h0 p k)) (congrArg (V c main_arg6) (hW k q)))
    (congrArg (V c main_arg7) (hB q))
set_option maxHeartbeats 4000000 in
theorem flushed11_eq (c : Dev nD) (t : Fin cfg0.N) :
    (dat0 V c).flushed 11 t = ((cfg0.win 11).blk t).view.read (Elt Ideal) (linRows (V c main_arg0) (V c main_arg10) (V c main_arg11)) := by
  show (cfg0.win 11).cut (grid0.coords t) ((dat0 V c).after 11 t) = _
  rw [after0_11, out11_eq]
  obtain ⟨a0, a1, w10, w11, v2, w30, w31, v4, w50, w51, v6, w70, w71, v8⟩ := idx_in t
  obtain ⟨o0, o1⟩ := idx_out11 t
  funext j
  obtain ⟨p, q, rfl⟩ : ∃ (p : Fin 2000) (q : Fin 128), j = ix2 p q := ⟨j 0, j 1, eq_ix2 j⟩
  refine (pay6_apply _ _ _ p q).trans ?_
  have h0 : ∀ (a : Fin 2000) (b : Fin 128), ((cfg0.win 0).blk t).view.emb (ix2 a b) = ix2 (blockRow t a) b := by
    intro a b; funext ax; apply Fin.ext
    match ax with
    | ⟨0, _⟩ => show win0_0.index t (0 : Fin 2) * 2000 + 1 * a.val = t.val * 2000 + a.val; omega
    | ⟨1, _⟩ => show win0_0.index t (1 : Fin 2) * 128 + 1 * b.val = b.val; omega
  have hW : ∀ (a : Fin 128) (b : Fin 128), ((cfg0.win 5).blk t).view.emb (ix2 a b) = ix2 a b := by
    intro a b; funext ax; apply Fin.ext
    match ax with
    | ⟨0, _⟩ => show win0_5.index t (0 : Fin 2) * 128 + 1 * a.val = a.val; omega
    | ⟨1, _⟩ => show win0_5.index t (1 : Fin 2) * 128 + 1 * b.val = b.val; omega
  have hB : ∀ (b : Fin 128), ((cfg0.win 6).blk t).view.emb (ix1 b) = ix1 b := by
    intro b; funext ax; apply Fin.ext
    match ax with
    | ⟨0, _⟩ => show win0_6.index t (0 : Fin 1) * 128 + 1 * b.val = b.val; omega
  have ho : ((cfg0.win 11).blk t).view.emb (ix2 p q) = ix2 (blockRow t p) q := by
    funext ax; apply Fin.ext
    match ax with
    | ⟨0, _⟩ => show win0_11.index t (0 : Fin 2) * 2000 + 1 * p.val = t.val * 2000 + p.val; omega
    | ⟨1, _⟩ => show win0_11.index t (1 : Fin 2) * 128 + 1 * q.val = q.val; omega
  show _ = linRows (V c main_arg0) (V c main_arg10) (V c main_arg11) (((cfg0.win 11).blk t).view.emb (ix2 p q))
  refine Eq.trans ?_ (congrArg (linRows (V c main_arg0) (V c main_arg10) (V c main_arg11)) ho).symm
  show radd (∑ k : Fin 128, rmul (V c main_arg0 (((cfg0.win 0).blk t).view.emb (ix2 p k))) (V c main_arg10 (((cfg0.win 5).blk t).view.emb (ix2 k q))))
      (V c main_arg11 (((cfg0.win 6).blk t).view.emb (ix1 q)))
    = radd (∑ k : Fin 128, rmul (V c main_arg0 (ix2 (blockRow t p) k)) (V c main_arg10 (ix2 k q))) (V c main_arg11 (ix1 q))
  exact congr_add (Finset.sum_congr rfl fun k _ => congr_mul (congrArg (V c main_arg0) (h0 p k)) (congrArg (V c main_arg10) (hW k q)))
    (congrArg (V c main_arg11) (hB q))
set_option maxHeartbeats 4000000 in
theorem flushed12_eq (c : Dev nD) (t : Fin cfg0.N) :
    (dat0 V c).flushed 12 t = ((cfg0.win 12).blk t).view.read (Elt Ideal) (linRows (V c main_arg0) (V c main_arg12) (V c main_arg13)) := by
  show (cfg0.win 12).cut (grid0.coords t) ((dat0 V c).after 12 t) = _
  rw [after0_12, out12_eq]
  obtain ⟨a0, a1, w10, w11, v2, w30, w31, v4, w50, w51, v6, w70, w71, v8⟩ := idx_in t
  obtain ⟨o0, o1⟩ := idx_out12 t
  funext j
  obtain ⟨p, q, rfl⟩ : ∃ (p : Fin 2000) (q : Fin 128), j = ix2 p q := ⟨j 0, j 1, eq_ix2 j⟩
  refine (pay14_apply _ _ _ p q).trans ?_
  have h0 : ∀ (a : Fin 2000) (b : Fin 128), ((cfg0.win 0).blk t).view.emb (ix2 a b) = ix2 (blockRow t a) b := by
    intro a b; funext ax; apply Fin.ext
    match ax with
    | ⟨0, _⟩ => show win0_0.index t (0 : Fin 2) * 2000 + 1 * a.val = t.val * 2000 + a.val; omega
    | ⟨1, _⟩ => show win0_0.index t (1 : Fin 2) * 128 + 1 * b.val = b.val; omega
  have hW : ∀ (a : Fin 128) (b : Fin 128), ((cfg0.win 7).blk t).view.emb (ix2 a b) = ix2 a b := by
    intro a b; funext ax; apply Fin.ext
    match ax with
    | ⟨0, _⟩ => show win0_7.index t (0 : Fin 2) * 128 + 1 * a.val = a.val; omega
    | ⟨1, _⟩ => show win0_7.index t (1 : Fin 2) * 128 + 1 * b.val = b.val; omega
  have hB : ∀ (b : Fin 128), ((cfg0.win 8).blk t).view.emb (ix1 b) = ix1 b := by
    intro b; funext ax; apply Fin.ext
    match ax with
    | ⟨0, _⟩ => show win0_8.index t (0 : Fin 1) * 128 + 1 * b.val = b.val; omega
  have ho : ((cfg0.win 12).blk t).view.emb (ix2 p q) = ix2 (blockRow t p) q := by
    funext ax; apply Fin.ext
    match ax with
    | ⟨0, _⟩ => show win0_12.index t (0 : Fin 2) * 2000 + 1 * p.val = t.val * 2000 + p.val; omega
    | ⟨1, _⟩ => show win0_12.index t (1 : Fin 2) * 128 + 1 * q.val = q.val; omega
  show _ = linRows (V c main_arg0) (V c main_arg12) (V c main_arg13) (((cfg0.win 12).blk t).view.emb (ix2 p q))
  refine Eq.trans ?_ (congrArg (linRows (V c main_arg0) (V c main_arg12) (V c main_arg13)) ho).symm
  show radd (∑ k : Fin 128, rmul (V c main_arg0 (((cfg0.win 0).blk t).view.emb (ix2 p k))) (V c main_arg12 (((cfg0.win 7).blk t).view.emb (ix2 k q))))
      (V c main_arg13 (((cfg0.win 8).blk t).view.emb (ix1 q)))
    = radd (∑ k : Fin 128, rmul (V c main_arg0 (ix2 (blockRow t p) k)) (V c main_arg12 (ix2 k q))) (V c main_arg13 (ix1 q))
  exact congr_add (Finset.sum_congr rfl fun k _ => congr_mul (congrArg (V c main_arg0) (h0 p k)) (congrArg (V c main_arg12) (hW k q)))
    (congrArg (V c main_arg13) (hB q))

/-- An entry of the array is in point `t`'s block iff each coordinate is in the block's range on its axis. -/
theorem mem_blk9 (t : Fin cfg0.N) (i : S50000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v0_0).slice (win0_9.rect t)).set ↔ _
  rw [View.set_slice_whole, Rect.mem_set_unit]
  exact Iff.rfl

/-- Every entry of the array is in the block of the point its row falls in. -/
theorem cover9 (i : S50000x128.Idx) : ∃ t : Fin cfg0.N, (cfg0.win 9).flush t = true ∧ i ∈ ((cfg0.win 9).blk t).view.set := by
  have hi0 : (i 0).val < 50000 := (i 0).isLt
  have hi1 : (i 1).val < 128 := (i 1).isLt
  refine ⟨⟨(i 0).val / 2000, by show (i 0).val / 2000 < 25; omega⟩, flush0_9 _, ?_⟩
  rw [mem_blk9]
  obtain ⟨e0, e1⟩ := idx_out9 ⟨(i 0).val / 2000, by show (i 0).val / 2000 < 25; omega⟩
  intro a
  match a with
  | ⟨0, _⟩ => show win0_9.index _ (0 : Fin 2) * 2000 ≤ (i 0).val ∧ (i 0).val < win0_9.index _ (0 : Fin 2) * 2000 + 2000; rw [e0]; show (i 0).val / 2000 * 2000 ≤ (i 0).val ∧ (i 0).val < (i 0).val / 2000 * 2000 + 2000; omega
  | ⟨1, _⟩ => show win0_9.index _ (1 : Fin 2) * 128 ≤ (i 1).val ∧ (i 1).val < win0_9.index _ (1 : Fin 2) * 128 + 128; rw [e1]; omega

/-- An entry of the array is in point `t`'s block iff each coordinate is in the block's range on its axis. -/
theorem mem_blk10 (t : Fin cfg0.N) (i : S50000x128.Idx) :
    i ∈ ((cfg0.win 10).blk t).view.set ↔ ∀ a : Fin 2, win0_10.index t a * S2000x128.size a ≤ (i a).val ∧ (i a).val < win0_10.index t a * S2000x128.size a + S2000x128.size a := by
  show i ∈ ((View.whole main_v0_1).slice (win0_10.rect t)).set ↔ _
  rw [View.set_slice_whole, Rect.mem_set_unit]
  exact Iff.rfl

/-- Every entry of the array is in the block of the point its row falls in. -/
theorem cover10 (i : S50000x128.Idx) : ∃ t : Fin cfg0.N, (cfg0.win 10).flush t = true ∧ i ∈ ((cfg0.win 10).blk t).view.set := by
  have hi0 : (i 0).val < 50000 := (i 0).isLt
  have hi1 : (i 1).val < 128 := (i 1).isLt
  refine ⟨⟨(i 0).val / 2000, by show (i 0).val / 2000 < 25; omega⟩, flush0_10 _, ?_⟩
  rw [mem_blk10]
  obtain ⟨e0, e1⟩ := idx_out10 ⟨(i 0).val / 2000, by show (i 0).val / 2000 < 25; omega⟩
  intro a
  match a with
  | ⟨0, _⟩ => show win0_10.index _ (0 : Fin 2) * 2000 ≤ (i 0).val ∧ (i 0).val < win0_10.index _ (0 : Fin 2) * 2000 + 2000; rw [e0]; show (i 0).val / 2000 * 2000 ≤ (i 0).val ∧ (i 0).val < (i 0).val / 2000 * 2000 + 2000; omega
  | ⟨1, _⟩ => show win0_10.index _ (1 : Fin 2) * 128 ≤ (i 1).val ∧ (i 1).val < win0_10.index _ (1 : Fin 2) * 128 + 128; rw [e1]; omega

/-- An entry of the array is in point `t`'s block iff each coordinate is in the block's range on its axis. -/
theorem mem_blk11 (t : Fin cfg0.N) (i : S50000x128.Idx) :
    i ∈ ((cfg0.win 11).blk t).view.set ↔ ∀ a : Fin 2, win0_11.index t a * S2000x128.size a ≤ (i a).val ∧ (i a).val < win0_11.index t a * S2000x128.size a + S2000x128.size a := by
  show i ∈ ((View.whole main_v0_2).slice (win0_11.rect t)).set ↔ _
  rw [View.set_slice_whole, Rect.mem_set_unit]
  exact Iff.rfl

/-- Every entry of the array is in the block of the point its row falls in. -/
theorem cover11 (i : S50000x128.Idx) : ∃ t : Fin cfg0.N, (cfg0.win 11).flush t = true ∧ i ∈ ((cfg0.win 11).blk t).view.set := by
  have hi0 : (i 0).val < 50000 := (i 0).isLt
  have hi1 : (i 1).val < 128 := (i 1).isLt
  refine ⟨⟨(i 0).val / 2000, by show (i 0).val / 2000 < 25; omega⟩, flush0_11 _, ?_⟩
  rw [mem_blk11]
  obtain ⟨e0, e1⟩ := idx_out11 ⟨(i 0).val / 2000, by show (i 0).val / 2000 < 25; omega⟩
  intro a
  match a with
  | ⟨0, _⟩ => show win0_11.index _ (0 : Fin 2) * 2000 ≤ (i 0).val ∧ (i 0).val < win0_11.index _ (0 : Fin 2) * 2000 + 2000; rw [e0]; show (i 0).val / 2000 * 2000 ≤ (i 0).val ∧ (i 0).val < (i 0).val / 2000 * 2000 + 2000; omega
  | ⟨1, _⟩ => show win0_11.index _ (1 : Fin 2) * 128 ≤ (i 1).val ∧ (i 1).val < win0_11.index _ (1 : Fin 2) * 128 + 128; rw [e1]; omega

/-- An entry of the array is in point `t`'s block iff each coordinate is in the block's range on its axis. -/
theorem mem_blk12 (t : Fin cfg0.N) (i : S50000x128.Idx) :
    i ∈ ((cfg0.win 12).blk t).view.set ↔ ∀ a : Fin 2, win0_12.index t a * S2000x128.size a ≤ (i a).val ∧ (i a).val < win0_12.index t a * S2000x128.size a + S2000x128.size a := by
  show i ∈ ((View.whole main_v0_3).slice (win0_12.rect t)).set ↔ _
  rw [View.set_slice_whole, Rect.mem_set_unit]
  exact Iff.rfl

/-- Every entry of the array is in the block of the point its row falls in. -/
theorem cover12 (i : S50000x128.Idx) : ∃ t : Fin cfg0.N, (cfg0.win 12).flush t = true ∧ i ∈ ((cfg0.win 12).blk t).view.set := by
  have hi0 : (i 0).val < 50000 := (i 0).isLt
  have hi1 : (i 1).val < 128 := (i 1).isLt
  refine ⟨⟨(i 0).val / 2000, by show (i 0).val / 2000 < 25; omega⟩, flush0_12 _, ?_⟩
  rw [mem_blk12]
  obtain ⟨e0, e1⟩ := idx_out12 ⟨(i 0).val / 2000, by show (i 0).val / 2000 < 25; omega⟩
  intro a
  match a with
  | ⟨0, _⟩ => show win0_12.index _ (0 : Fin 2) * 2000 ≤ (i 0).val ∧ (i 0).val < win0_12.index _ (0 : Fin 2) * 2000 + 2000; rw [e0]; show (i 0).val / 2000 * 2000 ≤ (i 0).val ∧ (i 0).val < (i 0).val / 2000 * 2000 + 2000; omega
  | ⟨1, _⟩ => show win0_12.index _ (1 : Fin 2) * 128 ≤ (i 1).val ∧ (i 1).val < win0_12.index _ (1 : Fin 2) * 128 + 128; rw [e1]; omega

theorem final9 (c : Dev nD) : (dat0 V c).arrAt 9 cfg0.N = linRows (V c main_arg0) (V c main_arg4) (V c main_arg5) :=
  (dat0 V c).arrAt_eq_of_cover 9 _ (fun t _ => flushed9_eq V c t) cover9
theorem final10 (c : Dev nD) : (dat0 V c).arrAt 10 cfg0.N = linRows (V c main_arg0) (V c main_arg6) (V c main_arg7) :=
  (dat0 V c).arrAt_eq_of_cover 10 _ (fun t _ => flushed10_eq V c t) cover10
theorem final11 (c : Dev nD) : (dat0 V c).arrAt 11 cfg0.N = linRows (V c main_arg0) (V c main_arg10) (V c main_arg11) :=
  (dat0 V c).arrAt_eq_of_cover 11 _ (fun t _ => flushed11_eq V c t) cover11
theorem final12 (c : Dev nD) : (dat0 V c).arrAt 12 cfg0.N = linRows (V c main_arg0) (V c main_arg12) (V c main_arg13) :=
  (dat0 V c).arrAt_eq_of_cover 12 _ (fun t _ => flushed12_eq V c t) cover12

end Cert.KernelIdeal.Region0

end
-- ==== Proof.Region1.lean ====
/-
  Region 1 of the kernel (the edge gate, 200 row blocks of 4000 edges): after the region its five output arrays hold,
  of the arrays the region found (the edge features e, the weight WC and bias bC, and the three gathered node tables
  gD, gE, gB, one row per edge):
    eij[i,c]   = ((∑ₖ e[i,k] · WC[k,c]) + bC[c]) + gD[i,c] + gE[i,c],
    sigma[i,c] = the logistic function of eij[i,c],          msg[i,c] = sigma[i,c] · gB[i,c],
    sum[b,0,c] = ∑ᵣ eij[4000 b + r, c],                      sumsq[b,0,c] = ∑ᵣ eij[4000 b + r, c]².
  Block t of each is that function of block t of e and of the gathered tables and of the whole WC, bC; the blocks tile.
-/
import proofs.«139856_j11905649344612_2_alg».proof.Proof.Gen.KernelIdeal.Frame
import proofs.«139856_j11905649344612_2_alg».proof.Proof.ValueTools
import proofs.«139856_j11905649344612_2_alg».proof.Proof.Spec

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.ValueTools Cert.Spec
open Idealize.ShloMosaic.Pipeline (Dat Cfg Window)

variable (V : (c : Dev nD) → (b : Ref sig .tc) → Buf (Elt Ideal) ((c : Thread nD τ).loc b))

theorem lhs0 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs1 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem rhs0 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem rhs1 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The block's matrix product into a zero accumulator, at entry `(p, q)`: the sum over `k` of row `p` of the left block
    times column `q` of the right matrix. -/
theorem matmul_entry {φ₁ φ₂ : FTy} (l : FVec Ideal S4000x128 φ₁) (r : FVec Ideal S128x128 φ₂) (p : Fin 4000) (q : Fin 128) :
    matmul dot_S4000x128_S128x128_S4000x128_1_0_0_1_n_n none l r (constant (F := Ideal) S4000x128 .f32 0x00000000#32) (ix2 p q)
      = ∑ k : Fin 128, l (ix2 p k) * r (ix2 k q) := by
  refine (Ideal.matmul_constant_zero_apply dot_S4000x128_S128x128_S4000x128_1_0_0_1_n_n none l r (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs0 _ _
    | ⟨1, _⟩ => exact (lhs1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs0 _ _).trans hk
    | ⟨1, _⟩ => exact rhs1 _ _)
  rw [el, er]

/-- Row `r` of block `b` is row `4000 b + r` of the array. -/
def blockRow (b : Fin 200) (r : Fin 4000) : Fin 800000 := ⟨b.val * 4000 + r.val, by have := b.isLt; have := r.isLt; omega⟩

/-- The gate's pre-activation at one entry, from row `p` of the edge block. -/
def preAct (e : S800000x128.Idx → EReal) (WC : S128x128.Idx → EReal) (bC : S128.Idx → EReal)
    (gD gE : S800000x128.Idx → EReal) : S800000x128.Idx → EReal :=
  fun i => ((∑ k : Fin 128, e (ix2 (i 0) k) * WC (ix2 k (i 1))) + bC (ix1 (i 1))) + gD i + gE i

theorem out6_eq (x0 : Vec Ideal S4000x128 .f32) (x1 : Vec Ideal S128x128 .f32) (x2 : Vec Ideal S128 .f32) (x3 x4 x5 : Vec Ideal S4000x128 .bf16) :
    out1_6 (F := Ideal) x0 x1 x2 x3 x4 x5 = k1_pay2 x0 x1 x2 x3 x4 := by
  unfold out1_6; rw [View.canon_unit_zero hz2]
  simp only [View.ld_unit_zero (S := S4000x128) hz2, View.ld_unit_zero (S := S128x128) hz2, View.ld_unit_zero (S := S128) hz1]
theorem out7_eq (x0 : Vec Ideal S4000x128 .f32) (x1 : Vec Ideal S128x128 .f32) (x2 : Vec Ideal S128 .f32) (x3 x4 x5 : Vec Ideal S4000x128 .bf16) :
    out1_7 (F := Ideal) x0 x1 x2 x3 x4 x5 = k1_pay3 x0 x1 x2 x3 x4 := by
  unfold out1_7; rw [View.canon_unit_zero hz2]
  simp only [View.ld_unit_zero (S := S4000x128) hz2, View.ld_unit_zero (S := S128x128) hz2, View.ld_unit_zero (S := S128) hz1]
theorem out8_eq (x0 : Vec Ideal S4000x128 .f32) (x1 : Vec Ideal S128x128 .f32) (x2 : Vec Ideal S128 .f32) (x3 x4 x5 : Vec Ideal S4000x128 .bf16) :
    out1_8 (F := Ideal) x0 x1 x2 x3 x4 x5 = k1_pay4 x0 x1 x2 x3 x4 x5 := by
  unfold out1_8; rw [View.canon_unit_zero hz2]
  simp only [View.ld_unit_zero (S := S4000x128) hz2, View.ld_unit_zero (S := S128x128) hz2, View.ld_unit_zero (S := S128) hz1]
theorem out9_eq (x0 : Vec Ideal S4000x128 .f32) (x1 : Vec Ideal S128x128 .f32) (x2 : Vec Ideal S128 .f32) (x3 x4 x5 : Vec Ideal S4000x128 .bf16) :
    out1_9 (F := Ideal) x0 x1 x2 x3 x4 x5 = k1_pay6 x0 x1 x2 x3 x4 := by
  unfold out1_9; rw [View.canon_unit_zero hz3]
  simp only [View.ld_unit_zero (S := S4000x128) hz2, View.ld_unit_zero (S := S128x128) hz2, View.ld_unit_zero (S := S128) hz1]
theorem out10_eq (x0 : Vec Ideal S4000x128 .f32) (x1 : Vec Ideal S128x128 .f32) (x2 : Vec Ideal S128 .f32) (x3 x4 x5 : Vec Ideal S4000x128 .bf16) :
    out1_10 (F := Ideal) x0 x1 x2 x3 x4 x5 = k1_pay1 (k1_pay5 x0 x1 x2 x3 x4) := by
  unfold out1_10; rw [View.canon_unit_zero hz3]
  simp only [View.ld_unit_zero (S := S4000x128) hz2, View.ld_unit_zero (S := S128x128) hz2, View.ld_unit_zero (S := S128) hz1]

/-- The pre-activation payload at an entry of the block. -/
theorem pay2_apply (x0 : Vec Ideal S4000x128 .f32) (x2 : Vec Ideal S128x128 .f32) (x5 : Vec Ideal S128 .f32)
    (x9 x13 : Vec Ideal S4000x128 .bf16) (p : Fin 4000) (q : Fin 128) :
    k1_pay2 (F := Ideal) x0 x2 x5 x9 x13 (ix2 p q)
      = ((∑ k : Fin 128, x0 (ix2 p k) * x2 (ix2 k q)) + x5 (ix1 q)) + x9 (ix2 p q) + x13 (ix2 p q) := by
  unfold k1_pay2
  simp only [shapeCast_self, addf_apply, extf_apply, rowBcast_apply]
  rw [matmul_entry]
  rfl
theorem pay3_apply (x0 : Vec Ideal S4000x128 .f32) (x2 : Vec Ideal S128x128 .f32) (x5 : Vec Ideal S128 .f32)
    (x9 x13 : Vec Ideal S4000x128 .bf16) (p : Fin 4000) (q : Fin 128) :
    k1_pay3 (F := Ideal) x0 x2 x5 x9 x13 (ix2 p q) = Ideal.logistic (k1_pay2 (F := Ideal) x0 x2 x5 x9 x13 (ix2 p q)) := rfl
theorem pay4_apply (x0 : Vec Ideal S4000x128 .f32) (x2 : Vec Ideal S128x128 .f32) (x5 : Vec Ideal S128 .f32)
    (x9 x13 x18 : Vec Ideal S4000x128 .bf16) (p : Fin 4000) (q : Fin 128) :
    k1_pay4 (F := Ideal) x0 x2 x5 x9 x13 x18 (ix2 p q)
      = Ideal.logistic (k1_pay2 (F := Ideal) x0 x2 x5 x9 x13 (ix2 p q)) * x18 (ix2 p q) := by
  unfold k1_pay4
  simp only [shapeCast_self, mulf_apply, extf_apply]
  rfl
/-- The column sums of the block's pre-activation, laid as [1, 1, 128]. -/
theorem pay6_apply (x0 : Vec Ideal S4000x128 .f32) (x2 : Vec Ideal S128x128 .f32) (x5 : Vec Ideal S128 .f32)
    (x9 x13 : Vec Ideal S4000x128 .bf16) (u v : Fin 1) (q : Fin 128) :
    k1_pay6 (F := Ideal) x0 x2 x5 x9 x13 (ix3 u v q) = ∑ r : Fin 4000, k1_pay2 (F := Ideal) x0 x2 x5 x9 x13 (ix2 r q) := by
  unfold k1_pay6
  rw [shapeCast_ab_1ab_apply, shapeCast_a_1a_apply]
  exact colSum_apply (R := 4000) (C := 128) _ _ _ _ _ q
theorem pay5_apply (x0 : Vec Ideal S4000x128 .f32) (x2 : Vec Ideal S128x128 .f32) (x5 : Vec Ideal S128 .f32)
    (x9 x13 : Vec Ideal S4000x128 .bf16) (u v : Fin 1) (q : Fin 128) :
    k1_pay1 (F := Ideal) (k1_pay5 x0 x2 x5 x9 x13) (ix3 u v q)
      = ∑ r : Fin 4000, k1_pay2 (F := Ideal) x0 x2 x5 x9 x13 (ix2 r q) * k1_pay2 (F := Ideal) x0 x2 x5 x9 x13 (ix2 r q) := by
  unfold k1_pay1 k1_pay5
  rw [shapeCast_ab_1ab_apply, shapeCast_a_1a_apply]
  exact (colSum_apply (R := 4000) (C := 128) _ _ _ _ _ q).trans (Finset.sum_congr rfl fun r _ => rfl)

/-- The printed index maps over the grid. -/
theorem idx_in : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)
theorem idx_out6 : ∀ t : Fin cfg1.N, win1_6.index t (0 : Fin 2) = t.val ∧ win1_6.index t (1 : Fin 2) = 0 :=
  (by decide +kernel : ∀ t : Fin grid1.N, _)
theorem idx_out7 : ∀ t : Fin cfg1.N, win1_7.index t (0 : Fin 2) = t.val ∧ win1_7.index t (1 : Fin 2) = 0 :=
  (by decide +kernel : ∀ t : Fin grid1.N, _)
theorem idx_out8 : ∀ t : Fin cfg1.N, win1_8.index t (0 : Fin 2) = t.val ∧ win1_8.index t (1 : Fin 2) = 0 :=
  (by decide +kernel : ∀ t : Fin grid1.N, _)
theorem idx_out9 : ∀ t : Fin cfg1.N, win1_9.index t (0 : Fin 3) = t.val ∧ win1_9.index t (1 : Fin 3) = 0 ∧ win1_9.index t (2 : Fin 3) = 0 :=
  (by decide +kernel : ∀ t : Fin grid1.N, _)
theorem idx_out10 : ∀ t : Fin cfg1.N, win1_10.index t (0 : Fin 3) = t.val ∧ win1_10.index t (1 : Fin 3) = 0 ∧ win1_10.index t (2 : Fin 3) = 0 :=
  (by decide +kernel : ∀ t : Fin grid1.N, _)

set_option maxHeartbeats 4000000 in
/-- The block's pre-activation payload of the blocks the point loads is the array's pre-activation at the block's rows. -/
theorem pay2_blk (c : Dev nD) (t : Fin cfg1.N) (p : Fin 4000) (q : Fin 128) :
    k1_pay2 (F := Ideal) (iblk1 V c 0 t) (iblk1 V c 1 t) (iblk1 V c 2 t) (iblk1 V c 3 t) (iblk1 V c 4 t) (ix2 p q)
      = preAct (V c main_arg1) (V c main_arg8) (V c main_arg9) (V c main_v7) (V c main_v14) (ix2 (blockRow t p) q) := by
  refine (pay2_apply _ _ _ _ _ p q).trans ?_
  obtain ⟨a0, a1, w0, w1, v0, d0, d1, e0, e1, b0, b1⟩ := idx_in t
  have h0 : ∀ (a : Fin 4000) (b : Fin 128), ((cfg1.win 0).blk t).view.emb (ix2 a b) = ix2 (blockRow t a) b := by
    intro a b; funext ax; apply Fin.ext
    match ax with
    | ⟨0, _⟩ => show win1_0.index t (0 : Fin 2) * 4000 + 1 * a.val = t.val * 4000 + a.val; omega
    | ⟨1, _⟩ => show win1_0.index t (1 : Fin 2) * 128 + 1 * b.val = b.val; omega
  have h1 : ∀ (a : Fin 128) (b : Fin 128), ((cfg1.win 1).blk t).view.emb (ix2 a b) = ix2 a b := by
    intro a b; funext ax; apply Fin.ext
    match ax with
    | ⟨0, _⟩ => show win1_1.index t (0 : Fin 2) * 128 + 1 * a.val = a.val; omega
    | ⟨1, _⟩ => show win1_1.index t (1 : Fin 2) * 128 + 1 * b.val = b.val; omega
  have h2 : ∀ (b : Fin 128), ((cfg1.win 2).blk t).view.emb (ix1 b) = ix1 b := by
    intro b; funext ax; apply Fin.ext
    match ax with
    | ⟨0, _⟩ => show win1_2.index t (0 : Fin 1) * 128 + 1 * b.val = b.val; omega
  have h3 : ∀ (a : Fin 4000) (b : Fin 128), ((cfg1.win 3).blk t).view.emb (ix2 a b) = ix2 (blockRow t a) b := by
    intro a b; funext ax; apply Fin.ext
    match ax with
    | ⟨0, _⟩ => show win1_3.index t (0 : Fin 2) * 4000 + 1 * a.val = t.val * 4000 + a.val; omega
    | ⟨1, _⟩ => show win1_3.index t (1 : Fin 2) * 128 + 1 * b.val = b.val; omega
  have h4 : ∀ (a : Fin 4000) (b : Fin 128), ((cfg1.win 4).blk t).view.emb (ix2 a b) = ix2 (blockRow t a) b := by
    intro a b; funext ax; apply Fin.ext
    match ax with
    | ⟨0, _⟩ => show win1_4.index t (0 : Fin 2) * 4000 + 1 * a.val = t.val * 4000 + a.val; omega
    | ⟨1, _⟩ => show win1_4.index t (1 : Fin 2) * 128 + 1 * b.val = b.val; omega
  show radd (radd (radd (∑ k : Fin 128, rmul (V c main_arg1 (((cfg1.win 0).blk t).view.emb (ix2 p k))) (V c main_arg8 (((cfg1.win 1).blk t).view.emb (ix2 k q))))
      (V c main_arg9 (((cfg1.win 2).blk t).view.emb (ix1 q)))) (V c main_v7 (((cfg1.win 3).blk t).view.emb (ix2 p q))))
      (V c main_v14 (((cfg1.win 4).blk t).view.emb (ix2 p q)))
    = radd (radd (radd (∑ k : Fin 128, rmul (V c main_arg1 (ix2 (blockRow t p) k)) (V c main_arg8 (ix2 k q))) (V c main_arg9 (ix1 q)))
      (V c main_v7 (ix2 (blockRow t p) q))) (V c main_v14 (ix2 (blockRow t p) q))
  exact congr_add (congr_add (congr_add (Finset.sum_congr rfl fun k _ =>
      congr_mul (congrArg (V c main_arg1) (h0 p k)) (congrArg (V c main_arg8) (h1 k q))) (congrArg (V c main_arg9) (h2 q)))
    (congrArg (V c main_v7) (h3 p q))) (congrArg (V c main_v14) (h4 p q))
set_option maxHeartbeats 4000000 in
theorem gB_blk (c : Dev nD) (t : Fin cfg1.N) (p : Fin 4000) (q : Fin 128) :
    iblk1 V c 5 t (ix2 p q) = V c main_v21 (ix2 (blockRow t p) q) := by
  obtain ⟨a0, a1, w0, w1, v0, d0, d1, e0, e1, b0, b1⟩ := idx_in t
  have h5 : ∀ (a : Fin 4000) (b : Fin 128), ((cfg1.win 5).blk t).view.emb (ix2 a b) = ix2 (blockRow t a) b := by
    intro a b; funext ax; apply Fin.ext
    match ax with
    | ⟨0, _⟩ => show win1_5.index t (0 : Fin 2) * 4000 + 1 * a.val = t.val * 4000 + a.val; omega
    | ⟨1, _⟩ => show win1_5.index t (1 : Fin 2) * 128 + 1 * b.val = b.val; omega
  show V c main_v21 (((cfg1.win 5).blk t).view.emb (ix2 p q)) = V c main_v21 (ix2 (blockRow t p) q)
  exact congrArg (V c main_v21) (h5 p q)

/-- The arrays the five output windows end holding. -/
def G6 (e : S800000x128.Idx → EReal) (WC : S128x128.Idx → EReal) (bC : S128.Idx → EReal) (gD gE : S800000x128.Idx → EReal) :
    S800000x128.Idx → EReal := preAct e WC bC gD gE
def G7 (e : S800000x128.Idx → EReal) (WC : S128x128.Idx → EReal) (bC : S128.Idx → EReal) (gD gE : S800000x128.Idx → EReal) :
    S800000x128.Idx → EReal := fun i => Ideal.logistic (preAct e WC bC gD gE i)
def G8 (e : S800000x128.Idx → EReal) (WC : S128x128.Idx → EReal) (bC : S128.Idx → EReal) (gD gE gB : S800000x128.Idx → EReal) :
    S800000x128.Idx → EReal := fun i => Ideal.logistic (preAct e WC bC gD gE i) * gB i
def G9 (x : S800000x128.Idx → EReal) : S200x1x128.Idx → EReal :=
  fun j => ∑ r : Fin 4000, x (ix2 (blockRow (j 0) r) (j 2))
def G10 (x : S800000x128.Idx → EReal) : S200x1x128.Idx → EReal :=
  fun j => ∑ r : Fin 4000, x (ix2 (blockRow (j 0) r) (j 2)) * x (ix2 (blockRow (j 0) r) (j 2))

/-- An entry of an output block sits at row `4000 t + p` of the array. -/
theorem emb_out6 (t : Fin cfg1.N) (p : Fin 4000) (q : Fin 128) : ((cfg1.win 6).blk t).view.emb (ix2 p q) = ix2 (blockRow t p) q := by
  obtain ⟨o0, o1⟩ := idx_out6 t
  funext ax; apply Fin.ext
  match ax with
  | ⟨0, _⟩ => show win1_6.index t (0 : Fin 2) * 4000 + 1 * p.val = t.val * 4000 + p.val; omega
  | ⟨1, _⟩ => show win1_6.index t (1 : Fin 2) * 128 + 1 * q.val = q.val; omega
theorem emb_out7 (t : Fin cfg1.N) (p : Fin 4000) (q : Fin 128) : ((cfg1.win 7).blk t).view.emb (ix2 p q) = ix2 (blockRow t p) q := by
  obtain ⟨o0, o1⟩ := idx_out7 t
  funext ax; apply Fin.ext
  match ax with
  | ⟨0, _⟩ => show win1_7.index t (0 : Fin 2) * 4000 + 1 * p.val = t.val * 4000 + p.val; omega
  | ⟨1, _⟩ => show win1_7.index t (1 : Fin 2) * 128 + 1 * q.val = q.val; omega
theorem emb_out8 (t : Fin cfg1.N) (p : Fin 4000) (q : Fin 128) : ((cfg1.win 8).blk t).view.emb (ix2 p q) = ix2 (blockRow t p) q := by
  obtain ⟨o0, o1⟩ := idx_out8 t
  funext ax; apply Fin.ext
  match ax with
  | ⟨0, _⟩ => show win1_8.index t (0 : Fin 2) * 4000 + 1 * p.val = t.val * 4000 + p.val; omega
  | ⟨1, _⟩ => show win1_8.index t (1 : Fin 2) * 128 + 1 * q.val = q.val; omega
theorem emb_out9 (t : Fin cfg1.N) (u v : Fin 1) (q : Fin 128) : ((cfg1.win 9).blk t).view.emb (ix3 u v q) = ix3 (t : Fin 200) (0 : Fin 1) q := by
  obtain ⟨o0, o1, o2⟩ := idx_out9 t
  funext ax; apply Fin.ext
  match ax with
  | ⟨0, _⟩ => show win1_9.index t (0 : Fin 3) * 1 + 1 * u.val = t.val; omega
  | ⟨1, _⟩ => show win1_9.index t (1 : Fin 3) * 1 + 1 * v.val = 0; omega
  | ⟨2, _⟩ => show win1_9.index t (2 : Fin 3) * 128 + 1 * q.val = q.val; omega
theorem emb_out10 (t : Fin cfg1.N) (u v : Fin 1) (q : Fin 128) : ((cfg1.win 10).blk t).view.emb (ix3 u v q) = ix3 (t : Fin 200) (0 : Fin 1) q := by
  obtain ⟨o0, o1, o2⟩ := idx_out10 t
  funext ax; apply Fin.ext
  match ax with
  | ⟨0, _⟩ => show win1_10.index t (0 : Fin 3) * 1 + 1 * u.val = t.val; omega
  | ⟨1, _⟩ => show win1_10.index t (1 : Fin 3) * 1 + 1 * v.val = 0; omega
  | ⟨2, _⟩ => show win1_10.index t (2 : Fin 3) * 128 + 1 * q.val = q.val; omega

set_option maxHeartbeats 4000000 in
theorem flushed6_eq (c : Dev nD) (t : Fin cfg1.N) :
    (dat1 V c).flushed 6 t = ((cfg1.win 6).blk t).view.read (Elt Ideal)
      (G6 (V c main_arg1) (V c main_arg8) (V c main_arg9) (V c main_v7) (V c main_v14)) := by
  show (cfg1.win 6).cut (grid1.coords t) ((dat1 V c).after 6 t) = _
  rw [after1_6, out6_eq]
  funext j
  obtain ⟨p, q, rfl⟩ : ∃ (p : Fin 4000) (q : Fin 128), j = ix2 p q := ⟨j 0, j 1, eq_ix2 j⟩
  refine (pay2_blk V c t p q).trans ?_
  exact (congrArg (G6 (V c main_arg1) (V c main_arg8) (V c main_arg9) (V c main_v7) (V c main_v14)) (emb_out6 t p q)).symm
set_option maxHeartbeats 4000000 in
theorem flushed7_eq (c : Dev nD) (t : Fin cfg1.N) :
    (dat1 V c).flushed 7 t = ((cfg1.win 7).blk t).view.read (Elt Ideal)
      (G7 (V c main_arg1) (V c main_arg8) (V c main_arg9) (V c main_v7) (V c main_v14)) := by
  show (cfg1.win 7).cut (grid1.coords t) ((dat1 V c).after 7 t) = _
  rw [after1_7, out7_eq]
  funext j
  obtain ⟨p, q, rfl⟩ : ∃ (p : Fin 4000) (q : Fin 128), j = ix2 p q := ⟨j 0, j 1, eq_ix2 j⟩
  refine (pay3_apply _ _ _ _ _ p q).trans ?_
  refine (congrArg Ideal.logistic (pay2_blk V c t p q)).trans ?_
  exact (congrArg (G7 (V c main_arg1) (V c main_arg8) (V c main_arg9) (V c main_v7) (V c main_v14)) (emb_out7 t p q)).symm
set_option maxHeartbeats 4000000 in
theorem flushed8_eq (c : Dev nD) (t : Fin cfg1.N) :
    (dat1 V c).flushed 8 t = ((cfg1.win 8).blk t).view.read (Elt Ideal)
      (G8 (V c main_arg1) (V c main_arg8) (V c main_arg9) (V c main_v7) (V c main_v14) (V c main_v21)) := by
  show (cfg1.win 8).cut (grid1.coords t) ((dat1 V c).after 8 t) = _
  rw [after1_8, out8_eq]
  funext j
  obtain ⟨p, q, rfl⟩ : ∃ (p : Fin 4000) (q : Fin 128), j = ix2 p q := ⟨j 0, j 1, eq_ix2 j⟩
  refine (pay4_apply _ _ _ _ _ _ p q).trans ?_
  refine (congr_mul (congrArg Ideal.logistic (pay2_blk V c t p q)) (gB_blk V c t p q)).trans ?_
  exact (congrArg (G8 (V c main_arg1) (V c main_arg8) (V c main_arg9) (V c main_v7) (V c main_v14) (V c main_v21)) (emb_out8 t p q)).symm
set_option maxHeartbeats 4000000 in
theorem flushed9_eq (c : Dev nD) (t : Fin cfg1.N) :
    (dat1 V c).flushed 9 t = ((cfg1.win 9).blk t).view.read (Elt Ideal)
      (G9 (G6 (V c main_arg1) (V c main_arg8) (V c main_arg9) (V c main_v7) (V c main_v14))) := by
  show (cfg1.win 9).cut (grid1.coords t) ((dat1 V c).after 9 t) = _
  rw [after1_9, out9_eq]
  funext j
  obtain ⟨u, v, q, rfl⟩ : ∃ (u v : Fin 1) (q : Fin 128), j = ix3 u v q := ⟨j 0, j 1, j 2, eq_ix3 j⟩
  refine (pay6_apply _ _ _ _ _ u v q).trans ?_
  refine (Finset.sum_congr rfl fun r _ => pay2_blk V c t r q).trans ?_
  exact (congrArg (G9 (G6 (V c main_arg1) (V c main_arg8) (V c main_arg9) (V c main_v7) (V c main_v14))) (emb_out9 t u v q)).symm
set_option maxHeartbeats 4000000 in
theorem flushed10_eq (c : Dev nD) (t : Fin cfg1.N) :
    (dat1 V c).flushed 10 t = ((cfg1.win 10).blk t).view.read (Elt Ideal)
      (G10 (G6 (V c main_arg1) (V c main_arg8) (V c main_arg9) (V c main_v7) (V c main_v14))) := by
  show (cfg1.win 10).cut (grid1.coords t) ((dat1 V c).after 10 t) = _
  rw [after1_10, out10_eq]
  funext j
  obtain ⟨u, v, q, rfl⟩ : ∃ (u v : Fin 1) (q : Fin 128), j = ix3 u v q := ⟨j 0, j 1, j 2, eq_ix3 j⟩
  refine (pay5_apply _ _ _ _ _ u v q).trans ?_
  refine (Finset.sum_congr rfl fun r _ => congr_mul (pay2_blk V c t r q) (pay2_blk V c t r q)).trans ?_
  exact (congrArg (G10 (G6 (V c main_arg1) (V c main_arg8) (V c main_arg9) (V c main_v7) (V c main_v14))) (emb_out10 t u v q)).symm

/-- An entry of the array is in point `t`'s block iff each coordinate is in the block's range on its axis. -/
theorem mem_blk6 (t : Fin cfg1.N) (i : S800000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v22_0).slice (win1_6.rect t)).set ↔ _
  rw [View.set_slice_whole, Rect.mem_set_unit]
  exact Iff.rfl

/-- Every entry of the array is in the block of the point its row falls in. -/
theorem cover6 (i : S800000x128.Idx) : ∃ t : Fin cfg1.N, (cfg1.win 6).flush t = true ∧ i ∈ ((cfg1.win 6).blk t).view.set := by
  have hi0 : (i 0).val < 800000 := (i 0).isLt
  have hi1 : (i 1).val < 128 := (i 1).isLt
  refine ⟨⟨(i 0).val / 4000, by show (i 0).val / 4000 < 200; omega⟩, flush1_6 _, ?_⟩
  rw [mem_blk6]
  obtain ⟨e0, e1⟩ := idx_out6 ⟨(i 0).val / 4000, by show (i 0).val / 4000 < 200; omega⟩
  intro a
  match a with
  | ⟨0, _⟩ => show win1_6.index _ (0 : Fin 2) * 4000 ≤ (i 0).val ∧ (i 0).val < win1_6.index _ (0 : Fin 2) * 4000 + 4000; rw [e0]; show (i 0).val / 4000 * 4000 ≤ (i 0).val ∧ (i 0).val < (i 0).val / 4000 * 4000 + 4000; omega
  | ⟨1, _⟩ => show win1_6.index _ (1 : Fin 2) * 128 ≤ (i 1).val ∧ (i 1).val < win1_6.index _ (1 : Fin 2) * 128 + 128; rw [e1]; omega

/-- An entry of the array is in point `t`'s block iff each coordinate is in the block's range on its axis. -/
theorem mem_blk7 (t : Fin cfg1.N) (i : S800000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v22_1).slice (win1_7.rect t)).set ↔ _
  rw [View.set_slice_whole, Rect.mem_set_unit]
  exact Iff.rfl

/-- Every entry of the array is in the block of the point its row falls in. -/
theorem cover7 (i : S800000x128.Idx) : ∃ t : Fin cfg1.N, (cfg1.win 7).flush t = true ∧ i ∈ ((cfg1.win 7).blk t).view.set := by
  have hi0 : (i 0).val < 800000 := (i 0).isLt
  have hi1 : (i 1).val < 128 := (i 1).isLt
  refine ⟨⟨(i 0).val / 4000, by show (i 0).val / 4000 < 200; omega⟩, flush1_7 _, ?_⟩
  rw [mem_blk7]
  obtain ⟨e0, e1⟩ := idx_out7 ⟨(i 0).val / 4000, by show (i 0).val / 4000 < 200; omega⟩
  intro a
  match a with
  | ⟨0, _⟩ => show win1_7.index _ (0 : Fin 2) * 4000 ≤ (i 0).val ∧ (i 0).val < win1_7.index _ (0 : Fin 2) * 4000 + 4000; rw [e0]; show (i 0).val / 4000 * 4000 ≤ (i 0).val ∧ (i 0).val < (i 0).val / 4000 * 4000 + 4000; omega
  | ⟨1, _⟩ => show win1_7.index _ (1 : Fin 2) * 128 ≤ (i 1).val ∧ (i 1).val < win1_7.index _ (1 : Fin 2) * 128 + 128; rw [e1]; omega

/-- An entry of the array is in point `t`'s block iff each coordinate is in the block's range on its axis. -/
theorem mem_blk8 (t : Fin cfg1.N) (i : S800000x128.Idx) :
    i ∈ ((cfg1.win 8).blk t).view.set ↔ ∀ a : Fin 2, win1_8.index t a * S4000x128.size a ≤ (i a).val ∧ (i a).val < win1_8.index t a * S4000x128.size a + S4000x128.size a := by
  show i ∈ ((View.whole main_v22_2).slice (win1_8.rect t)).set ↔ _
  rw [View.set_slice_whole, Rect.mem_set_unit]
  exact Iff.rfl

/-- Every entry of the array is in the block of the point its row falls in. -/
theorem cover8 (i : S800000x128.Idx) : ∃ t : Fin cfg1.N, (cfg1.win 8).flush t = true ∧ i ∈ ((cfg1.win 8).blk t).view.set := by
  have hi0 : (i 0).val < 800000 := (i 0).isLt
  have hi1 : (i 1).val < 128 := (i 1).isLt
  refine ⟨⟨(i 0).val / 4000, by show (i 0).val / 4000 < 200; omega⟩, flush1_8 _, ?_⟩
  rw [mem_blk8]
  obtain ⟨e0, e1⟩ := idx_out8 ⟨(i 0).val / 4000, by show (i 0).val / 4000 < 200; omega⟩
  intro a
  match a with
  | ⟨0, _⟩ => show win1_8.index _ (0 : Fin 2) * 4000 ≤ (i 0).val ∧ (i 0).val < win1_8.index _ (0 : Fin 2) * 4000 + 4000; rw [e0]; show (i 0).val / 4000 * 4000 ≤ (i 0).val ∧ (i 0).val < (i 0).val / 4000 * 4000 + 4000; omega
  | ⟨1, _⟩ => show win1_8.index _ (1 : Fin 2) * 128 ≤ (i 1).val ∧ (i 1).val < win1_8.index _ (1 : Fin 2) * 128 + 128; rw [e1]; omega

/-- An entry of the [blocks, 1, 128] array is in point `t`'s block iff each coordinate is in the block's range on its axis. -/
theorem mem_blk9 (t : Fin cfg1.N) (i : S200x1x128.Idx) :
    i ∈ ((cfg1.win 9).blk t).view.set ↔ ∀ a : Fin 3, win1_9.index t a * S1x1x128.size a ≤ (i a).val ∧ (i a).val < win1_9.index t a * S1x1x128.size a + S1x1x128.size a := by
  show i ∈ ((View.whole main_v22_3).slice (win1_9.rect t)).set ↔ _
  rw [View.set_slice_whole, Rect.mem_set_unit]
  exact Iff.rfl

/-- Every entry of the array is in the block of the point its leading coordinate names. -/
theorem cover9 (i : S200x1x128.Idx) : ∃ t : Fin cfg1.N, (cfg1.win 9).flush t = true ∧ i ∈ ((cfg1.win 9).blk t).view.set := by
  have hi0 : (i 0).val < 200 := (i 0).isLt
  have hi1 : (i 1).val < 1 := (i 1).isLt
  have hi2 : (i 2).val < 128 := (i 2).isLt
  refine ⟨⟨(i 0).val, hi0⟩, flush1_9 _, ?_⟩
  rw [mem_blk9]
  obtain ⟨e0, e1, e2⟩ := idx_out9 ⟨(i 0).val, hi0⟩
  intro a
  match a with
  | ⟨0, _⟩ => show win1_9.index _ (0 : Fin 3) * 1 ≤ (i 0).val ∧ (i 0).val < win1_9.index _ (0 : Fin 3) * 1 + 1; rw [e0]; show (i 0).val * 1 ≤ (i 0).val ∧ (i 0).val < (i 0).val * 1 + 1; omega
  | ⟨1, _⟩ => show win1_9.index _ (1 : Fin 3) * 1 ≤ (i 1).val ∧ (i 1).val < win1_9.index _ (1 : Fin 3) * 1 + 1; rw [e1]; omega
  | ⟨2, _⟩ => show win1_9.index _ (2 : Fin 3) * 128 ≤ (i 2).val ∧ (i 2).val < win1_9.index _ (2 : Fin 3) * 128 + 128; rw [e2]; omega

/-- An entry of the [blocks, 1, 128] array is in point `t`'s block iff each coordinate is in the block's range on its axis. -/
theorem mem_blk10 (t : Fin cfg1.N) (i : S200x1x128.Idx) :
    i ∈ ((cfg1.win 10).blk t).view.set ↔ ∀ a : Fin 3, win1_10.index t a * S1x1x128.size a ≤ (i a).val ∧ (i a).val < win1_10.index t a * S1x1x128.size a + S1x1x128.size a := by
  show i ∈ ((View.whole main_v22_4).slice (win1_10.rect t)).set ↔ _
  rw [View.set_slice_whole, Rect.mem_set_unit]
  exact Iff.rfl

/-- Every entry of the array is in the block of the point its leading coordinate names. -/
theorem cover10 (i : S200x1x128.Idx) : ∃ t : Fin cfg1.N, (cfg1.win 10).flush t = true ∧ i ∈ ((cfg1.win 10).blk t).view.set := by
  have hi0 : (i 0).val < 200 := (i 0).isLt
  have hi1 : (i 1).val < 1 := (i 1).isLt
  have hi2 : (i 2).val < 128 := (i 2).isLt
  refine ⟨⟨(i 0).val, hi0⟩, flush1_10 _, ?_⟩
  rw [mem_blk10]
  obtain ⟨e0, e1, e2⟩ := idx_out10 ⟨(i 0).val, hi0⟩
  intro a
  match a with
  | ⟨0, _⟩ => show win1_10.index _ (0 : Fin 3) * 1 ≤ (i 0).val ∧ (i 0).val < win1_10.index _ (0 : Fin 3) * 1 + 1; rw [e0]; show (i 0).val * 1 ≤ (i 0).val ∧ (i 0).val < (i 0).val * 1 + 1; omega
  | ⟨1, _⟩ => show win1_10.index _ (1 : Fin 3) * 1 ≤ (i 1).val ∧ (i 1).val < win1_10.index _ (1 : Fin 3) * 1 + 1; rw [e1]; omega
  | ⟨2, _⟩ => show win1_10.index _ (2 : Fin 3) * 128 ≤ (i 2).val ∧ (i 2).val < win1_10.index _ (2 : Fin 3) * 128 + 128; rw [e2]; omega

theorem final6 (c : Dev nD) : (dat1 V c).arrAt 6 cfg1.N = G6 (V c main_arg1) (V c main_arg8) (V c main_arg9) (V c main_v7) (V c main_v14) :=
  (dat1 V c).arrAt_eq_of_cover 6 _ (fun t _ => flushed6_eq V c t) cover6
theorem final7 (c : Dev nD) : (dat1 V c).arrAt 7 cfg1.N = G7 (V c main_arg1) (V c main_arg8) (V c main_arg9) (V c main_v7) (V c main_v14) :=
  (dat1 V c).arrAt_eq_of_cover 7 _ (fun t _ => flushed7_eq V c t) cover7
theorem final8 (c : Dev nD) : (dat1 V c).arrAt 8 cfg1.N = G8 (V c main_arg1) (V c main_arg8) (V c main_arg9) (V c main_v7) (V c main_v14) (V c main_v21) :=
  (dat1 V c).arrAt_eq_of_cover 8 _ (fun t _ => flushed8_eq V c t) cover8
theorem final9 (c : Dev nD) : (dat1 V c).arrAt 9 cfg1.N = G9 (G6 (V c main_arg1) (V c main_arg8) (V c main_arg9) (V c main_v7) (V c main_v14)) :=
  (dat1 V c).arrAt_eq_of_cover 9 _ (fun t _ => flushed9_eq V c t) cover9
theorem final10 (c : Dev nD) : (dat1 V c).arrAt 10 cfg1.N = G10 (G6 (V c main_arg1) (V c main_arg8) (V c main_arg9) (V c main_v7) (V c main_v14)) :=
  (dat1 V c).arrAt_eq_of_cover 10 _ (fun t _ => flushed10_eq V c t) cover10

end Cert.KernelIdeal.Region1

end
-- ==== Proof.Region2.lean ====
/-
  Region 2 of the kernel (the gated aggregate and its column statistics, 25 row blocks of 2000 nodes): after the region its
  three output arrays hold, of the arrays the region found (the projection a, the two scattered sums num and den, the node
  features h):
    hagg[n,c]   = a[n,c] + num[n,c] / den'[n,c] where den[n,c] > 0 (den' is den with a zero replaced by one), h[n,c] elsewhere,
    sum[b,0,c]  = ∑ᵣ hagg[2000 b + r, c],            sumsq[b,0,c] = ∑ᵣ hagg[2000 b + r, c]².
  Block t of each is that function of block t of the four inputs; the blocks tile.
-/
import proofs.«139856_j11905649344612_2_alg».proof.Proof.Gen.KernelIdeal.Frame
import proofs.«139856_j11905649344612_2_alg».proof.Proof.ValueTools
import proofs.«139856_j11905649344612_2_alg».proof.Proof.Spec

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx Cert.ValueTools Cert.Spec
open Idealize.ShloMosaic.Pipeline (Dat Cfg Window)

variable (V : (c : Dev nD) → (b : Ref sig .tc) → Buf (Elt Ideal) ((c : Thread nD τ).loc b))

/-- Row `r` of block `b` is row `2000 b + r` of the array. -/
def blockRow (b : Fin 25) (r : Fin 2000) : Fin 50000 := ⟨b.val * 2000 + r.val, by have := b.isLt; have := r.isLt; omega⟩

theorem out4_eq (x0 x1 x2 x3 : Vec Ideal S2000x128 .f32) :
    out2_4 (F := Ideal) x0 x1 x2 x3 = k2_pay1 x2 x0 x1 x3 := by
  unfold out2_4; rw [View.canon_unit_zero hz2]
  simp only [View.ld_unit_zero (S := S2000x128) hz2]
theorem out5_eq (x0 x1 x2 x3 : Vec Ideal S2000x128 .f32) :
    out2_5 (F := Ideal) x0 x1 x2 x3 = k2_pay2 x2 x0 x1 x3 := by
  unfold out2_5; rw [View.canon_unit_zero hz3]
  simp only [View.ld_unit_zero (S := S2000x128) hz2]
theorem out6_eq (x0 x1 x2 x3 : Vec Ideal S2000x128 .f32) :
    out2_6 (F := Ideal) x0 x1 x2 x3 = k2_pay3 x2 x0 x1 x3 := by
  unfold out2_6; rw [View.canon_unit_zero hz3]
  simp only [View.ld_unit_zero (S := S2000x128) hz2]

/-- The aggregate payload at an entry of the block. -/
theorem pay1_apply (den a num h : Vec Ideal S2000x128 .f32) (p : Fin 2000) (q : Fin 128) :
    k2_pay1 (F := Ideal) den a num h (ix2 p q) = aggRaw (den (ix2 p q)) (a (ix2 p q)) (num (ix2 p q)) (h (ix2 p q)) := by
  unfold k2_pay1 aggRaw
  simp only [shapeCast_self, select_apply, cmpf_apply, divf_apply, addf_apply, broadcast_apply]
  rfl
theorem pay2_apply (den a num h : Vec Ideal S2000x128 .f32) (u v : Fin 1) (q : Fin 128) :
    k2_pay2 (F := Ideal) den a num h (ix3 u v q) = ∑ r : Fin 2000, k2_pay1 (F := Ideal) den a num h (ix2 r q) := by
  unfold k2_pay2
  rw [shapeCast_ab_1ab_apply, shapeCast_a_1a_apply]
  exact colSum_apply (R := 2000) (C := 128) _ _ _ _ _ q
theorem pay3_apply (den a num h : Vec Ideal S2000x128 .f32) (u v : Fin 1) (q : Fin 128) :
    k2_pay3 (F := Ideal) den a num h (ix3 u v q)
      = ∑ r : Fin 2000, k2_pay1 (F := Ideal) den a num h (ix2 r q) * k2_pay1 (F := Ideal) den a num h (ix2 r q) := by
  unfold k2_pay3
  rw [shapeCast_ab_1ab_apply, shapeCast_a_1a_apply]
  exact (colSum_apply (R := 2000) (C := 128) _ _ _ _ _ q).trans (Finset.sum_congr rfl fun r _ => rfl)

theorem idx_in : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)
theorem idx_out4 : ∀ t : Fin cfg2.N, win2_4.index t (0 : Fin 2) = t.val ∧ win2_4.index t (1 : Fin 2) = 0 :=
  (by decide +kernel : ∀ t : Fin grid2.N, _)
theorem idx_out5 : ∀ t : Fin cfg2.N, win2_5.index t (0 : Fin 3) = t.val ∧ win2_5.index t (1 : Fin 3) = 0 ∧ win2_5.index t (2 : Fin 3) = 0 :=
  (by decide +kernel : ∀ t : Fin grid2.N, _)
theorem idx_out6 : ∀ t : Fin cfg2.N, win2_6.index t (0 : Fin 3) = t.val ∧ win2_6.index t (1 : Fin 3) = 0 ∧ win2_6.index t (2 : Fin 3) = 0 :=
  (by decide +kernel : ∀ t : Fin grid2.N, _)

/-- The aggregate array. -/
def G4 (a num den h : S50000x128.Idx → EReal) : S50000x128.Idx → EReal := fun i => aggRaw (den i) (a i) (num i) (h i)
def G5 (x : S50000x128.Idx → EReal) : S25x1x128.Idx → EReal :=
  fun j => ∑ r : Fin 2000, x (ix2 (blockRow (j 0) r) (j 2))
def G6 (x : S50000x128.Idx → EReal) : S25x1x128.Idx → EReal :=
  fun j => ∑ r : Fin 2000, x (ix2 (blockRow (j 0) r) (j 2)) * x (ix2 (blockRow (j 0) r) (j 2))

set_option maxHeartbeats 4000000 in
/-- The block's aggregate payload of the blocks the point loads is the array's aggregate at the block's rows. -/
theorem pay1_blk (c : Dev nD) (t : Fin cfg2.N) (p : Fin 2000) (q : Fin 128) :
    k2_pay1 (F := Ideal) (iblk2 V c 2 t) (iblk2 V c 0 t) (iblk2 V c 1 t) (iblk2 V c 3 t) (ix2 p q)
      = G4 (V c main_v0_0) (V c main_v25) (V c main_v28) (V c main_arg0) (ix2 (blockRow t p) q) := by
  refine (pay1_apply _ _ _ _ p q).trans ?_
  obtain ⟨a0, a1, n0, n1, d0, d1, h0, h1⟩ := idx_in t
  have e0 : ∀ (a : Fin 2000) (b : Fin 128), ((cfg2.win 0).blk t).view.emb (ix2 a b) = ix2 (blockRow t a) b := by
    intro a b; funext ax; apply Fin.ext
    match ax with
    | ⟨0, _⟩ => show win2_0.index t (0 : Fin 2) * 2000 + 1 * a.val = t.val * 2000 + a.val; omega
    | ⟨1, _⟩ => show win2_0.index t (1 : Fin 2) * 128 + 1 * b.val = b.val; omega
  have e1 : ∀ (a : Fin 2000) (b : Fin 128), ((cfg2.win 1).blk t).view.emb (ix2 a b) = ix2 (blockRow t a) b := by
    intro a b; funext ax; apply Fin.ext
    match ax with
    | ⟨0, _⟩ => show win2_1.index t (0 : Fin 2) * 2000 + 1 * a.val = t.val * 2000 + a.val; omega
    | ⟨1, _⟩ => show win2_1.index t (1 : Fin 2) * 128 + 1 * b.val = b.val; omega
  have e2 : ∀ (a : Fin 2000) (b : Fin 128), ((cfg2.win 2).blk t).view.emb (ix2 a b) = ix2 (blockRow t a) b := by
    intro a b; funext ax; apply Fin.ext
    match ax with
    | ⟨0, _⟩ => show win2_2.index t (0 : Fin 2) * 2000 + 1 * a.val = t.val * 2000 + a.val; omega
    | ⟨1, _⟩ => show win2_2.index t (1 : Fin 2) * 128 + 1 * b.val = b.val; omega
  have e3 : ∀ (a : Fin 2000) (b : Fin 128), ((cfg2.win 3).blk t).view.emb (ix2 a b) = ix2 (blockRow t a) b := by
    intro a b; funext ax; apply Fin.ext
    match ax with
    | ⟨0, _⟩ => show win2_3.index t (0 : Fin 2) * 2000 + 1 * a.val = t.val * 2000 + a.val; omega
    | ⟨1, _⟩ => show win2_3.index t (1 : Fin 2) * 128 + 1 * b.val = b.val; omega
  show aggRaw (V c main_v28 (((cfg2.win 2).blk t).view.emb (ix2 p q))) (V c main_v0_0 (((cfg2.win 0).blk t).view.emb (ix2 p q)))
      (V c main_v25 (((cfg2.win 1).blk t).view.emb (ix2 p q))) (V c main_arg0 (((cfg2.win 3).blk t).view.emb (ix2 p q)))
    = aggRaw (V c main_v28 (ix2 (blockRow t p) q)) (V c main_v0_0 (ix2 (blockRow t p) q)) (V c main_v25 (ix2 (blockRow t p) q))
      (V c main_arg0 (ix2 (blockRow t p) q))
  exact aggRaw_congr (congrArg (V c main_v28) (e2 p q)) (congrArg (V c main_v0_0) (e0 p q)) (congrArg (V c main_v25) (e1 p q))
    (congrArg (V c main_arg0) (e3 p q))

theorem emb_out4 (t : Fin cfg2.N) (p : Fin 2000) (q : Fin 128) : ((cfg2.win 4).blk t).view.emb (ix2 p q) = ix2 (blockRow t p) q := by
  obtain ⟨o0, o1⟩ := idx_out4 t
  funext ax; apply Fin.ext
  match ax with
  | ⟨0, _⟩ => show win2_4.index t (0 : Fin 2) * 2000 + 1 * p.val = t.val * 2000 + p.val; omega
  | ⟨1, _⟩ => show win2_4.index t (1 : Fin 2) * 128 + 1 * q.val = q.val; omega
theorem emb_out5 (t : Fin cfg2.N) (u v : Fin 1) (q : Fin 128) : ((cfg2.win 5).blk t).view.emb (ix3 u v q) = ix3 (t : Fin 25) (0 : Fin 1) q := by
  obtain ⟨o0, o1, o2⟩ := idx_out5 t
  funext ax; apply Fin.ext
  match ax with
  | ⟨0, _⟩ => show win2_5.index t (0 : Fin 3) * 1 + 1 * u.val = t.val; omega
  | ⟨1, _⟩ => show win2_5.index t (1 : Fin 3) * 1 + 1 * v.val = 0; omega
  | ⟨2, _⟩ => show win2_5.index t (2 : Fin 3) * 128 + 1 * q.val = q.val; omega
theorem emb_out6 (t : Fin cfg2.N) (u v : Fin 1) (q : Fin 128) : ((cfg2.win 6).blk t).view.emb (ix3 u v q) = ix3 (t : Fin 25) (0 : Fin 1) q := by
  obtain ⟨o0, o1, o2⟩ := idx_out6 t
  funext ax; apply Fin.ext
  match ax with
  | ⟨0, _⟩ => show win2_6.index t (0 : Fin 3) * 1 + 1 * u.val = t.val; omega
  | ⟨1, _⟩ => show win2_6.index t (1 : Fin 3) * 1 + 1 * v.val = 0; omega
  | ⟨2, _⟩ => show win2_6.index t (2 : Fin 3) * 128 + 1 * q.val = q.val; omega

set_option maxHeartbeats 4000000 in
theorem flushed4_eq (c : Dev nD) (t : Fin cfg2.N) :
    (dat2 V c).flushed 4 t = ((cfg2.win 4).blk t).view.read (Elt Ideal)
      (G4 (V c main_v0_0) (V c main_v25) (V c main_v28) (V c main_arg0)) := by
  show (cfg2.win 4).cut (grid2.coords t) ((dat2 V c).after 4 t) = _
  rw [after2_4, out4_eq]
  funext j
  obtain ⟨p, q, rfl⟩ : ∃ (p : Fin 2000) (q : Fin 128), j = ix2 p q := ⟨j 0, j 1, eq_ix2 j⟩
  refine (pay1_blk V c t p q).trans ?_
  exact (congrArg (G4 (V c main_v0_0) (V c main_v25) (V c main_v28) (V c main_arg0)) (emb_out4 t p q)).symm
set_option maxHeartbeats 4000000 in
theorem flushed5_eq (c : Dev nD) (t : Fin cfg2.N) :
    (dat2 V c).flushed 5 t = ((cfg2.win 5).blk t).view.read (Elt Ideal)
      (G5 (G4 (V c main_v0_0) (V c main_v25) (V c main_v28) (V c main_arg0))) := by
  show (cfg2.win 5).cut (grid2.coords t) ((dat2 V c).after 5 t) = _
  rw [after2_5, out5_eq]
  funext j
  obtain ⟨u, v, q, rfl⟩ : ∃ (u v : Fin 1) (q : Fin 128), j = ix3 u v q := ⟨j 0, j 1, j 2, eq_ix3 j⟩
  refine (pay2_apply _ _ _ _ u v q).trans ?_
  refine (Finset.sum_congr rfl fun r _ => pay1_blk V c t r q).trans ?_
  exact (congrArg (G5 (G4 (V c main_v0_0) (V c main_v25) (V c main_v28) (V c main_arg0))) (emb_out5 t u v q)).symm
set_option maxHeartbeats 4000000 in
theorem flushed6_eq (c : Dev nD) (t : Fin cfg2.N) :
    (dat2 V c).flushed 6 t = ((cfg2.win 6).blk t).view.read (Elt Ideal)
      (G6 (G4 (V c main_v0_0) (V c main_v25) (V c main_v28) (V c main_arg0))) := by
  show (cfg2.win 6).cut (grid2.coords t) ((dat2 V c).after 6 t) = _
  rw [after2_6, out6_eq]
  funext j
  obtain ⟨u, v, q, rfl⟩ : ∃ (u v : Fin 1) (q : Fin 128), j = ix3 u v q := ⟨j 0, j 1, j 2, eq_ix3 j⟩
  refine (pay3_apply _ _ _ _ u v q).trans ?_
  refine (Finset.sum_congr rfl fun r _ => congr_mul (pay1_blk V c t r q) (pay1_blk V c t r q)).trans ?_
  exact (congrArg (G6 (G4 (V c main_v0_0) (V c main_v25) (V c main_v28) (V c main_arg0))) (emb_out6 t u v q)).symm

/-- An entry of the array is in point `t`'s block iff each coordinate is in the block's range on its axis. -/
theorem mem_blk4 (t : Fin cfg2.N) (i : S50000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v29_0).slice (win2_4.rect t)).set ↔ _
  rw [View.set_slice_whole, Rect.mem_set_unit]
  exact Iff.rfl

/-- Every entry of the array is in the block of the point its row falls in. -/
theorem cover4 (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  refine ⟨⟨(i 0).val / 2000, by show (i 0).val / 2000 < 25; omega⟩, flush2_4 _, ?_⟩
  rw [mem_blk4]
  obtain ⟨e0, e1⟩ := idx_out4 ⟨(i 0).val / 2000, by show (i 0).val / 2000 < 25; omega⟩
  intro a
  match a with
  | ⟨0, _⟩ => show win2_4.index _ (0 : Fin 2) * 2000 ≤ (i 0).val ∧ (i 0).val < win2_4.index _ (0 : Fin 2) * 2000 + 2000; rw [e0]; show (i 0).val / 2000 * 2000 ≤ (i 0).val ∧ (i 0).val < (i 0).val / 2000 * 2000 + 2000; omega
  | ⟨1, _⟩ => show win2_4.index _ (1 : Fin 2) * 128 ≤ (i 1).val ∧ (i 1).val < win2_4.index _ (1 : Fin 2) * 128 + 128; rw [e1]; omega

/-- An entry of the [blocks, 1, 128] array is in point `t`'s block iff each coordinate is in the block's range on its axis. -/
theorem mem_blk5 (t : Fin cfg2.N) (i : S25x1x128.Idx) :
    i ∈ ((cfg2.win 5).blk t).view.set ↔ ∀ a : Fin 3, win2_5.index t a * S1x1x128.size a ≤ (i a).val ∧ (i a).val < win2_5.index t a * S1x1x128.size a + S1x1x128.size a := by
  show i ∈ ((View.whole main_v29_1).slice (win2_5.rect t)).set ↔ _
  rw [View.set_slice_whole, Rect.mem_set_unit]
  exact Iff.rfl

/-- Every entry of the array is in the block of the point its leading coordinate names. -/
theorem cover5 (i : S25x1x128.Idx) : ∃ t : Fin cfg2.N, (cfg2.win 5).flush t = true ∧ i ∈ ((cfg2.win 5).blk t).view.set := by
  have hi0 : (i 0).val < 25 := (i 0).isLt
  have hi1 : (i 1).val < 1 := (i 1).isLt
  have hi2 : (i 2).val < 128 := (i 2).isLt
  refine ⟨⟨(i 0).val, hi0⟩, flush2_5 _, ?_⟩
  rw [mem_blk5]
  obtain ⟨e0, e1, e2⟩ := idx_out5 ⟨(i 0).val, hi0⟩
  intro a
  match a with
  | ⟨0, _⟩ => show win2_5.index _ (0 : Fin 3) * 1 ≤ (i 0).val ∧ (i 0).val < win2_5.index _ (0 : Fin 3) * 1 + 1; rw [e0]; show (i 0).val * 1 ≤ (i 0).val ∧ (i 0).val < (i 0).val * 1 + 1; omega
  | ⟨1, _⟩ => show win2_5.index _ (1 : Fin 3) * 1 ≤ (i 1).val ∧ (i 1).val < win2_5.index _ (1 : Fin 3) * 1 + 1; rw [e1]; omega
  | ⟨2, _⟩ => show win2_5.index _ (2 : Fin 3) * 128 ≤ (i 2).val ∧ (i 2).val < win2_5.index _ (2 : Fin 3) * 128 + 128; rw [e2]; omega

/-- An entry of the [blocks, 1, 128] array is in point `t`'s block iff each coordinate is in the block's range on its axis. -/
theorem mem_blk6 (t : Fin cfg2.N) (i : S25x1x128.Idx) :
    i ∈ ((cfg2.win 6).blk t).view.set ↔ ∀ a : Fin 3, win2_6.index t a * S1x1x128.size a ≤ (i a).val ∧ (i a).val < win2_6.index t a * S1x1x128.size a + S1x1x128.size a := by
  show i ∈ ((View.whole main_v29_2).slice (win2_6.rect t)).set ↔ _
  rw [View.set_slice_whole, Rect.mem_set_unit]
  exact Iff.rfl

/-- Every entry of the array is in the block of the point its leading coordinate names. -/
theorem cover6 (i : S25x1x128.Idx) : ∃ t : Fin cfg2.N, (cfg2.win 6).flush t = true ∧ i ∈ ((cfg2.win 6).blk t).view.set := by
  have hi0 : (i 0).val < 25 := (i 0).isLt
  have hi1 : (i 1).val < 1 := (i 1).isLt
  have hi2 : (i 2).val < 128 := (i 2).isLt
  refine ⟨⟨(i 0).val, hi0⟩, flush2_6 _, ?_⟩
  rw [mem_blk6]
  obtain ⟨e0, e1, e2⟩ := idx_out6 ⟨(i 0).val, hi0⟩
  intro a
  match a with
  | ⟨0, _⟩ => show win2_6.index _ (0 : Fin 3) * 1 ≤ (i 0).val ∧ (i 0).val < win2_6.index _ (0 : Fin 3) * 1 + 1; rw [e0]; show (i 0).val * 1 ≤ (i 0).val ∧ (i 0).val < (i 0).val * 1 + 1; omega
  | ⟨1, _⟩ => show win2_6.index _ (1 : Fin 3) * 1 ≤ (i 1).val ∧ (i 1).val < win2_6.index _ (1 : Fin 3) * 1 + 1; rw [e1]; omega
  | ⟨2, _⟩ => show win2_6.index _ (2 : Fin 3) * 128 ≤ (i 2).val ∧ (i 2).val < win2_6.index _ (2 : Fin 3) * 128 + 128; rw [e2]; omega

theorem final4 (c : Dev nD) : (dat2 V c).arrAt 4 cfg2.N = G4 (V c main_v0_0) (V c main_v25) (V c main_v28) (V c main_arg0) :=
  (dat2 V c).arrAt_eq_of_cover 4 _ (fun t _ => flushed4_eq V c t) cover4
theorem final5 (c : Dev nD) : (dat2 V c).arrAt 5 cfg2.N = G5 (G4 (V c main_v0_0) (V c main_v25) (V c main_v28) (V c main_arg0)) :=
  (dat2 V c).arrAt_eq_of_cover 5 _ (fun t _ => flushed5_eq V c t) cover5
theorem final6 (c : Dev nD) : (dat2 V c).arrAt 6 cfg2.N = G6 (G4 (V c main_v0_0) (V c main_v25) (V c main_v28) (V c main_arg0)) :=
  (dat2 V c).arrAt_eq_of_cover 6 _ (fun t _ => flushed6_eq V c t) cover6

end Cert.KernelIdeal.Region2

end
-- ==== Proof.Region3.lean ====
/-
  Region 3 of the kernel (batch normalisation applied to the edge features, 100 row blocks of 8000 rows): after the region
  its output array holds, at every entry (i, c), res + max (g[c] · (x[i,c] − μ[c]) · (var[c] + ε)^(-1/2) + b[c], 0) of the
  arrays the region found: block t of the output is that function of block t of x and of the residual and of the four
  whole vectors, and the 100 blocks tile the array.
-/
import proofs.«139856_j11905649344612_2_alg».proof.Proof.Gen.KernelIdeal.Frame
import proofs.«139856_j11905649344612_2_alg».proof.Proof.ValueTools
import proofs.«139856_j11905649344612_2_alg».proof.Proof.Spec

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx Cert.ValueTools Cert.Spec
open Idealize.ShloMosaic.Pipeline (Dat Cfg Window)

variable (V : (c : Dev nD) → (b : Ref sig .tc) → Buf (Elt Ideal) ((c : Thread nD τ).loc b))

/-- The body's store is its payload of the loaded blocks. -/
theorem out_eq (x0 x1 : Vec Ideal S8000x128 .f32) (x2 x3 x4 x5 : Vec Ideal S128 .f32) :
    out3_6 (F := Ideal) x0 x1 x2 x3 x4 x5 = k3_pay1 x0 x2 x4 x5 x3 x1 := by
  unfold out3_6
  rw [View.canon_unit_zero hz2]
  simp only [View.ld_unit_zero (S := S8000x128) hz2, View.ld_unit_zero (S := S128) hz1]

/-- The payload at an entry of the block. -/
theorem pay_apply (x0 : Vec Ideal S8000x128 .f32) (x2 x3 x11 x19 : Vec Ideal S128 .f32) (x23 : Vec Ideal S8000x128 .f32)
    (p : Fin 8000) (q : Fin 128) :
    k3_pay1 (F := Ideal) x0 x2 x3 x11 x19 x23 (ix2 p q)
      = bnEntry (x0 (ix2 p q)) (x23 (ix2 p q)) (x2 (ix1 q)) (x19 (ix1 q)) (x3 (ix1 q)) (x11 (ix1 q)) := by
  unfold k3_pay1 bnEntry eps
  simp only [shapeCast_self, addf_apply, subf_apply, mulf_apply, maximumf_apply, broadcast_apply, rowBcast_apply]
  rw [show (Scalar.ofBits (F := Ideal) .f32 0x00000000#32 : EReal) = 0 from Ideal.ofBits_zero_f32]
  rfl

/-- The array the output window ends holding. -/
def G (x res : S800000x128.Idx → EReal) (g b mu var : S128.Idx → EReal) : S800000x128.Idx → EReal :=
  fun i => bnEntry (x i) (res i) (g (ix1 (i 1))) (b (ix1 (i 1))) (mu (ix1 (i 1))) (var (ix1 (i 1)))

/-- The printed index maps over the grid: the two row-blocked inputs move with the point, the vectors stay. -/
theorem idx_in : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 1) = 0 ∧ win3_3.index t (0 : Fin 1) = 0 ∧ win3_4.index t (0 : Fin 1) = 0 ∧ win3_5.index t (0 : Fin 1) = 0 :=
  (by decide +kernel : ∀ t : Fin grid3.N, _)
theorem idx_out6 : ∀ t : Fin cfg3.N, win3_6.index t (0 : Fin 2) = t.val ∧ win3_6.index t (1 : Fin 2) = 0 :=
  (by decide +kernel : ∀ t : Fin grid3.N, _)

set_option maxHeartbeats 4000000 in
/-- What point `t` writes back is block `t` of `G` of the arrays the region found. -/
theorem flushed_eq (c : Dev nD) (t : Fin cfg3.N) :
    (dat3 V c).flushed 6 t = ((cfg3.win 6).blk t).view.read (Elt Ideal)
      (G (V c main_v22_0) (V c main_arg1) (V c main_arg16) (V c main_arg17) (V c main_v39) (V c main_v45)) := by
  show (cfg3.win 6).cut (grid3.coords t) ((dat3 V c).after 6 t) = _
  rw [after3_6, out_eq]
  obtain ⟨a0, a1, b0, b1, c2, c3, c4, c5⟩ := idx_in t
  obtain ⟨o0, o1⟩ := idx_out6 t
  funext j
  obtain ⟨p, q, rfl⟩ : ∃ (p : Fin 8000) (q : Fin 128), j = ix2 p q := ⟨j 0, j 1, eq_ix2 j⟩
  refine (pay_apply _ _ _ _ _ _ p q).trans ?_
  have h0 : ((cfg3.win 0).blk t).view.emb (ix2 p q) = ((cfg3.win 6).blk t).view.emb (ix2 p q) := by
    funext a; apply Fin.ext
    match a with
    | ⟨0, _⟩ => show win3_0.index t (0 : Fin 2) * 8000 + 1 * p.val = win3_6.index t (0 : Fin 2) * 8000 + 1 * p.val; omega
    | ⟨1, _⟩ => show win3_0.index t (1 : Fin 2) * 128 + 1 * q.val = win3_6.index t (1 : Fin 2) * 128 + 1 * q.val; omega
  have h1 : ((cfg3.win 1).blk t).view.emb (ix2 p q) = ((cfg3.win 6).blk t).view.emb (ix2 p q) := by
    funext a; apply Fin.ext
    match a with
    | ⟨0, _⟩ => show win3_1.index t (0 : Fin 2) * 8000 + 1 * p.val = win3_6.index t (0 : Fin 2) * 8000 + 1 * p.val; omega
    | ⟨1, _⟩ => show win3_1.index t (1 : Fin 2) * 128 + 1 * q.val = win3_6.index t (1 : Fin 2) * 128 + 1 * q.val; omega
  have h2 : ((cfg3.win 2).blk t).view.emb (ix1 q) = ix1 ((((cfg3.win 6).blk t).view.emb (ix2 p q)) 1) := by
    funext a; apply Fin.ext
    match a with
    | ⟨0, _⟩ => show win3_2.index t (0 : Fin 1) * 128 + 1 * q.val = win3_6.index t (1 : Fin 2) * 128 + 1 * q.val; omega
  have h3 : ((cfg3.win 3).blk t).view.emb (ix1 q) = ix1 ((((cfg3.win 6).blk t).view.emb (ix2 p q)) 1) := by
    funext a; apply Fin.ext
    match a with
    | ⟨0, _⟩ => show win3_3.index t (0 : Fin 1) * 128 + 1 * q.val = win3_6.index t (1 : Fin 2) * 128 + 1 * q.val; omega
  have h4 : ((cfg3.win 4).blk t).view.emb (ix1 q) = ix1 ((((cfg3.win 6).blk t).view.emb (ix2 p q)) 1) := by
    funext a; apply Fin.ext
    match a with
    | ⟨0, _⟩ => show win3_4.index t (0 : Fin 1) * 128 + 1 * q.val = win3_6.index t (1 : Fin 2) * 128 + 1 * q.val; omega
  have h5 : ((cfg3.win 5).blk t).view.emb (ix1 q) = ix1 ((((cfg3.win 6).blk t).view.emb (ix2 p q)) 1) := by
    funext a; apply Fin.ext
    match a with
    | ⟨0, _⟩ => show win3_5.index t (0 : Fin 1) * 128 + 1 * q.val = win3_6.index t (1 : Fin 2) * 128 + 1 * q.val; omega
  show bnEntry (V c main_v22_0 (((cfg3.win 0).blk t).view.emb (ix2 p q))) (V c main_arg1 (((cfg3.win 1).blk t).view.emb (ix2 p q)))
      (V c main_arg16 (((cfg3.win 2).blk t).view.emb (ix1 q))) (V c main_arg17 (((cfg3.win 3).blk t).view.emb (ix1 q)))
      (V c main_v39 (((cfg3.win 4).blk t).view.emb (ix1 q))) (V c main_v45 (((cfg3.win 5).blk t).view.emb (ix1 q)))
    = bnEntry (V c main_v22_0 (((cfg3.win 6).blk t).view.emb (ix2 p q))) (V c main_arg1 (((cfg3.win 6).blk t).view.emb (ix2 p q))) (V c main_arg16 (ix1 ((((cfg3.win 6).blk t).view.emb (ix2 p q)) 1))) (V c main_arg17 (ix1 ((((cfg3.win 6).blk t).view.emb (ix2 p q)) 1)))
      (V c main_v39 (ix1 ((((cfg3.win 6).blk t).view.emb (ix2 p q)) 1))) (V c main_v45 (ix1 ((((cfg3.win 6).blk t).view.emb (ix2 p q)) 1)))
  exact bnEntry_congr (congrArg (V c main_v22_0) h0) (congrArg (V c main_arg1) h1) (congrArg (V c main_arg16) h2) (congrArg (V c main_arg17) h3)
    (congrArg (V c main_v39) h4) (congrArg (V c main_v45) h5)

/-- An entry of the array is in point `t`'s block iff each coordinate is in the block's range on its axis. -/
theorem mem_blk6 (t : Fin cfg3.N) (i : S800000x128.Idx) :
    i ∈ ((cfg3.win 6).blk t).view.set ↔ ∀ a : Fin 2, win3_6.index t a * S8000x128.size a ≤ (i a).val ∧ (i a).val < win3_6.index t a * S8000x128.size a + S8000x128.size a := by
  show i ∈ ((View.whole main_v54).slice (win3_6.rect t)).set ↔ _
  rw [View.set_slice_whole, Rect.mem_set_unit]
  exact Iff.rfl

/-- Every entry of the array is in the block of the point its row falls in. -/
theorem cover6 (i : S800000x128.Idx) : ∃ t : Fin cfg3.N, (cfg3.win 6).flush t = true ∧ i ∈ ((cfg3.win 6).blk t).view.set := by
  have hi0 : (i 0).val < 800000 := (i 0).isLt
  have hi1 : (i 1).val < 128 := (i 1).isLt
  refine ⟨⟨(i 0).val / 8000, by show (i 0).val / 8000 < 100; omega⟩, flush3_6 _, ?_⟩
  rw [mem_blk6]
  obtain ⟨e0, e1⟩ := idx_out6 ⟨(i 0).val / 8000, by show (i 0).val / 8000 < 100; omega⟩
  intro a
  match a with
  | ⟨0, _⟩ => show win3_6.index _ (0 : Fin 2) * 8000 ≤ (i 0).val ∧ (i 0).val < win3_6.index _ (0 : Fin 2) * 8000 + 8000; rw [e0]; show (i 0).val / 8000 * 8000 ≤ (i 0).val ∧ (i 0).val < (i 0).val / 8000 * 8000 + 8000; omega
  | ⟨1, _⟩ => show win3_6.index _ (1 : Fin 2) * 128 ≤ (i 1).val ∧ (i 1).val < win3_6.index _ (1 : Fin 2) * 128 + 128; rw [e1]; omega

/-- After the region the output array is `G` of the arrays the region found. -/
theorem final (c : Dev nD) : (dat3 V c).arrAt 6 cfg3.N
    = G (V c main_v22_0) (V c main_arg1) (V c main_arg16) (V c main_arg17) (V c main_v39) (V c main_v45) :=
  (dat3 V c).arrAt_eq_of_cover 6 _ (fun t _ => flushed_eq V c t) cover6

end Cert.KernelIdeal.Region3

end
-- ==== Proof.Region4.lean ====
/-
  Region 4 of the kernel (batch normalisation applied to the node features, 25 row blocks of 2000 rows): after the region
  its output array holds, at every entry (n, c), res + max (g[c] · (x[n,c] − μ[c]) · (var[c] + ε)^(-1/2) + b[c], 0) of the
  arrays the region found: block t of the output is that function of block t of x and of the residual and of the four
  whole vectors, and the 25 blocks tile the array.
-/
import proofs.«139856_j11905649344612_2_alg».proof.Proof.Gen.KernelIdeal.Frame
import proofs.«139856_j11905649344612_2_alg».proof.Proof.ValueTools
import proofs.«139856_j11905649344612_2_alg».proof.Proof.Spec

set_option maxRecDepth 16384

noncomputable section

namespace Cert.KernelIdeal.Region4

open Cert.KernelIdeal Cert.KernelIdeal.Gen Idealize.ShloMosaic Idealize.ShloMosaic.TcCoe Idealize.SL.Sem
open Idealize.ShloMosaic.ValueIdx Cert.ValueTools Cert.Spec
open Idealize.ShloMosaic.Pipeline (Dat Cfg Window)

variable (V : (c : Dev nD) → (b : Ref sig .tc) → Buf (Elt Ideal) ((c : Thread nD τ).loc b))

/-- The body's store is its payload of the loaded blocks. -/
theorem out_eq (x0 x1 : Vec Ideal S2000x128 .f32) (x2 x3 x4 x5 : Vec Ideal S128 .f32) :
    out4_6 (F := Ideal) x0 x1 x2 x3 x4 x5 = k4_pay1 x0 x2 x4 x5 x3 x1 := by
  unfold out4_6
  rw [View.canon_unit_zero hz2]
  simp only [View.ld_unit_zero (S := S2000x128) hz2, View.ld_unit_zero (S := S128) hz1]

/-- The payload at an entry of the block. -/
theorem pay_apply (x0 : Vec Ideal S2000x128 .f32) (x2 x3 x11 x19 : Vec Ideal S128 .f32) (x23 : Vec Ideal S2000x128 .f32)
    (p : Fin 2000) (q : Fin 128) :
    k4_pay1 (F := Ideal) x0 x2 x3 x11 x19 x23 (ix2 p q)
      = bnEntry (x0 (ix2 p q)) (x23 (ix2 p q)) (x2 (ix1 q)) (x19 (ix1 q)) (x3 (ix1 q)) (x11 (ix1 q)) := by
  unfold k4_pay1 bnEntry eps
  simp only [shapeCast_self, addf_apply, subf_apply, mulf_apply, maximumf_apply, broadcast_apply, rowBcast_apply]
  rw [show (Scalar.ofBits (F := Ideal) .f32 0x00000000#32 : EReal) = 0 from Ideal.ofBits_zero_f32]
  rfl

/-- The array the output window ends holding. -/
def G (x res : S50000x128.Idx → EReal) (g b mu var : S128.Idx → EReal) : S50000x128.Idx → EReal :=
  fun i => bnEntry (x i) (res i) (g (ix1 (i 1))) (b (ix1 (i 1))) (mu (ix1 (i 1))) (var (ix1 (i 1)))

/-- The printed index maps over the grid: the two row-blocked inputs move with the point, the vectors stay. -/
theorem idx_in : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 1) = 0 ∧ win4_3.index t (0 : Fin 1) = 0 ∧ win4_4.index t (0 : Fin 1) = 0 ∧ win4_5.index t (0 : Fin 1) = 0 :=
  (by decide +kernel : ∀ t : Fin grid4.N, _)
theorem idx_out6 : ∀ t : Fin cfg4.N, win4_6.index t (0 : Fin 2) = t.val ∧ win4_6.index t (1 : Fin 2) = 0 :=
  (by decide +kernel : ∀ t : Fin grid4.N, _)

set_option maxHeartbeats 4000000 in
/-- What point `t` writes back is block `t` of `G` of the arrays the region found. -/
theorem flushed_eq (c : Dev nD) (t : Fin cfg4.N) :
    (dat4 V c).flushed 6 t = ((cfg4.win 6).blk t).view.read (Elt Ideal)
      (G (V c main_v29_0) (V c main_arg0) (V c main_arg14) (V c main_arg15) (V c main_v47) (V c main_v53)) := by
  show (cfg4.win 6).cut (grid4.coords t) ((dat4 V c).after 6 t) = _
  rw [after4_6, out_eq]
  obtain ⟨a0, a1, b0, b1, c2, c3, c4, c5⟩ := idx_in t
  obtain ⟨o0, o1⟩ := idx_out6 t
  funext j
  obtain ⟨p, q, rfl⟩ : ∃ (p : Fin 2000) (q : Fin 128), j = ix2 p q := ⟨j 0, j 1, eq_ix2 j⟩
  refine (pay_apply _ _ _ _ _ _ p q).trans ?_
  have h0 : ((cfg4.win 0).blk t).view.emb (ix2 p q) = ((cfg4.win 6).blk t).view.emb (ix2 p q) := by
    funext a; apply Fin.ext
    match a with
    | ⟨0, _⟩ => show win4_0.index t (0 : Fin 2) * 2000 + 1 * p.val = win4_6.index t (0 : Fin 2) * 2000 + 1 * p.val; omega
    | ⟨1, _⟩ => show win4_0.index t (1 : Fin 2) * 128 + 1 * q.val = win4_6.index t (1 : Fin 2) * 128 + 1 * q.val; omega
  have h1 : ((cfg4.win 1).blk t).view.emb (ix2 p q) = ((cfg4.win 6).blk t).view.emb (ix2 p q) := by
    funext a; apply Fin.ext
    match a with
    | ⟨0, _⟩ => show win4_1.index t (0 : Fin 2) * 2000 + 1 * p.val = win4_6.index t (0 : Fin 2) * 2000 + 1 * p.val; omega
    | ⟨1, _⟩ => show win4_1.index t (1 : Fin 2) * 128 + 1 * q.val = win4_6.index t (1 : Fin 2) * 128 + 1 * q.val; omega
  have h2 : ((cfg4.win 2).blk t).view.emb (ix1 q) = ix1 ((((cfg4.win 6).blk t).view.emb (ix2 p q)) 1) := by
    funext a; apply Fin.ext
    match a with
    | ⟨0, _⟩ => show win4_2.index t (0 : Fin 1) * 128 + 1 * q.val = win4_6.index t (1 : Fin 2) * 128 + 1 * q.val; omega
  have h3 : ((cfg4.win 3).blk t).view.emb (ix1 q) = ix1 ((((cfg4.win 6).blk t).view.emb (ix2 p q)) 1) := by
    funext a; apply Fin.ext
    match a with
    | ⟨0, _⟩ => show win4_3.index t (0 : Fin 1) * 128 + 1 * q.val = win4_6.index t (1 : Fin 2) * 128 + 1 * q.val; omega
  have h4 : ((cfg4.win 4).blk t).view.emb (ix1 q) = ix1 ((((cfg4.win 6).blk t).view.emb (ix2 p q)) 1) := by
    funext a; apply Fin.ext
    match a with
    | ⟨0, _⟩ => show win4_4.index t (0 : Fin 1) * 128 + 1 * q.val = win4_6.index t (1 : Fin 2) * 128 + 1 * q.val; omega
  have h5 : ((cfg4.win 5).blk t).view.emb (ix1 q) = ix1 ((((cfg4.win 6).blk t).view.emb (ix2 p q)) 1) := by
    funext a; apply Fin.ext
    match a with
    | ⟨0, _⟩ => show win4_5.index t (0 : Fin 1) * 128 + 1 * q.val = win4_6.index t (1 : Fin 2) * 128 + 1 * q.val; omega
  show bnEntry (V c main_v29_0 (((cfg4.win 0).blk t).view.emb (ix2 p q))) (V c main_arg0 (((cfg4.win 1).blk t).view.emb (ix2 p q)))
      (V c main_arg14 (((cfg4.win 2).blk t).view.emb (ix1 q))) (V c main_arg15 (((cfg4.win 3).blk t).view.emb (ix1 q)))
      (V c main_v47 (((cfg4.win 4).blk t).view.emb (ix1 q))) (V c main_v53 (((cfg4.win 5).blk t).view.emb (ix1 q)))
    = bnEntry (V c main_v29_0 (((cfg4.win 6).blk t).view.emb (ix2 p q))) (V c main_arg0 (((cfg4.win 6).blk t).view.emb (ix2 p q))) (V c main_arg14 (ix1 ((((cfg4.win 6).blk t).view.emb (ix2 p q)) 1))) (V c main_arg15 (ix1 ((((cfg4.win 6).blk t).view.emb (ix2 p q)) 1)))
      (V c main_v47 (ix1 ((((cfg4.win 6).blk t).view.emb (ix2 p q)) 1))) (V c main_v53 (ix1 ((((cfg4.win 6).blk t).view.emb (ix2 p q)) 1)))
  exact bnEntry_congr (congrArg (V c main_v29_0) h0) (congrArg (V c main_arg0) h1) (congrArg (V c main_arg14) h2) (congrArg (V c main_arg15) h3)
    (congrArg (V c main_v47) h4) (congrArg (V c main_v53) h5)

/-- An entry of the array is in point `t`'s block iff each coordinate is in the block's range on its axis. -/
theorem mem_blk6 (t : Fin cfg4.N) (i : S50000x128.Idx) :
    i ∈ ((cfg4.win 6).blk t).view.set ↔ ∀ a : Fin 2, win4_6.index t a * S2000x128.size a ≤ (i a).val ∧ (i a).val < win4_6.index t a * S2000x128.size a + S2000x128.size a := by
  show i ∈ ((View.whole main_v55).slice (win4_6.rect t)).set ↔ _
  rw [View.set_slice_whole, Rect.mem_set_unit]
  exact Iff.rfl

/-- Every entry of the array is in the block of the point its row falls in. -/
theorem cover6 (i : S50000x128.Idx) : ∃ t : Fin cfg4.N, (cfg4.win 6).flush t = true ∧ i ∈ ((cfg4.win 6).blk t).view.set := by
  have hi0 : (i 0).val < 50000 := (i 0).isLt
  have hi1 : (i 1).val < 128 := (i 1).isLt
  refine ⟨⟨(i 0).val / 2000, by show (i 0).val / 2000 < 25; omega⟩, flush4_6 _, ?_⟩
  rw [mem_blk6]
  obtain ⟨e0, e1⟩ := idx_out6 ⟨(i 0).val / 2000, by show (i 0).val / 2000 < 25; omega⟩
  intro a
  match a with
  | ⟨0, _⟩ => show win4_6.index _ (0 : Fin 2) * 2000 ≤ (i 0).val ∧ (i 0).val < win4_6.index _ (0 : Fin 2) * 2000 + 2000; rw [e0]; show (i 0).val / 2000 * 2000 ≤ (i 0).val ∧ (i 0).val < (i 0).val / 2000 * 2000 + 2000; omega
  | ⟨1, _⟩ => show win4_6.index _ (1 : Fin 2) * 128 ≤ (i 1).val ∧ (i 1).val < win4_6.index _ (1 : Fin 2) * 128 + 128; rw [e1]; omega

/-- After the region the output array is `G` of the arrays the region found. -/
theorem final (c : Dev nD) : (dat4 V c).arrAt 6 cfg4.N
    = G (V c main_v29_0) (V c main_arg0) (V c main_arg14) (V c main_arg15) (V c main_v47) (V c main_v53) :=
  (dat4 V c).arrAt_eq_of_cover 6 _ (fun t _ => flushed_eq V c t) cover6

end Cert.KernelIdeal.Region4

end
-- ==== Proof.KernelSpec.lean ====
/-
  The layer's arrays as functions of abstract argument arrays, in the operations both programs share: the four node
  projections (rows of h times a weight plus a bias), the index columns (an index vector with negative entries wrapped by
  the table's length), the three gathered tables, the gate's pre-activation, the gate, the messages, the two scattered
  sums, the gated aggregate, the column means and clamped variances from per-block column sums, and the two normalised
  results.
-/
import proofs.«139856_j11905649344612_2_alg».proof.Proof.Region0
import proofs.«139856_j11905649344612_2_alg».proof.Proof.Region1
import proofs.«139856_j11905649344612_2_alg».proof.Proof.Region2
import proofs.«139856_j11905649344612_2_alg».proof.Proof.Region3
import proofs.«139856_j11905649344612_2_alg».proof.Proof.Region4

noncomputable section

namespace Cert.KernelIdeal.Chain

open Cert.KernelIdeal Idealize.ShloMosaic Idealize.ShloMosaic.TcCoe
open Cert.KernelIdeal.Facts₀ Cert.KernelIdeal.Facts
open Idealize.ShloMosaic.ValueIdx

/-! ## The kernel's arrays as functions of abstract argument arrays -/

section Spec

variable (a0 : S50000x128.Idx → EReal) (a1 : S800000x128.Idx → EReal) (a2 a3 : IVec S800000 32)
  (a4 : S128x128.Idx → EReal) (a5 : S128.Idx → EReal) (a6 : S128x128.Idx → EReal) (a7 : S128.Idx → EReal)
  (a8 : S128x128.Idx → EReal) (a9 : S128.Idx → EReal) (a10 : S128x128.Idx → EReal) (a11 : S128.Idx → EReal)
  (a12 : S128x128.Idx → EReal) (a13 : S128.Idx → EReal) (a14 a15 a16 a17 : S128.Idx → EReal)

/-- An index vector with its negative entries wrapped by the table's length, laid as a column. -/
def idxN (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)
/-- An index vector laid as a column. -/
def idxR (x : IVec S800000 32) : IVec S800000x1 32 := broadcastInDim S800000x1 ![0] bcast_S800000_S800000x1_0 x

def AhT : S50000x128.Idx → EReal := Region0.linRows a0 a4 a5
def BhT : S50000x128.Idx → EReal := Region0.linRows a0 a6 a7
def DhT : S50000x128.Idx → EReal := Region0.linRows a0 a10 a11
def EhT : S50000x128.Idx → EReal := Region0.linRows a0 a12 a13
def gD : S800000x128.Idx → EReal := Host.gather gather_S50000x128_S800000x1_S800000x128_1_0_n_n_0_1_1128 (DhT a0 a10 a11) (idxN a2)
def gE : S800000x128.Idx → EReal := Host.gather gather_S50000x128_S800000x1_S800000x128_1_0_n_n_0_1_1128 (EhT a0 a12 a13) (idxN a3)
def gB : S800000x128.Idx → EReal := Host.gather gather_S50000x128_S800000x1_S800000x128_1_0_n_n_0_1_1128 (BhT a0 a6 a7) (idxN a2)
def eij : S800000x128.Idx → EReal := Region1.G6 a1 a8 a9 (gD a0 a2 a10 a11) (gE a0 a3 a12 a13)
def gate : S800000x128.Idx → EReal := Region1.G7 a1 a8 a9 (gD a0 a2 a10 a11) (gE a0 a3 a12 a13)
def msg : S800000x128.Idx → EReal := Region1.G8 a1 a8 a9 (gD a0 a2 a10 a11) (gE a0 a3 a12 a13) (gB a0 a2 a6 a7)
def zero2 : S50000x128.Idx → EReal := broadcastInDim S50000x128 ![] bcast_S_S50000x128 (constant (F := Ideal) S_ .f32 0x00000000#32)
def num : S50000x128.Idx → EReal :=
  Host.scatterAdd (F := Ideal) (φ := .f32) scatter_S50000x128_S800000x1_S800000x128_1_0_0_1 zero2 (idxR a3) (msg a0 a1 a2 a3 a6 a7 a8 a9 a10 a11 a12 a13)
def den : S50000x128.Idx → EReal :=
  Host.scatterAdd (F := Ideal) (φ := .f32) scatter_S50000x128_S800000x1_S800000x128_1_0_0_1 zero2 (idxR a3) (gate a0 a1 a2 a3 a8 a9 a10 a11 a12 a13)

def hagg : S50000x128.Idx → EReal :=
  Region2.G4 (AhT a0 a4 a5) (num a0 a1 a2 a3 a6 a7 a8 a9 a10 a11 a12 a13) (den a0 a1 a2 a3 a8 a9 a10 a11 a12 a13) a0

/-- The per-block column sums added up over the blocks, from the zero word. -/
def colTotal200 (p : S200x1x128.Idx → EReal) : S128.Idx → EReal :=
  Host.reduceAdd (F := Ideal) (φ := .f32) (shapeCast S200x128 p shapeCasts_S200x1x128_S200x128) (constant (F := Ideal) S_ .f32 0x00000000#32)
    reducesTo_S200x128_S128_d0 h_S_
def colTotal25 (p : S25x1x128.Idx → EReal) : S128.Idx → EReal :=
  Host.reduceAdd (F := Ideal) (φ := .f32) (shapeCast S25x128 p shapeCasts_S25x1x128_S25x128) (constant (F := Ideal) S_ .f32 0x00000000#32)
    reducesTo_S25x128_S128_d0 h_S_
/-- A column total divided by the row count's word. -/
def meanOf (tot : S128.Idx → EReal) (w : BitVec 32) : S128.Idx → EReal :=
  Host.divf (F := Ideal) (φ := .f32) tot (broadcastInDim S128 ![] bcast_S_S128 (constant (F := Ideal) S_ .f32 w))
/-- Mean of squares minus squared mean, clamped below at zero. -/
def varOf (totsq mean : S128.Idx → EReal) (w : BitVec 32) : S128.Idx → EReal :=
  maximumf (F := Ideal) (φ := .f32) (subf (meanOf totsq w) (mulf mean mean)) (broadcastInDim S128 ![] bcast_S_S128 (constant (F := Ideal) S_ .f32 0x00000000#32))

def meanE : S128.Idx → EReal := meanOf (colTotal200 (Region1.G9 (eij a0 a1 a2 a3 a8 a9 a10 a11 a12 a13))) 0x49435000#32
def varE : S128.Idx → EReal :=
  varOf (colTotal200 (Region1.G10 (eij a0 a1 a2 a3 a8 a9 a10 a11 a12 a13))) (meanE a0 a1 a2 a3 a8 a9 a10 a11 a12 a13) 0x49435000#32
def meanH : S128.Idx → EReal := meanOf (colTotal25 (Region2.G5 (hagg a0 a1 a2 a3 a4 a5 a6 a7 a8 a9 a10 a11 a12 a13))) 0x47435000#32
def varH : S128.Idx → EReal :=
  varOf (colTotal25 (Region2.G6 (hagg a0 a1 a2 a3 a4 a5 a6 a7 a8 a9 a10 a11 a12 a13))) (meanH a0 a1 a2 a3 a4 a5 a6 a7 a8 a9 a10 a11 a12 a13) 0x47435000#32

/-- The kernel's two results. -/
def eOut : S800000x128.Idx → EReal :=
  Region3.G (eij a0 a1 a2 a3 a8 a9 a10 a11 a12 a13) a1 a16 a17 (meanE a0 a1 a2 a3 a8 a9 a10 a11 a12 a13) (varE a0 a1 a2 a3 a8 a9 a10 a11 a12 a13)
def hOut : S50000x128.Idx → EReal :=
  Region4.G (hagg a0 a1 a2 a3 a4 a5 a6 a7 a8 a9 a10 a11 a12 a13) a0 a14 a15 (meanH a0 a1 a2 a3 a4 a5 a6 a7 a8 a9 a10 a11 a12 a13)
    (varH a0 a1 a2 a3 a4 a5 a6 a7 a8 a9 a10 a11 a12 a13)

end Spec

end Cert.KernelIdeal.Chain

end
-- ==== Proof.KernelChain.lean ====
/-
  The idealized kernel's two result arrays as functions of its argument arrays. The fold of the memory through the five
  regions and the three host stretches is read back one segment at a time: region 0 leaves the four node projections;
  stretch 1 gathers three of them at the edges' end points; region 1 leaves the gate's pre-activation, the gate, the
  messages and the per-block column sums of the pre-activation and of its square; stretch 2 scatter-adds the messages and
  the gates onto the destination nodes; region 2 leaves the gated aggregate and its per-block column sums; stretch 3 turns
  the block sums into the two means and the two clamped variances; regions 3 and 4 apply the normalisation.
  Buffers a segment does not write are walked back to where they were written (or to the launch memory).
-/
import proofs.«139856_j11905649344612_2_alg».proof.Proof.KernelRun
import proofs.«139856_j11905649344612_2_alg».proof.Proof.Region0
import proofs.«139856_j11905649344612_2_alg».proof.Proof.Region1
import proofs.«139856_j11905649344612_2_alg».proof.Proof.Region2
import proofs.«139856_j11905649344612_2_alg».proof.Proof.Region3
import proofs.«139856_j11905649344612_2_alg».proof.Proof.Region4
import proofs.«139856_j11905649344612_2_alg».proof.Proof.KernelSpec
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Cert.KernelIdeal.Facts₀ Cert.KernelIdeal.Facts
open Idealize.ShloMosaic.ValueIdx Idealize.ShloMosaic.StableHlo
open Idealize.ShloMosaic.Pipeline (Dat Cfg Window)

/-- An argument array of the launch memory. -/
abbrev A (m : (ℓ : Loc nD τ sig) → Buf (Elt Ideal) ℓ) (c : Dev nD) (k : Ref sig .tc) : Buf (Elt Ideal) ((c : Thread nD τ).loc k) :=
  m ((c : Thread nD τ).loc k)

variable (m : (ℓ : Loc nD τ sig) → Buf (Elt Ideal) ℓ) (ρ : Dev nD → PrngReg) (c : Dev nD)

/-! ## Region 0 -/

theorem W1_v0_0 : W1 m ρ c (Proc.devRef .tc main_v0_0) = AhT (A m c main_arg0) (A m c main_arg4) (A m c main_arg5) :=
  (W1_arr m ρ c 9).trans (Region0.final9 (V0 m ρ) c)
theorem W1_v0_1 : W1 m ρ c (Proc.devRef .tc main_v0_1) = BhT (A m c main_arg0) (A m c main_arg6) (A m c main_arg7) :=
  (W1_arr m ρ c 10).trans (Region0.final10 (V0 m ρ) c)
theorem W1_v0_2 : W1 m ρ c (Proc.devRef .tc main_v0_2) = DhT (A m c main_arg0) (A m c main_arg10) (A m c main_arg11) :=
  (W1_arr m ρ c 11).trans (Region0.final11 (V0 m ρ) c)
theorem W1_v0_3 : W1 m ρ c (Proc.devRef .tc main_v0_3) = EhT (A m c main_arg0) (A m c main_arg12) (A m c main_arg13) :=
  (W1_arr m ρ c 12).trans (Region0.final12 (V0 m ρ) c)

/-! ## Stretch 1: the three gathers -/

theorem W1_arg2 : W1 m ρ c (Proc.devRef .tc main_arg2) = m ((c : Thread nD τ).loc main_arg2) :=
  calc W1 m ρ c (Proc.devRef .tc main_arg2)
    _ = W0 m ρ c (Proc.devRef .tc main_arg2) := W1_of_ne m ρ c main_arg2 (by decide)
    _ = m ((c : Thread nD τ).loc main_arg2) := rfl

theorem W1_arg3 : W1 m ρ c (Proc.devRef .tc main_arg3) = m ((c : Thread nD τ).loc main_arg3) :=
  calc W1 m ρ c (Proc.devRef .tc main_arg3)
    _ = W0 m ρ c (Proc.devRef .tc main_arg3) := W1_of_ne m ρ c main_arg3 (by decide)
    _ = m ((c : Thread nD τ).loc main_arg3) := rfl

set_option maxHeartbeats 4000000 in
theorem W2_v7 : W2 m ρ c (Proc.devRef .tc main_v7) = gD (A m c main_arg0) (A m c main_arg2) (A m c main_arg10) (A m c main_arg11) := by
  show StableHlo.after hostOps1 (W1 m ρ c) (Proc.devRef .tc main_v7) = _
  after_results
  rw [W1_v0_2, W1_arg2]
  rfl
set_option maxHeartbeats 4000000 in
theorem W2_v14 : W2 m ρ c (Proc.devRef .tc main_v14) = gE (A m c main_arg0) (A m c main_arg3) (A m c main_arg12) (A m c main_arg13) := by
  show StableHlo.after hostOps1 (W1 m ρ c) (Proc.devRef .tc main_v14) = _
  after_results
  rw [W1_v0_3, W1_arg3]
  rfl
set_option maxHeartbeats 4000000 in
theorem W2_v21 : W2 m ρ c (Proc.devRef .tc main_v21) = gB (A m c main_arg0) (A m c main_arg2) (A m c main_arg6) (A m c main_arg7) := by
  show StableHlo.after hostOps1 (W1 m ρ c) (Proc.devRef .tc main_v21) = _
  after_results
  rw [W1_v0_1, W1_arg2]
  rfl
theorem W2_arg1 : W2 m ρ c (Proc.devRef .tc main_arg1) = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl

theorem W2_arg8 : W2 m ρ c (Proc.devRef .tc main_arg8) = m ((c : Thread nD τ).loc main_arg8) :=
  calc W2 m ρ c (Proc.devRef .tc main_arg8)
    _ = W1 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := W1_of_ne m ρ c main_arg8 (by decide)
    _ = m ((c : Thread nD τ).loc main_arg8) := rfl

theorem W2_arg9 : W2 m ρ c (Proc.devRef .tc main_arg9) = m ((c : Thread nD τ).loc main_arg9) :=
  calc W2 m ρ c (Proc.devRef .tc main_arg9)
    _ = W1 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := W1_of_ne m ρ c main_arg9 (by decide)
    _ = m ((c : Thread nD τ).loc main_arg9) := rfl

/-! ## Region 1 -/

theorem W3_v22_0 : W3 m ρ c (Proc.devRef .tc main_v22_0) = eij (A m c main_arg0) (A m c main_arg1) (A m c main_arg2) (A m c main_arg3) (A m c main_arg8) (A m c main_arg9) (A m c main_arg10) (A m c main_arg11) (A m c main_arg12) (A m c main_arg13) := by
  refine (W3_arr m ρ c 6).trans ((Region1.final6 (V2 m ρ) c).trans ?_)
  show Region1.G6 (W2 m ρ c (Proc.devRef .tc main_arg1)) (W2 m ρ c (Proc.devRef .tc main_arg8)) (W2 m ρ c (Proc.devRef .tc main_arg9))
    (W2 m ρ c (Proc.devRef .tc main_v7)) (W2 m ρ c (Proc.devRef .tc main_v14)) = _
  rw [W2_arg1, W2_arg8, W2_arg9, W2_v7, W2_v14]; rfl
theorem W3_v22_1 : W3 m ρ c (Proc.devRef .tc main_v22_1) = gate (A m c main_arg0) (A m c main_arg1) (A m c main_arg2) (A m c main_arg3) (A m c main_arg8) (A m c main_arg9) (A m c main_arg10) (A m c main_arg11) (A m c main_arg12) (A m c main_arg13) := by
  refine (W3_arr m ρ c 7).trans ((Region1.final7 (V2 m ρ) c).trans ?_)
  show Region1.G7 (W2 m ρ c (Proc.devRef .tc main_arg1)) (W2 m ρ c (Proc.devRef .tc main_arg8)) (W2 m ρ c (Proc.devRef .tc main_arg9))
    (W2 m ρ c (Proc.devRef .tc main_v7)) (W2 m ρ c (Proc.devRef .tc main_v14)) = _
  rw [W2_arg1, W2_arg8, W2_arg9, W2_v7, W2_v14]; rfl
theorem W3_v22_2 : W3 m ρ c (Proc.devRef .tc main_v22_2) = msg (A m c main_arg0) (A m c main_arg1) (A m c main_arg2) (A m c main_arg3) (A m c main_arg6) (A m c main_arg7) (A m c main_arg8) (A m c main_arg9) (A m c main_arg10) (A m c main_arg11) (A m c main_arg12) (A m c main_arg13) := by
  refine (W3_arr m ρ c 8).trans ((Region1.final8 (V2 m ρ) c).trans ?_)
  show Region1.G8 (W2 m ρ c (Proc.devRef .tc main_arg1)) (W2 m ρ c (Proc.devRef .tc main_arg8)) (W2 m ρ c (Proc.devRef .tc main_arg9))
    (W2 m ρ c (Proc.devRef .tc main_v7)) (W2 m ρ c (Proc.devRef .tc main_v14)) (W2 m ρ c (Proc.devRef .tc main_v21)) = _
  rw [W2_arg1, W2_arg8, W2_arg9, W2_v7, W2_v14, W2_v21]; rfl
theorem W3_v22_3 : W3 m ρ c (Proc.devRef .tc main_v22_3) = Region1.G9 (eij (A m c main_arg0) (A m c main_arg1) (A m c main_arg2) (A m c main_arg3) (A m c main_arg8) (A m c main_arg9) (A m c main_arg10) (A m c main_arg11) (A m c main_arg12) (A m c main_arg13)) := by
  refine (W3_arr m ρ c 9).trans ((Region1.final9 (V2 m ρ) c).trans ?_)
  show Region1.G9 (Region1.G6 (W2 m ρ c (Proc.devRef .tc main_arg1)) (W2 m ρ c (Proc.devRef .tc main_arg8)) (W2 m ρ c (Proc.devRef .tc main_arg9))
    (W2 m ρ c (Proc.devRef .tc main_v7)) (W2 m ρ c (Proc.devRef .tc main_v14))) = _
  rw [W2_arg1, W2_arg8, W2_arg9, W2_v7, W2_v14]; rfl
theorem W3_v22_4 : W3 m ρ c (Proc.devRef .tc main_v22_4) = Region1.G10 (eij (A m c main_arg0) (A m c main_arg1) (A m c main_arg2) (A m c main_arg3) (A m c main_arg8) (A m c main_arg9) (A m c main_arg10) (A m c main_arg11) (A m c main_arg12) (A m c main_arg13)) := by
  refine (W3_arr m ρ c 10).trans ((Region1.final10 (V2 m ρ) c).trans ?_)
  show Region1.G10 (Region1.G6 (W2 m ρ c (Proc.devRef .tc main_arg1)) (W2 m ρ c (Proc.devRef .tc main_arg8)) (W2 m ρ c (Proc.devRef .tc main_arg9))
    (W2 m ρ c (Proc.devRef .tc main_v7)) (W2 m ρ c (Proc.devRef .tc main_v14))) = _
  rw [W2_arg1, W2_arg8, W2_arg9, W2_v7, W2_v14]; rfl

/-! ## Stretch 2: the two scatter-adds -/

theorem W3_arg3 : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := W1_of_ne m ρ c main_arg3 (by decide)
    _ = m ((c : Thread nD τ).loc main_arg3) := rfl

set_option maxHeartbeats 4000000 in
theorem W4_v25 : W4 m ρ c (Proc.devRef .tc main_v25) = num (A m c main_arg0) (A m c main_arg1) (A m c main_arg2) (A m c main_arg3) (A m c main_arg6) (A m c main_arg7) (A m c main_arg8) (A m c main_arg9) (A m c main_arg10) (A m c main_arg11) (A m c main_arg12) (A m c main_arg13) := by
  show StableHlo.after hostOps2 (W3 m ρ c) (Proc.devRef .tc main_v25) = _
  after_results
  rw [W3_v22_2, W3_arg3]
  rfl
set_option maxHeartbeats 4000000 in
theorem W4_v28 : W4 m ρ c (Proc.devRef .tc main_v28) = den (A m c main_arg0) (A m c main_arg1) (A m c main_arg2) (A m c main_arg3) (A m c main_arg8) (A m c main_arg9) (A m c main_arg10) (A m c main_arg11) (A m c main_arg12) (A m c main_arg13) := by
  show StableHlo.after hostOps2 (W3 m ρ c) (Proc.devRef .tc main_v28) = _
  after_results
  rw [W3_v22_1, W3_arg3]
  rfl
theorem W4_v0_0 : W4 m ρ c (Proc.devRef .tc main_v0_0) = W1 m ρ c (Proc.devRef .tc main_v0_0) :=
  calc W4 m ρ c (Proc.devRef .tc main_v0_0)
    _ = W3 m ρ c (Proc.devRef .tc main_v0_0) := StableHlo.after_of_forall_not_mem (b := Proc.devRef .tc main_v0_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v0_0) := W3_of_ne m ρ c main_v0_0 (by decide)
    _ = W1 m ρ c (Proc.devRef .tc main_v0_0) := StableHlo.after_of_forall_not_mem (b := Proc.devRef .tc main_v0_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W4_arg0 : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-! ## Region 2 -/

theorem W5_v29_0 : W5 m ρ c (Proc.devRef .tc main_v29_0) = hagg (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) := by
  refine (W5_arr m ρ c 4).trans ((Region2.final4 (V4 m ρ) c).trans ?_)
  show Region2.G4 (W4 m ρ c (Proc.devRef .tc main_v0_0)) (W4 m ρ c (Proc.devRef .tc main_v25)) (W4 m ρ c (Proc.devRef .tc main_v28))
    (W4 m ρ c (Proc.devRef .tc main_arg0)) = _
  rw [W4_v0_0, W1_v0_0, W4_v25, W4_v28, W4_arg0]; rfl
theorem W5_v29_1 : W5 m ρ c (Proc.devRef .tc main_v29_1) = Region2.G5 (hagg (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13)) := by
  refine (W5_arr m ρ c 5).trans ((Region2.final5 (V4 m ρ) c).trans ?_)
  show Region2.G5 (Region2.G4 (W4 m ρ c (Proc.devRef .tc main_v0_0)) (W4 m ρ c (Proc.devRef .tc main_v25)) (W4 m ρ c (Proc.devRef .tc main_v28))
    (W4 m ρ c (Proc.devRef .tc main_arg0))) = _
  rw [W4_v0_0, W1_v0_0, W4_v25, W4_v28, W4_arg0]; rfl
theorem W5_v29_2 : W5 m ρ c (Proc.devRef .tc main_v29_2) = Region2.G6 (hagg (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13)) := by
  refine (W5_arr m ρ c 6).trans ((Region2.final6 (V4 m ρ) c).trans ?_)
  show Region2.G6 (Region2.G4 (W4 m ρ c (Proc.devRef .tc main_v0_0)) (W4 m ρ c (Proc.devRef .tc main_v25)) (W4 m ρ c (Proc.devRef .tc main_v28))
    (W4 m ρ c (Proc.devRef .tc main_arg0))) = _
  rw [W4_v0_0, W1_v0_0, W4_v25, W4_v28, W4_arg0]; rfl

/-! ## Stretch 3: the means and the clamped variances -/

theorem W5_v22_3 : W5 m ρ c (Proc.devRef .tc main_v22_3) = W3 m ρ c (Proc.devRef .tc main_v22_3) :=
  calc W5 m ρ c (Proc.devRef .tc main_v22_3)
    _ = W4 m ρ c (Proc.devRef .tc main_v22_3) := W5_of_ne m ρ c main_v22_3 (by decide)
    _ = W3 m ρ c (Proc.devRef .tc main_v22_3) := StableHlo.after_of_forall_not_mem (b := Proc.devRef .tc main_v22_3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W5_v22_4 : W5 m ρ c (Proc.devRef .tc main_v22_4) = W3 m ρ c (Proc.devRef .tc main_v22_4) :=
  calc W5 m ρ c (Proc.devRef .tc main_v22_4)
    _ = W4 m ρ c (Proc.devRef .tc main_v22_4) := W5_of_ne m ρ c main_v22_4 (by decide)
    _ = W3 m ρ c (Proc.devRef .tc main_v22_4) := StableHlo.after_of_forall_not_mem (b := Proc.devRef .tc main_v22_4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 16000000 in
theorem W6_v39 : W6 m ρ c (Proc.devRef .tc main_v39) = meanE (A m c main_arg0) (A m c main_arg1) (A m c main_arg2) (A m c main_arg3) (A m c main_arg8) (A m c main_arg9) (A m c main_arg10) (A m c main_arg11) (A m c main_arg12) (A m c main_arg13) := by
  show StableHlo.after hostOps3 (W5 m ρ c) (Proc.devRef .tc main_v39) = _
  after_results
  rw [W5_v22_3, W3_v22_3]
  rfl
set_option maxHeartbeats 16000000 in
theorem W6_v45 : W6 m ρ c (Proc.devRef .tc main_v45) = varE (A m c main_arg0) (A m c main_arg1) (A m c main_arg2) (A m c main_arg3) (A m c main_arg8) (A m c main_arg9) (A m c main_arg10) (A m c main_arg11) (A m c main_arg12) (A m c main_arg13) := by
  show StableHlo.after hostOps3 (W5 m ρ c) (Proc.devRef .tc main_v45) = _
  after_results
  rw [W5_v22_3, W3_v22_3, W5_v22_4, W3_v22_4]
  rfl
set_option maxHeartbeats 16000000 in
theorem W6_v47 : W6 m ρ c (Proc.devRef .tc main_v47) = meanH (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) := by
  show StableHlo.after hostOps3 (W5 m ρ c) (Proc.devRef .tc main_v47) = _
  after_results
  rw [W5_v29_1]
  rfl
set_option maxHeartbeats 16000000 in
theorem W6_v53 : W6 m ρ c (Proc.devRef .tc main_v53) = varH (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) := by
  show StableHlo.after hostOps3 (W5 m ρ c) (Proc.devRef .tc main_v53) = _
  after_results
  rw [W5_v29_1, W5_v29_2]
  rfl
theorem W6_v22_0 : W6 m ρ c (Proc.devRef .tc main_v22_0) = W3 m ρ c (Proc.devRef .tc main_v22_0) :=
  calc W6 m ρ c (Proc.devRef .tc main_v22_0)
    _ = W5 m ρ c (Proc.devRef .tc main_v22_0) := StableHlo.after_of_forall_not_mem (b := Proc.devRef .tc main_v22_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v22_0) := W5_of_ne m ρ c main_v22_0 (by decide)
    _ = W3 m ρ c (Proc.devRef .tc main_v22_0) := StableHlo.after_of_forall_not_mem (b := Proc.devRef .tc main_v22_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W6_arg1 : W6 m ρ c (Proc.devRef .tc main_arg1) = m ((c : Thread nD τ).loc main_arg1) :=
  calc W6 m ρ c (Proc.devRef .tc main_arg1)
    _ = W5 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg1) := W5_of_ne m ρ c main_arg1 (by decide)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl

theorem W6_arg16 : W6 m ρ c (Proc.devRef .tc main_arg16) = m ((c : Thread nD τ).loc main_arg16) :=
  calc W6 m ρ c (Proc.devRef .tc main_arg16)
    _ = W5 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg16) := W5_of_ne m ρ c main_arg16 (by decide)
    _ = W3 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg16) := W3_of_ne m ρ c main_arg16 (by decide)
    _ = W1 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg16) := W1_of_ne m ρ c main_arg16 (by decide)
    _ = m ((c : Thread nD τ).loc main_arg16) := rfl

theorem W6_arg17 : W6 m ρ c (Proc.devRef .tc main_arg17) = m ((c : Thread nD τ).loc main_arg17) :=
  calc W6 m ρ c (Proc.devRef .tc main_arg17)
    _ = W5 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg17) := W5_of_ne m ρ c main_arg17 (by decide)
    _ = W3 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg17) := W3_of_ne m ρ c main_arg17 (by decide)
    _ = W1 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg17) := W1_of_ne m ρ c main_arg17 (by decide)
    _ = m ((c : Thread nD τ).loc main_arg17) := rfl

/-! ## Regions 3 and 4 -/

theorem W7_v54 : W7 m ρ c (Proc.devRef .tc main_v54) = eOut (A m c main_arg0) (A m c main_arg1) (A m c main_arg2) (A m c main_arg3) (A m c main_arg8) (A m c main_arg9) (A m c main_arg10) (A m c main_arg11) (A m c main_arg12) (A m c main_arg13) (A m c main_arg16) (A m c main_arg17) := by
  refine (W7_arr m ρ c 6).trans ((Region3.final (V6 m ρ) c).trans ?_)
  show Region3.G (W6 m ρ c (Proc.devRef .tc main_v22_0)) (W6 m ρ c (Proc.devRef .tc main_arg1)) (W6 m ρ c (Proc.devRef .tc main_arg16))
    (W6 m ρ c (Proc.devRef .tc main_arg17)) (W6 m ρ c (Proc.devRef .tc main_v39)) (W6 m ρ c (Proc.devRef .tc main_v45)) = _
  rw [W6_v22_0, W3_v22_0, W6_arg1, W6_arg16, W6_arg17, W6_v39, W6_v45]; rfl
theorem W7_v29_0 : W7 m ρ c (Proc.devRef .tc main_v29_0) = W5 m ρ c (Proc.devRef .tc main_v29_0) :=
  calc W7 m ρ c (Proc.devRef .tc main_v29_0)
    _ = W6 m ρ c (Proc.devRef .tc main_v29_0) := W7_of_ne m ρ c main_v29_0 (by decide)
    _ = W5 m ρ c (Proc.devRef .tc main_v29_0) := StableHlo.after_of_forall_not_mem (b := Proc.devRef .tc main_v29_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W7_arg0 : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := (W5_arr m ρ c 3).trans (((dat2 (V4 m ρ) c).arrAt_in 3 rfl _).trans (A_eq2 (V4 m ρ) c 3))
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W7_arg14 : W7 m ρ c (Proc.devRef .tc main_arg14) = m ((c : Thread nD τ).loc main_arg14) :=
  calc W7 m ρ c (Proc.devRef .tc main_arg14)
    _ = W6 m ρ c (Proc.devRef .tc main_arg14) := W7_of_ne m ρ c main_arg14 (by decide)
    _ = W5 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg14) := W5_of_ne m ρ c main_arg14 (by decide)
    _ = W3 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg14) := W3_of_ne m ρ c main_arg14 (by decide)
    _ = W1 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg14) := W1_of_ne m ρ c main_arg14 (by decide)
    _ = m ((c : Thread nD τ).loc main_arg14) := rfl

theorem W7_arg15 : W7 m ρ c (Proc.devRef .tc main_arg15) = m ((c : Thread nD τ).loc main_arg15) :=
  calc W7 m ρ c (Proc.devRef .tc main_arg15)
    _ = W6 m ρ c (Proc.devRef .tc main_arg15) := W7_of_ne m ρ c main_arg15 (by decide)
    _ = W5 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg15) := W5_of_ne m ρ c main_arg15 (by decide)
    _ = W3 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg15) := W3_of_ne m ρ c main_arg15 (by decide)
    _ = W1 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg15) := W1_of_ne m ρ c main_arg15 (by decide)
    _ = m ((c : Thread nD τ).loc main_arg15) := rfl

theorem W7_v47 : W7 m ρ c (Proc.devRef .tc main_v47) = W6 m ρ c (Proc.devRef .tc main_v47) :=
  calc W7 m ρ c (Proc.devRef .tc main_v47)
    _ = W6 m ρ c (Proc.devRef .tc main_v47) := W7_of_ne m ρ c main_v47 (by decide)

theorem W7_v53 : W7 m ρ c (Proc.devRef .tc main_v53) = W6 m ρ c (Proc.devRef .tc main_v53) :=
  calc W7 m ρ c (Proc.devRef .tc main_v53)
    _ = W6 m ρ c (Proc.devRef .tc main_v53) := W7_of_ne m ρ c main_v53 (by decide)

theorem W8_v55 : W8 m ρ c (Proc.devRef .tc main_v55) = hOut (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) := by
  refine (W8_arr m ρ c 6).trans ((Region4.final (V7 m ρ) c).trans ?_)
  show Region4.G (W7 m ρ c (Proc.devRef .tc main_v29_0)) (W7 m ρ c (Proc.devRef .tc main_arg0)) (W7 m ρ c (Proc.devRef .tc main_arg14))
    (W7 m ρ c (Proc.devRef .tc main_arg15)) (W7 m ρ c (Proc.devRef .tc main_v47)) (W7 m ρ c (Proc.devRef .tc main_v53)) = _
  rw [W7_v29_0, W5_v29_0, W7_arg0, W7_arg14, W7_arg15, W7_v47, W6_v47, W7_v53, W6_v53]; rfl
theorem W8_v54 : W8 m ρ c (Proc.devRef .tc main_v54) = eOut (A m c main_arg0) (A m c main_arg1) (A m c main_arg2) (A m c main_arg3) (A m c main_arg8) (A m c main_arg9) (A m c main_arg10) (A m c main_arg11) (A m c main_arg12) (A m c main_arg13) (A m c main_arg16) (A m c main_arg17) :=
  (W8_of_ne m ρ c main_v54 (by decide)).trans (W7_v54 m ρ c)

end Cert.KernelIdeal.Chain

end
-- ==== Proof.RefStages.lean ====
/-
  The reference's run and its read-at-an-index lemmas, brought in together for the modules that compare the two programs.
-/
import proofs.«139856_j11905649344612_2_alg».proof.Proof.RefRunP
import proofs.«139856_j11905649344612_2_alg».proof.Proof.RefReadP
-- ==== Proof.LibExtReal.lean ====
/- Extended-real facts behind a comparison of two batch-normalisation programs.

   At the ideal instance a float is an extended real. This module proves, for extended reals that
   are in fact real numbers (IsReal):
   * closure of "is a real number" under the arithmetic operations, finite sums and division by a
     nonzero value;
   * that the logistic function of a real is a positive real;
   * that a finite sum of positive reals is positive exactly on a nonempty index set, and that a sum
     of ones is the cardinality;
   * that a sum over B blocks of R consecutive indices is the sum over all B * R indices;
   * THE VARIANCE IDENTITY: the mean of the squared deviations from the mean equals the mean of the
     squares minus the squared mean, clamped below at 0 (over the reals the clamp is vacuous because
     the left side is a mean of squares);
   * the real values of a few 32-bit float words. -/
import Idealize.ShloMosaic.PureOps.Ideal
import Idealize.ShloMosaic.PureOps.Ideal.Laws

noncomputable section

namespace ExtRealStats

open Idealize.ShloMosaic
open scoped BigOperators

/-! ### Real values among the extended reals -/

/-- An extended real that is a real number (neither infinity). -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A real extended real is the coercion of its real part. -/
theorem IsReal.eq_coe_toReal {x : EReal} (hx : IsReal x) : x = ((x.toReal : ℝ) : EReal) := by
  obtain ⟨a, rfl⟩ := hx
  rw [EReal.toReal_coe]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real extended reals is the coercion of the sum of their real parts. -/
theorem sum_eq_coe_of_isReal {ι : Type*} (s : Finset ι) (f : ι → EReal) (h : ∀ i ∈ s, IsReal (f i)) :
    ∑ i ∈ s, f i = ((∑ i ∈ s, (f i).toReal : ℝ) : EReal) := by
  rw [coe_sum]
  exact Finset.sum_congr rfl (fun i hi => (h i hi).eq_coe_toReal)

theorem isReal_sum {ι : Type*} (s : Finset ι) (f : ι → EReal) (h : ∀ i ∈ s, IsReal (f i)) :
    IsReal (∑ i ∈ s, f i) :=
  ⟨_, sum_eq_coe_of_isReal s f h⟩

theorem isReal_sum_univ {ι : Type*} [Fintype ι] (f : ι → EReal) (h : ∀ i, IsReal (f i)) :
    IsReal (∑ i, f i) :=
  isReal_sum Finset.univ f (fun i _ => h i)

/-- The sum with a leading zero (an accumulation started from 0). -/
theorem isReal_zero_add_sum {ι : Type*} (s : Finset ι) (f : ι → EReal) (h : ∀ i ∈ s, IsReal (f i)) :
    IsReal (0 + ∑ i ∈ s, f i) := by
  rw [zero_add]; exact isReal_sum s f h

theorem coe_ne_zero {r : ℝ} (h : r ≠ 0) : (r : EReal) ≠ 0 := by
  exact_mod_cast h

/-- Division of reals by a nonzero real, in the extended reals, is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

theorem IsReal.div {x y : EReal} (hx : IsReal x) (hy : IsReal y) (h0 : y ≠ 0) :
    IsReal (Ideal.div x y) := by
  obtain ⟨a, rfl⟩ := hx; obtain ⟨b, rfl⟩ := hy
  have hb : b ≠ 0 := by
    intro h; apply h0; rw [h]; exact EReal.coe_zero
  exact ⟨a / b, div_coe_coe a hb⟩

/-! ### The logistic function of a real is a positive real -/

theorem logistic_pos_real {x : EReal} (hx : IsReal x) :
    ∃ r : ℝ, 0 < r ∧ Ideal.logistic x = (r : EReal) := by
  obtain ⟨a, rfl⟩ := hx
  exact ⟨(1 + Real.exp (-a))⁻¹, by positivity, Ideal.logistic_coe a⟩

/-- The logistic function spelled out. -/
theorem div_one_add_exp_neg (x : EReal) : Ideal.div 1 (1 + Ideal.exp (-x)) = Ideal.logistic x := rfl

theorem div_one_add_exp_neg_pos_real {x : EReal} (hx : IsReal x) :
    ∃ r : ℝ, 0 < r ∧ Ideal.div 1 (1 + Ideal.exp (-x)) = (r : EReal) :=
  logistic_pos_real hx

theorem logistic_isReal {x : EReal} (hx : IsReal x) : IsReal (Ideal.logistic x) := by
  obtain ⟨r, _, e⟩ := logistic_pos_real hx
  exact ⟨r, e⟩

/-! ### Sums of positive reals -/

/-- A finite sum of positive reals: every real part is positive and the sum is the coercion of the
    sum of the real parts. -/
theorem sum_eq_coe_of_pos {ι : Type*} (s : Finset ι) (f : ι → EReal)
    (h : ∀ i ∈ s, ∃ r : ℝ, 0 < r ∧ f i = (r : EReal)) :
    (∀ i ∈ s, 0 < (f i).toReal) ∧ ∑ i ∈ s, f i = ((∑ i ∈ s, (f i).toReal : ℝ) : EReal) := by
  refine ⟨fun i hi => ?_, sum_eq_coe_of_isReal s f (fun i hi => ?_)⟩
  · obtain ⟨r, hr, e⟩ := h i hi
    rw [e, EReal.toReal_coe]; exact hr
  · obtain ⟨r, _, e⟩ := h i hi
    exact ⟨r, e⟩

theorem isReal_sum_of_pos {ι : Type*} (s : Finset ι) (f : ι → EReal)
    (h : ∀ i ∈ s, ∃ r : ℝ, 0 < r ∧ f i = (r : EReal)) : IsReal (∑ i ∈ s, f i) :=
  ⟨_, (sum_eq_coe_of_pos s f h).2⟩

theorem sum_pos_iff {ι : Type*} (s : Finset ι) (f : ι → EReal)
    (h : ∀ i ∈ s, ∃ r : ℝ, 0 < r ∧ f i = (r : EReal)) :
    (0 < ∑ i ∈ s, f i) ↔ s.Nonempty := by
  obtain ⟨hp, e⟩ := sum_eq_coe_of_pos s f h
  constructor
  · intro hlt
    by_contra hne
    rw [Finset.not_nonempty_iff_eq_empty] at hne
    rw [hne, Finset.sum_empty] at hlt
    exact lt_irrefl _ hlt
  · intro hne
    rw [e]
    exact EReal.coe_pos.mpr (Finset.sum_pos hp hne)

theorem sum_eq_zero_iff {ι : Type*} (s : Finset ι) (f : ι → EReal)
    (h : ∀ i ∈ s, ∃ r : ℝ, 0 < r ∧ f i = (r : EReal)) :
    (∑ i ∈ s, f i = 0) ↔ s = ∅ := by
  constructor
  · intro h0
    by_contra hne
    have := (sum_pos_iff s f h).mpr (Finset.nonempty_iff_ne_empty.mpr hne)
    rw [h0] at this
    exact lt_irrefl _ this
  · intro he
    rw [he, Finset.sum_empty]

theorem zero_add_sum_pos_iff {ι : Type*} (s : Finset ι) (f : ι → EReal)
    (h : ∀ i ∈ s, ∃ r : ℝ, 0 < r ∧ f i = (r : EReal)) :
    (0 < 0 + ∑ i ∈ s, f i) ↔ s.Nonempty := by
  rw [zero_add]; exact sum_pos_iff s f h

theorem zero_add_sum_eq_zero_iff {ι : Type*} (s : Finset ι) (f : ι → EReal)
    (h : ∀ i ∈ s, ∃ r : ℝ, 0 < r ∧ f i = (r : EReal)) :
    (0 + ∑ i ∈ s, f i = 0) ↔ s = ∅ := by
  rw [zero_add]; exact sum_eq_zero_iff s f h

theorem isReal_zero_add_sum_of_pos {ι : Type*} (s : Finset ι) (f : ι → EReal)
    (h : ∀ i ∈ s, ∃ r : ℝ, 0 < r ∧ f i = (r : EReal)) : IsReal (0 + ∑ i ∈ s, f i) := by
  rw [zero_add]; exact isReal_sum_of_pos s f h

/-- A sum of ones is the number of terms. -/
theorem sum_ones {ι : Type*} (s : Finset ι) : ∑ _i ∈ s, (1 : EReal) = ((s.card : ℝ) : EReal) := by
  have e : ∑ _i ∈ s, (1 : EReal) = ∑ _i ∈ s, ((1 : ℝ) : EReal) :=
    Finset.sum_congr rfl (fun _ _ => EReal.coe_one.symm)
  rw [e, ← coe_sum, Finset.sum_const, nsmul_eq_mul, mul_one]

theorem zero_add_sum_ones {ι : Type*} (s : Finset ι) :
    0 + ∑ _i ∈ s, (1 : EReal) = ((s.card : ℝ) : EReal) := by
  rw [zero_add, sum_ones]

theorem sum_ones_pos_iff {ι : Type*} (s : Finset ι) : (0 < ∑ _i ∈ s, (1 : EReal)) ↔ s.Nonempty := by
  rw [sum_ones, EReal.coe_pos, Nat.cast_pos, Finset.card_pos]

theorem zero_add_sum_ones_pos_iff {ι : Type*} (s : Finset ι) :
    (0 < 0 + ∑ _i ∈ s, (1 : EReal)) ↔ s.Nonempty := by
  rw [zero_add]; exact sum_ones_pos_iff s

theorem sum_ones_eq_zero_iff {ι : Type*} (s : Finset ι) : (∑ _i ∈ s, (1 : EReal) = 0) ↔ s = ∅ := by
  rw [sum_ones, ← EReal.coe_zero, EReal.coe_eq_coe_iff, Nat.cast_eq_zero, Finset.card_eq_zero]

theorem zero_add_sum_ones_eq_zero_iff {ι : Type*} (s : Finset ι) :
    (0 + ∑ _i ∈ s, (1 : EReal) = 0) ↔ s = ∅ := by
  rw [zero_add]; exact sum_ones_eq_zero_iff s

theorem sum_ones_isReal {ι : Type*} (s : Finset ι) : IsReal (∑ _i ∈ s, (1 : EReal)) :=
  ⟨_, sum_ones s⟩

/-! ### The variance identity -/

/-- Over the reals: with mean μ over n = |s| terms, the mean of the squared deviations is the mean
    of the squares minus the squared mean. -/
theorem real_variance {ι : Type*} (s : Finset ι) (a : ι → ℝ) (n μ : ℝ) (hn : n ≠ 0)
    (hcard : (s.card : ℝ) = n) (hμ : μ = (∑ j ∈ s, a j) / n) :
    (∑ i ∈ s, (a i - μ) * (a i - μ)) / n = (∑ i ∈ s, a i * a i) / n - μ * μ := by
  have hS : ∑ j ∈ s, a j = μ * n := by rw [hμ]; field_simp
  have e : ∑ i ∈ s, (a i - μ) * (a i - μ)
      = (∑ i ∈ s, a i * a i) - 2 * μ * (∑ i ∈ s, a i) + n * (μ * μ) := by
    have h1 : ∀ i, (a i - μ) * (a i - μ) = a i * a i - 2 * μ * a i + μ * μ := fun i => by ring
    simp only [h1, Finset.sum_add_distrib, Finset.sum_sub_distrib, ← Finset.mul_sum,
      Finset.sum_const, nsmul_eq_mul, hcard]
    ring
  rw [e, hS]; field_simp; ring

theorem real_variance_nonneg {ι : Type*} (s : Finset ι) (a : ι → ℝ) (n μ : ℝ)
    (hn : 0 ≤ n) : 0 ≤ (∑ i ∈ s, (a i - μ) * (a i - μ)) / n :=
  div_nonneg (Finset.sum_nonneg (fun i _ => mul_self_nonneg _)) hn

/-- THE VARIANCE IDENTITY over a finite index set s of n = |s| real values x i with mean m: the mean
    of the squared deviations from m is the mean of the squares minus m², clamped below at 0. -/
theorem variance_identity {ι : Type*} (s : Finset ι) (x : ι → EReal) (hx : ∀ i ∈ s, IsReal (x i))
    (n : ℝ) (hn : n ≠ 0) (hcard : (s.card : ℝ) = n) (m : EReal)
    (hm : m = Ideal.div (∑ i ∈ s, x i) (n : EReal)) :
    Ideal.div (∑ i ∈ s, (x i - m) * (x i - m)) (n : EReal)
      = max (Ideal.div (∑ i ∈ s, x i * x i) (n : EReal) - m * m) 0 := by
  obtain ⟨a, hxa⟩ : ∃ a : ι → ℝ, ∀ i ∈ s, x i = (a i : EReal) :=
    ⟨fun i => (x i).toReal, fun i hi => (hx i hi).eq_coe_toReal⟩
  have hsum : ∑ i ∈ s, x i = ((∑ i ∈ s, a i : ℝ) : EReal) := by
    rw [coe_sum]; exact Finset.sum_congr rfl hxa
  obtain ⟨μ, hμ⟩ : ∃ μ : ℝ, μ = (∑ i ∈ s, a i) / n := ⟨_, rfl⟩
  have hmμ : m = (μ : EReal) := by rw [hm, hsum, div_coe_coe _ hn, hμ]
  have hdev : ∑ i ∈ s, (x i - m) * (x i - m)
      = ((∑ i ∈ s, (a i - μ) * (a i - μ) : ℝ) : EReal) := by
    rw [coe_sum]
    refine Finset.sum_congr rfl (fun i hi => ?_)
    rw [hxa i hi, hmμ, ← EReal.coe_sub, ← EReal.coe_mul]
  have hsq : ∑ i ∈ s, x i * x i = ((∑ i ∈ s, a i * a i : ℝ) : EReal) := by
    rw [coe_sum]
    refine Finset.sum_congr rfl (fun i hi => ?_)
    rw [hxa i hi, ← EReal.coe_mul]
  have hn0 : 0 ≤ n := by rw [← hcard]; exact Nat.cast_nonneg _
  rw [hdev, hsq, hmμ, div_coe_coe _ hn, div_coe_coe _ hn, ← EReal.coe_mul, ← EReal.coe_sub,
    ← real_variance s a n μ hn hcard hμ]
  exact (max_eq_left (EReal.coe_nonneg.mpr (real_variance_nonneg s a n μ hn0))).symm

/-- The variance identity with the mean written out. -/
theorem variance_identity' {ι : Type*} (s : Finset ι) (x : ι → EReal) (hx : ∀ i ∈ s, IsReal (x i))
    (n : ℝ) (hn : n ≠ 0) (hcard : (s.card : ℝ) = n) :
    Ideal.div (∑ i ∈ s, (x i - Ideal.div (∑ j ∈ s, x j) (n : EReal))
        * (x i - Ideal.div (∑ j ∈ s, x j) (n : EReal))) (n : EReal)
      = max (Ideal.div (∑ i ∈ s, x i * x i) (n : EReal)
          - Ideal.div (∑ j ∈ s, x j) (n : EReal) * Ideal.div (∑ j ∈ s, x j) (n : EReal)) 0 :=
  variance_identity s x hx n hn hcard _ rfl

/-- The variance identity over a whole finite type. -/
theorem variance_identity_univ {ι : Type*} [Fintype ι] (x : ι → EReal) (hx : ∀ i, IsReal (x i))
    (n : ℝ) (hn : n ≠ 0) (hcard : (Fintype.card ι : ℝ) = n) (m : EReal)
    (hm : m = Ideal.div (∑ i, x i) (n : EReal)) :
    Ideal.div (∑ i, (x i - m) * (x i - m)) (n : EReal)
      = max (Ideal.div (∑ i, x i * x i) (n : EReal) - m * m) 0 :=
  variance_identity Finset.univ x (fun i _ => hx i) n hn
    (by rw [Finset.card_univ]; exact hcard) m hm

/-- The variance identity over a whole finite type, the mean written out. -/
theorem variance_identity_univ' {ι : Type*} [Fintype ι] (x : ι → EReal) (hx : ∀ i, IsReal (x i))
    (n : ℝ) (hn : n ≠ 0) (hcard : (Fintype.card ι : ℝ) = n) :
    Ideal.div (∑ i, (x i - Ideal.div (∑ j, x j) (n : EReal))
        * (x i - Ideal.div (∑ j, x j) (n : EReal))) (n : EReal)
      = max (Ideal.div (∑ i, x i * x i) (n : EReal)
          - Ideal.div (∑ j, x j) (n : EReal) * Ideal.div (∑ j, x j) (n : EReal)) 0 :=
  variance_identity_univ x hx n hn hcard _ rfl

/-- The variance identity when every sum is an accumulation started from 0. -/
theorem variance_identity_zero_add {ι : Type*} (s : Finset ι) (x : ι → EReal)
    (hx : ∀ i ∈ s, IsReal (x i)) (n : ℝ) (hn : n ≠ 0) (hcard : (s.card : ℝ) = n) (m : EReal)
    (hm : m = Ideal.div (0 + ∑ i ∈ s, x i) (n : EReal)) :
    Ideal.div (0 + ∑ i ∈ s, (x i - m) * (x i - m)) (n : EReal)
      = max (Ideal.div (0 + ∑ i ∈ s, x i * x i) (n : EReal) - m * m) 0 := by
  rw [zero_add] at hm
  rw [zero_add, zero_add]
  exact variance_identity s x hx n hn hcard m hm

theorem variance_identity_univ_zero_add {ι : Type*} [Fintype ι] (x : ι → EReal)
    (hx : ∀ i, IsReal (x i)) (n : ℝ) (hn : n ≠ 0) (hcard : (Fintype.card ι : ℝ) = n) (m : EReal)
    (hm : m = Ideal.div (0 + ∑ i, x i) (n : EReal)) :
    Ideal.div (0 + ∑ i, (x i - m) * (x i - m)) (n : EReal)
      = max (Ideal.div (0 + ∑ i, x i * x i) (n : EReal) - m * m) 0 :=
  variance_identity_zero_add Finset.univ x (fun i _ => hx i) n hn
    (by rw [Finset.card_univ]; exact hcard) m hm

/-- The mean of finitely many reals over a nonzero real count is real. -/
theorem mean_isReal {ι : Type*} (s : Finset ι) (x : ι → EReal) (hx : ∀ i ∈ s, IsReal (x i))
    (n : ℝ) (hn : n ≠ 0) : IsReal (Ideal.div (∑ i ∈ s, x i) (n : EReal)) :=
  (isReal_sum s x hx).div (isReal_coe n) (coe_ne_zero hn)

theorem mean_isReal_zero_add {ι : Type*} (s : Finset ι) (x : ι → EReal)
    (hx : ∀ i ∈ s, IsReal (x i)) (n : ℝ) (hn : n ≠ 0) :
    IsReal (Ideal.div (0 + ∑ i ∈ s, x i) (n : EReal)) := by
  rw [zero_add]; exact mean_isReal s x hx n hn

theorem mean_isReal_univ {ι : Type*} [Fintype ι] (x : ι → EReal) (hx : ∀ i, IsReal (x i))
    (n : ℝ) (hn : n ≠ 0) : IsReal (Ideal.div (∑ i, x i) (n : EReal)) :=
  mean_isReal Finset.univ x (fun i _ => hx i) n hn

/-- The mean of squared deviations from any real centre, over a positive real count, is a
    nonnegative real. -/
theorem variance_nonneg_real {ι : Type*} (s : Finset ι) (x : ι → EReal)
    (hx : ∀ i ∈ s, IsReal (x i)) (n : ℝ) (hn : 0 < n) (m : EReal) (hm : IsReal m) :
    ∃ v : ℝ, 0 ≤ v ∧ Ideal.div (∑ i ∈ s, (x i - m) * (x i - m)) (n : EReal) = (v : EReal) := by
  obtain ⟨a, hxa⟩ : ∃ a : ι → ℝ, ∀ i ∈ s, x i = (a i : EReal) :=
    ⟨fun i => (x i).toReal, fun i hi => (hx i hi).eq_coe_toReal⟩
  obtain ⟨μ, rfl⟩ := hm
  have hdev : ∑ i ∈ s, (x i - (μ : EReal)) * (x i - (μ : EReal))
      = ((∑ i ∈ s, (a i - μ) * (a i - μ) : ℝ) : EReal) := by
    rw [coe_sum]
    refine Finset.sum_congr rfl (fun i hi => ?_)
    rw [hxa i hi, ← EReal.coe_sub, ← EReal.coe_mul]
  refine ⟨(∑ i ∈ s, (a i - μ) * (a i - μ)) / n, real_variance_nonneg s a n μ hn.le, ?_⟩
  rw [hdev, div_coe_coe _ hn.ne']

theorem variance_nonneg_real_zero_add {ι : Type*} (s : Finset ι) (x : ι → EReal)
    (hx : ∀ i ∈ s, IsReal (x i)) (n : ℝ) (hn : 0 < n) (m : EReal) (hm : IsReal m) :
    ∃ v : ℝ, 0 ≤ v ∧ Ideal.div (0 + ∑ i ∈ s, (x i - m) * (x i - m)) (n : EReal) = (v : EReal) := by
  rw [zero_add]; exact variance_nonneg_real s x hx n hn m hm

/-- A real clamped below at 0 is a nonnegative real. -/
theorem max_zero_nonneg_real {y : EReal} (hy : IsReal y) :
    ∃ v : ℝ, 0 ≤ v ∧ max y 0 = (v : EReal) := by
  obtain ⟨a, rfl⟩ := hy
  refine ⟨Max.max a 0, le_max_right _ _, ?_⟩
  rw [← EReal.coe_zero]
  exact (EReal.coe_strictMono.monotone.map_max).symm

/-- The clamped form of the variance (mean of squares minus squared mean, clamped at 0) is a
    nonnegative real. -/
theorem clamped_variance_nonneg_real {ι : Type*} (s : Finset ι) (x : ι → EReal)
    (hx : ∀ i ∈ s, IsReal (x i)) (n : ℝ) (hn : n ≠ 0) (m : EReal) (hm : IsReal m) :
    ∃ v : ℝ, 0 ≤ v ∧ max (Ideal.div (∑ i ∈ s, x i * x i) (n : EReal) - m * m) 0 = (v : EReal) :=
  max_zero_nonneg_real
    (((isReal_sum s _ (fun i hi => (hx i hi).mul (hx i hi))).div (isReal_coe n)
      (coe_ne_zero hn)).sub (hm.mul hm))

/-- A nonnegative real plus a positive real is a positive real. -/
theorem nonneg_add_pos_real {y e : EReal} (hy : ∃ v : ℝ, 0 ≤ v ∧ y = (v : EReal))
    (he : ∃ r : ℝ, 0 < r ∧ e = (r : EReal)) : ∃ r : ℝ, 0 < r ∧ y + e = (r : EReal) := by
  obtain ⟨v, hv, rfl⟩ := hy
  obtain ⟨r, hr, rfl⟩ := he
  exact ⟨v + r, add_pos_of_nonneg_of_pos hv hr, (EReal.coe_add v r).symm⟩

/-! ### Block sums -/

/-- A sum over B blocks of R consecutive indices is the sum over all B * R indices. -/
theorem sum_blocks' {M : Type*} [AddCommMonoid M] (B R : ℕ) (g : ℕ → M) :
    ∑ b : Fin B, ∑ r : Fin R, g (b.val * R + r.val) = ∑ i : Fin (B * R), g i.val := by
  rw [← Fintype.sum_prod_type' (f := fun (b : Fin B) (r : Fin R) => g (b.val * R + r.val))]
  refine Fintype.sum_equiv finProdFinEquiv _ _ (fun p => ?_)
  have e : (finProdFinEquiv p).val = p.1.val * R + p.2.val := by
    show p.2.val + R * p.1.val = p.1.val * R + p.2.val
    ring
  rw [e]

theorem sum_blocks (B R : ℕ) (g : ℕ → EReal) :
    ∑ b : Fin B, ∑ r : Fin R, g (b.val * R + r.val) = ∑ i : Fin (B * R), g i.val :=
  sum_blocks' B R g

/-! ### A few 32-bit float words as reals -/

/-- The word of 50000.0. -/
theorem ofBits_50000 : Ideal.ofBits .f32 0x47435000#32 = ((50000 : ℝ) : EReal) := by
  simp [Ideal.ofBits, Ideal.ieee, -EReal.coe_mul]; norm_num

/-- The word of 800000.0. -/
theorem ofBits_800000 : Ideal.ofBits .f32 0x49435000#32 = ((800000 : ℝ) : EReal) := by
  simp [Ideal.ofBits, Ideal.ieee, -EReal.coe_mul]; norm_num

/-- The word of 1.0. -/
theorem ofBits_one : Ideal.ofBits .f32 0x3F800000#32 = ((1 : ℝ) : EReal) := by
  simp [Ideal.ofBits, Ideal.ieee, -EReal.coe_mul]; norm_num

theorem ofBits_one' : Ideal.ofBits .f32 0x3F800000#32 = 1 := by
  rw [ofBits_one, EReal.coe_one]

/-- The word of +0.0. -/
theorem ofBits_zero : Ideal.ofBits .f32 0x00000000#32 = 0 := Ideal.ofBits_zero_f32

/-- The word 0x3727C5AC (about 1e-5) denotes a positive real. -/
theorem ofBits_eps_pos : ∃ r : ℝ, 0 < r ∧ Ideal.ofBits .f32 0x3727C5AC#32 = (r : EReal) := by
  refine ⟨((2 ^ 23 + 0x27C5AC : ℕ) : ℝ) * (2 : ℝ) ^ ((110 : ℤ) - 127 - 23), by positivity, ?_⟩
  simp [Ideal.ofBits, Ideal.ieee, -EReal.coe_mul]

end ExtRealStats

end
-- ==== Proof.RefValue.lean ====
/-
  The reference's stages, read as the same functions of the argument arrays as the kernel's arrays: each node projection
  is rows of h times a weight plus a bias along the rows; the edge projection likewise; the index columns are the argument
  vectors wrapped and laid as columns; the gathered tables, the gate's pre-activation, the gate 1 / (1 + e^{-x}) (the
  logistic function), the messages, and the two scattered sums are then literally the kernel's terms. What differs
  afterwards — the reference's test on the incoming-edge count where the kernel tests the scattered gate sum, and the
  reference's mean of squared deviations where the kernel clamps a mean of squares minus a squared mean — is compared
  under finiteness in the bridge module.
-/
import proofs.«139856_j11905649344612_2_alg».proof.Proof.RefStages
import proofs.«139856_j11905649344612_2_alg».proof.Proof.KernelSpec
import proofs.«139856_j11905649344612_2_alg».proof.Proof.LibExtReal

set_option maxRecDepth 16384

noncomputable section

namespace Cert.RefValue

open Cert.ReferenceIdeal Cert.ReferenceIdeal.ReadP Idealize.ShloMosaic Idealize.ShloMosaic.TcCoe
open Idealize.ShloMosaic.ValueIdx Cert.ValueTools Cert.Spec
open Cert.KernelIdeal.Chain

variable (x0 : S50000x128.Idx → EReal) (x1 : S800000x128.Idx → EReal) (x2 x3 : IVec S800000 32)
  (x4 : S128x128.Idx → EReal) (x5 : S128.Idx → EReal) (x6 : S128x128.Idx → EReal) (x7 : S128.Idx → EReal)
  (x8 : S128x128.Idx → EReal) (x9 : S128.Idx → EReal) (x10 : S128x128.Idx → EReal) (x11 : S128.Idx → EReal)
  (x12 : S128x128.Idx → EReal) (x13 : S128.Idx → EReal) (x14 x15 x16 x17 : S128.Idx → EReal)

/-! ## The projections -/

/-- A node projection of the reference is rows of `h` times the weight, plus the bias along the rows. -/
theorem lin_v3 : val_main_v3 (F := Ideal) x0 x4 x5 = Cert.KernelIdeal.Region0.linRows x0 x4 x5 := by
  funext i
  obtain ⟨p, q, rfl⟩ : ∃ (p : Fin 50000) (q : Fin 128), i = ix2 p q := ⟨i 0, i 1, eq_ix2 i⟩
  rw [val_main_v3_apply, val_main_v0_apply, val_main_v2_apply, val_main_v1_apply]
  have e1 : ∀ k : Fin 128, lidx_main_v0 (ix2 p q) k = ix2 p k := fun k => funext fun a => Fin.ext (by
    match a with
    | ⟨0, _⟩ => rfl
    | ⟨1, _⟩ => rfl)
  have e2 : ∀ k : Fin 128, ridx_main_v0 (ix2 p q) k = ix2 k q := fun k => funext fun a => Fin.ext (by
    match a with
    | ⟨0, _⟩ => rfl
    | ⟨1, _⟩ => rfl)
  have e3 : idx_main_v1 (idx_main_v2 (ix2 p q)) = ix1 q := funext fun a => Fin.ext (by
    match a with
    | ⟨0, _⟩ => rfl)
  exact congr_add (Finset.sum_congr rfl fun k _ => congr_mul (congrArg x0 (e1 k)) (congrArg x4 (e2 k))) (congrArg x5 e3)
theorem lin_v7 : val_main_v7 (F := Ideal) x0 x6 x7 = Cert.KernelIdeal.Region0.linRows x0 x6 x7 := by
  funext i
  obtain ⟨p, q, rfl⟩ : ∃ (p : Fin 50000) (q : Fin 128), i = ix2 p q := ⟨i 0, i 1, eq_ix2 i⟩
  rw [val_main_v7_apply, val_main_v4_apply, val_main_v6_apply, val_main_v5_apply]
  have e1 : ∀ k : Fin 128, lidx_main_v4 (ix2 p q) k = ix2 p k := fun k => funext fun a => Fin.ext (by
    match a with
    | ⟨0, _⟩ => rfl
    | ⟨1, _⟩ => rfl)
  have e2 : ∀ k : Fin 128, ridx_main_v4 (ix2 p q) k = ix2 k q := fun k => funext fun a => Fin.ext (by
    match a with
    | ⟨0, _⟩ => rfl
    | ⟨1, _⟩ => rfl)
  have e3 : idx_main_v5 (idx_main_v6 (ix2 p q)) = ix1 q := funext fun a => Fin.ext (by
    match a with
    | ⟨0, _⟩ => rfl)
  exact congr_add (Finset.sum_congr rfl fun k _ => congr_mul (congrArg x0 (e1 k)) (congrArg x6 (e2 k))) (congrArg x7 e3)
theorem lin_v11 : val_main_v11 (F := Ideal) x0 x10 x11 = Cert.KernelIdeal.Region0.linRows x0 x10 x11 := by
  funext i
  obtain ⟨p, q, rfl⟩ : ∃ (p : Fin 50000) (q : Fin 128), i = ix2 p q := ⟨i 0, i 1, eq_ix2 i⟩
  rw [val_main_v11_apply, val_main_v8_apply, val_main_v10_apply, val_main_v9_apply]
  have e1 : ∀ k : Fin 128, lidx_main_v8 (ix2 p q) k = ix2 p k := fun k => funext fun a => Fin.ext (by
    match a with
    | ⟨0, _⟩ => rfl
    | ⟨1, _⟩ => rfl)
  have e2 : ∀ k : Fin 128, ridx_main_v8 (ix2 p q) k = ix2 k q := fun k => funext fun a => Fin.ext (by
    match a with
    | ⟨0, _⟩ => rfl
    | ⟨1, _⟩ => rfl)
  have e3 : idx_main_v9 (idx_main_v10 (ix2 p q)) = ix1 q := funext fun a => Fin.ext (by
    match a with
    | ⟨0, _⟩ => rfl)
  exact congr_add (Finset.sum_congr rfl fun k _ => congr_mul (congrArg x0 (e1 k)) (congrArg x10 (e2 k))) (congrArg x11 e3)
theorem lin_v15 : val_main_v15 (F := Ideal) x0 x12 x13 = Cert.KernelIdeal.Region0.linRows x0 x12 x13 := by
  funext i
  obtain ⟨p, q, rfl⟩ : ∃ (p : Fin 50000) (q : Fin 128), i = ix2 p q := ⟨i 0, i 1, eq_ix2 i⟩
  rw [val_main_v15_apply, val_main_v12_apply, val_main_v14_apply, val_main_v13_apply]
  have e1 : ∀ k : Fin 128, lidx_main_v12 (ix2 p q) k = ix2 p k := fun k => funext fun a => Fin.ext (by
    match a with
    | ⟨0, _⟩ => rfl
    | ⟨1, _⟩ => rfl)
  have e2 : ∀ k : Fin 128, ridx_main_v12 (ix2 p q) k = ix2 k q := fun k => funext fun a => Fin.ext (by
    match a with
    | ⟨0, _⟩ => rfl
    | ⟨1, _⟩ => rfl)
  have e3 : idx_main_v13 (idx_main_v14 (ix2 p q)) = ix1 q := funext fun a => Fin.ext (by
    match a with
    | ⟨0, _⟩ => rfl)
  exact congr_add (Finset.sum_congr rfl fun k _ => congr_mul (congrArg x0 (e1 k)) (congrArg x12 (e2 k))) (congrArg x13 e3)
/-- The edge projection at an entry. -/
theorem lin_v19 (i : S800000x128.Idx) :
    val_main_v19 (F := Ideal) x1 x8 x9 i = (∑ k : Fin 128, x1 (ix2 (i 0) k) * x8 (ix2 k (i 1))) + x9 (ix1 (i 1)) := by
  obtain ⟨p, q, rfl⟩ : ∃ (p : Fin 800000) (q : Fin 128), i = ix2 p q := ⟨i 0, i 1, eq_ix2 i⟩
  rw [val_main_v19_apply, val_main_v16_apply, val_main_v18_apply, val_main_v17_apply]
  have e1 : ∀ k : Fin 128, lidx_main_v16 (ix2 p q) k = ix2 p k := fun k => funext fun a => Fin.ext (by
    match a with
    | ⟨0, _⟩ => rfl
    | ⟨1, _⟩ => rfl)
  have e2 : ∀ k : Fin 128, ridx_main_v16 (ix2 p q) k = ix2 k q := fun k => funext fun a => Fin.ext (by
    match a with
    | ⟨0, _⟩ => rfl
    | ⟨1, _⟩ => rfl)
  have e3 : idx_main_v17 (idx_main_v18 (ix2 p q)) = ix1 q := funext fun a => Fin.ext (by
    match a with
    | ⟨0, _⟩ => rfl)
  exact congr_add (Finset.sum_congr rfl fun k _ => congr_mul (congrArg x1 (e1 k)) (congrArg x8 (e2 k))) (congrArg x9 e3)

/-! ## The index columns, the gathered tables, the gate -/

theorem idx_v25 : val_main_v25 (F := Ideal) x2 = idxN x2 := rfl
theorem idx_v33 : val_main_v33 (F := Ideal) x3 = idxN x3 := rfl
theorem idx_v47 : val_main_v47 (F := Ideal) x2 = idxN x2 := rfl
theorem idx_v51 : val_main_v51 (F := Ideal) x3 = idxR x3 := rfl
theorem idx_v54 : val_main_v54 (F := Ideal) x3 = idxR x3 := rfl
theorem idx_v58 : val_main_v58 (F := Ideal) x3 = idxR x3 := rfl

theorem gather_v26 : val_main_v26 (F := Ideal) x0 x2 x10 x11 = gD x0 x2 x10 x11 := by
  unfold val_main_v26 gD DhT
  rw [lin_v11, idx_v25]
  rfl
theorem gather_v34 : val_main_v34 (F := Ideal) x0 x3 x12 x13 = gE x0 x3 x12 x13 := by
  unfold val_main_v34 gE EhT
  rw [lin_v15, idx_v33]
  rfl
theorem gather_v48 : val_main_v48 (F := Ideal) x0 x2 x6 x7 = gB x0 x2 x6 x7 := by
  unfold val_main_v48 gB BhT
  rw [lin_v7, idx_v47]
  rfl

/-- The reference's pre-activation is the kernel's. -/
theorem eij_v35 : val_main_v35 (F := Ideal) x0 x1 x2 x3 x8 x9 x10 x11 x12 x13 = eij x0 x1 x2 x3 x8 x9 x10 x11 x12 x13 := by
  funext i
  rw [val_main_v35_apply, val_main_v27_apply, lin_v19, gather_v26, gather_v34]
  rfl
/-- The reference's gate, 1 / (1 + e^{-x}) spelt out, is the logistic function of the pre-activation. -/
theorem sig_v41 : val_main_v41 (F := Ideal) x0 x1 x2 x3 x8 x9 x10 x11 x12 x13 = gate x0 x1 x2 x3 x8 x9 x10 x11 x12 x13 := by
  funext i
  rw [val_main_v41_apply, val_main_v40_apply, val_main_cst_3_apply, val_main_v39_apply, val_main_v38_apply, val_main_cst_apply,
    val_main_v37_apply, val_main_v36_apply, eij_v35]
  show Ideal.div (Ideal.ofBits .f32 0x3F800000#32) (Ideal.ofBits .f32 0x3F800000#32 + Ideal.exp (-(eij x0 x1 x2 x3 x8 x9 x10 x11 x12 x13 i))) = _
  rw [ExtRealStats.ofBits_one']
  rfl
theorem msg_v49 : val_main_v49 (F := Ideal) x0 x1 x2 x3 x6 x7 x8 x9 x10 x11 x12 x13 = msg x0 x1 x2 x3 x6 x7 x8 x9 x10 x11 x12 x13 := by
  funext i
  rw [val_main_v49_apply, sig_v41, gather_v48]
  rfl
theorem num_v52 : val_main_v52 (F := Ideal) x0 x1 x2 x3 x6 x7 x8 x9 x10 x11 x12 x13 = num x0 x1 x2 x3 x6 x7 x8 x9 x10 x11 x12 x13 := by
  unfold val_main_v52 num
  rw [msg_v49, idx_v51]
  rfl
theorem den_v55 : val_main_v55 (F := Ideal) x0 x1 x2 x3 x8 x9 x10 x11 x12 x13 = den x0 x1 x2 x3 x8 x9 x10 x11 x12 x13 := by
  unfold val_main_v55 den
  rw [sig_v41, idx_v54]
  rfl

end Cert.RefValue

end
-- ==== Proof.StatsTools.lean ====
/-
  Facts for reading column statistics: a [a, 1, b] array re-laid as [a, b] reads the same entry; a sum over 800000 (or
  50000) rows is the sum over the row blocks of the sums inside each block.
-/
import proofs.«139856_j11905649344612_2_alg».proof.Proof.ValueTools
import proofs.«139856_j11905649344612_2_alg».proof.Proof.LibExtReal

noncomputable section

namespace Cert.StatsTools

open Idealize.ShloMosaic Idealize.ShloMosaic.ValueIdx

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A sum over `B * R` rows is the sum over the `B` blocks of the sums over the `R` rows of each block. -/
theorem sum_rows_blocks {B R N : ℕ} (hN : B * R = N) (f : Fin N → EReal) :
    ∑ b : Fin B, ∑ r : Fin R, f ⟨b.val * R + r.val, by
        have hb := b.isLt; have hr := r.isLt
        calc b.val * R + r.val < b.val * R + R := by omega
          _ = (b.val + 1) * R := by ring
          _ ≤ B * R := Nat.mul_le_mul_right R hb
          _ = N := hN⟩ = ∑ i : Fin N, f i := by
  subst hN
  have key := ExtRealStats.sum_blocks B R (fun n => if h : n < B * R then f ⟨n, h⟩ else 0)
  have hl : ∀ (b : Fin B) (r : Fin R), b.val * R + r.val < B * R := fun b r => by
    have hb := b.isLt; have hr := r.isLt
    calc b.val * R + r.val < b.val * R + R := by omega
      _ = (b.val + 1) * R := by ring
      _ ≤ B * R := Nat.mul_le_mul_right R hb
  calc ∑ b : Fin B, ∑ r : Fin R, f ⟨b.val * R + r.val, _⟩
      = ∑ b : Fin B, ∑ r : Fin R, (fun n => if h : n < B * R then f ⟨n, h⟩ else 0) (b.val * R + r.val) :=
        Finset.sum_congr rfl fun b _ => Finset.sum_congr rfl fun r _ => by simp only [dif_pos (hl b r)]
    _ = ∑ i : Fin (B * R), (fun n => if h : n < B * R then f ⟨n, h⟩ else 0) i.val := key
    _ = ∑ i : Fin (B * R), f i := Finset.sum_congr rfl fun i _ => by simp only [dif_pos i.isLt]

end Cert.StatsTools

end
-- ==== Proof.KernelStats.lean ====
/-
  The kernel's column means and clamped variances as plain column sums: a per-block column sum added up over the blocks
  (from the zero word) is the zero word plus the sum over all rows; the mean is that total divided by the row count's
  word; the clamped variance is the maximum of (mean of squares − squared mean) and the zero word.
-/
import proofs.«139856_j11905649344612_2_alg».proof.Proof.KernelSpec
import proofs.«139856_j11905649344612_2_alg».proof.Proof.StatsTools

noncomputable section

namespace Cert.KernelIdeal.Chain

open Cert.KernelIdeal Idealize.ShloMosaic Idealize.ShloMosaic.TcCoe
open Cert.KernelIdeal.Facts₀ Cert.KernelIdeal.Facts
open Idealize.ShloMosaic.ValueIdx Cert.ValueTools Cert.StatsTools Cert.Spec

/-- The zero word and the two row-count words. -/
abbrev w0 : EReal := Ideal.ofBits .f32 0x00000000#32
abbrev wE : EReal := Ideal.ofBits .f32 0x49435000#32
abbrev wH : EReal := Ideal.ofBits .f32 0x47435000#32

theorem colTotal200_apply (p : S200x1x128.Idx → EReal) (c : Fin 128) :
    colTotal200 p (ix1 c) = w0 + ∑ b : Fin 200, p (ix3 b (0 : Fin 1) c) := by
  unfold colTotal200
  show Ideal.hostReduceAdd reducesTo_S200x128_S128_d0 (shapeCast S200x128 p shapeCasts_S200x1x128_S200x128) w0 (ix1 c) = _
  refine (hostColSum_apply (R := 200) (C := 128) _ _ reducesTo_S200x128_S128_d0 (by decide) c).trans ?_
  exact congrArg (w0 + ·) (Finset.sum_congr rfl fun b _ => shapeCast_a1b_ab_apply p shapeCasts_S200x1x128_S200x128 b c)
theorem colTotal25_apply (p : S25x1x128.Idx → EReal) (c : Fin 128) :
    colTotal25 p (ix1 c) = w0 + ∑ b : Fin 25, p (ix3 b (0 : Fin 1) c) := by
  unfold colTotal25
  show Ideal.hostReduceAdd reducesTo_S25x128_S128_d0 (shapeCast S25x128 p shapeCasts_S25x1x128_S25x128) w0 (ix1 c) = _
  refine (hostColSum_apply (R := 25) (C := 128) _ _ reducesTo_S25x128_S128_d0 (by decide) c).trans ?_
  exact congrArg (w0 + ·) (Finset.sum_congr rfl fun b _ => shapeCast_a1b_ab_apply p shapeCasts_S25x1x128_S25x128 b c)

theorem meanOf_apply (tot : S128.Idx → EReal) (w : BitVec 32) (c : Fin 128) :
    meanOf tot w (ix1 c) = Ideal.div (tot (ix1 c)) (Ideal.ofBits .f32 w) := rfl
theorem varOf_apply (totsq mean : S128.Idx → EReal) (w : BitVec 32) (c : Fin 128) :
    varOf totsq mean w (ix1 c) = max (Ideal.div (totsq (ix1 c)) (Ideal.ofBits .f32 w) - mean (ix1 c) * mean (ix1 c)) w0 := rfl

/-- The block sums of an [800000, 128] array added over the 200 blocks: the sum over all rows. -/
theorem total_G9 (x : S800000x128.Idx → EReal) (c : Fin 128) :
    colTotal200 (Region1.G9 x) (ix1 c) = w0 + ∑ k : Fin 800000, x (ix2 k c) := by
  rw [colTotal200_apply]
  exact congrArg (w0 + ·) (sum_rows_blocks (B := 200) (R := 4000) (N := 800000) rfl fun k => x (ix2 k c))
theorem total_G10 (x : S800000x128.Idx → EReal) (c : Fin 128) :
    colTotal200 (Region1.G10 x) (ix1 c) = w0 + ∑ k : Fin 800000, x (ix2 k c) * x (ix2 k c) := by
  rw [colTotal200_apply]
  exact congrArg (w0 + ·) (sum_rows_blocks (B := 200) (R := 4000) (N := 800000) rfl fun k => x (ix2 k c) * x (ix2 k c))
theorem total_G5 (x : S50000x128.Idx → EReal) (c : Fin 128) :
    colTotal25 (Region2.G5 x) (ix1 c) = w0 + ∑ k : Fin 50000, x (ix2 k c) := by
  rw [colTotal25_apply]
  exact congrArg (w0 + ·) (sum_rows_blocks (B := 25) (R := 2000) (N := 50000) rfl fun k => x (ix2 k c))
theorem total_G6 (x : S50000x128.Idx → EReal) (c : Fin 128) :
    colTotal25 (Region2.G6 x) (ix1 c) = w0 + ∑ k : Fin 50000, x (ix2 k c) * x (ix2 k c) := by
  rw [colTotal25_apply]
  exact congrArg (w0 + ·) (sum_rows_blocks (B := 25) (R := 2000) (N := 50000) rfl fun k => x (ix2 k c) * x (ix2 k c))

/-- A column's mean and clamped variance from the whole column. -/
def colMean {N : ℕ} (x : (⟨2, ![N, 128]⟩ : Shape).Idx → EReal) (w : EReal) (c : Fin 128) : EReal :=
  Ideal.div (w0 + ∑ k : Fin N, x (ix2 k c)) w
def colVarClamped {N : ℕ} (x : (⟨2, ![N, 128]⟩ : Shape).Idx → EReal) (w : EReal) (c : Fin 128) : EReal :=
  max (Ideal.div (w0 + ∑ k : Fin N, x (ix2 k c) * x (ix2 k c)) w - colMean x w c * colMean x w c) w0

section
variable (a0 : S50000x128.Idx → EReal) (a1 : S800000x128.Idx → EReal) (a2 a3 : IVec S800000 32)
  (a4 : S128x128.Idx → EReal) (a5 : S128.Idx → EReal) (a6 : S128x128.Idx → EReal) (a7 : S128.Idx → EReal)
  (a8 : S128x128.Idx → EReal) (a9 : S128.Idx → EReal) (a10 : S128x128.Idx → EReal) (a11 : S128.Idx → EReal)
  (a12 : S128x128.Idx → EReal) (a13 : S128.Idx → EReal) (a14 a15 a16 a17 : S128.Idx → EReal)

theorem meanE_eq (c : Fin 128) :
    meanE a0 a1 a2 a3 a8 a9 a10 a11 a12 a13 (ix1 c) = colMean (N := 800000) (eij a0 a1 a2 a3 a8 a9 a10 a11 a12 a13) wE c := by
  unfold meanE colMean
  rw [meanOf_apply, total_G9]
theorem varE_eq (c : Fin 128) :
    varE a0 a1 a2 a3 a8 a9 a10 a11 a12 a13 (ix1 c) = colVarClamped (N := 800000) (eij a0 a1 a2 a3 a8 a9 a10 a11 a12 a13) wE c := by
  unfold varE colVarClamped
  rw [varOf_apply, total_G10, meanE_eq]
theorem meanH_eq (c : Fin 128) :
    meanH a0 a1 a2 a3 a4 a5 a6 a7 a8 a9 a10 a11 a12 a13 (ix1 c)
      = colMean (N := 50000) (hagg a0 a1 a2 a3 a4 a5 a6 a7 a8 a9 a10 a11 a12 a13) wH c := by
  unfold meanH colMean
  rw [meanOf_apply, total_G5]
theorem varH_eq (c : Fin 128) :
    varH a0 a1 a2 a3 a4 a5 a6 a7 a8 a9 a10 a11 a12 a13 (ix1 c)
      = colVarClamped (N := 50000) (hagg a0 a1 a2 a3 a4 a5 a6 a7 a8 a9 a10 a11 a12 a13) wH c := by
  unfold varH colVarClamped
  rw [varOf_apply, total_G6, meanH_eq]

/-- The kernel's results at an entry. -/
theorem eOut_apply (i : S800000x128.Idx) :
    eOut a0 a1 a2 a3 a8 a9 a10 a11 a12 a13 a16 a17 i
      = bnEntry (eij a0 a1 a2 a3 a8 a9 a10 a11 a12 a13 i) (a1 i) (a16 (ix1 (i 1))) (a17 (ix1 (i 1)))
          (colMean (N := 800000) (eij a0 a1 a2 a3 a8 a9 a10 a11 a12 a13) wE (i 1))
          (colVarClamped (N := 800000) (eij a0 a1 a2 a3 a8 a9 a10 a11 a12 a13) wE (i 1)) := by
  unfold eOut Region3.G
  exact bnEntry_congr rfl rfl rfl rfl (meanE_eq a0 a1 a2 a3 a8 a9 a10 a11 a12 a13 (i 1)) (varE_eq a0 a1 a2 a3 a8 a9 a10 a11 a12 a13 (i 1))
theorem hOut_apply (i : S50000x128.Idx) :
    hOut a0 a1 a2 a3 a4 a5 a6 a7 a8 a9 a10 a11 a12 a13 a14 a15 i
      = bnEntry (hagg a0 a1 a2 a3 a4 a5 a6 a7 a8 a9 a10 a11 a12 a13 i) (a0 i) (a14 (ix1 (i 1))) (a15 (ix1 (i 1)))
          (colMean (N := 50000) (hagg a0 a1 a2 a3 a4 a5 a6 a7 a8 a9 a10 a11 a12 a13) wH (i 1))
          (colVarClamped (N := 50000) (hagg a0 a1 a2 a3 a4 a5 a6 a7 a8 a9 a10 a11 a12 a13) wH (i 1)) := by
  unfold hOut Region4.G
  exact bnEntry_congr rfl rfl rfl rfl (meanH_eq a0 a1 a2 a3 a4 a5 a6 a7 a8 a9 a10 a11 a12 a13 (i 1))
    (varH_eq a0 a1 a2 a3 a4 a5 a6 a7 a8 a9 a10 a11 a12 a13 (i 1))
end

end Cert.KernelIdeal.Chain

end
-- ==== Proof.RefValue2.lean ====
/-
  The reference's second half read at entries: its gated aggregate (it keeps a node's own feature where the node has no
  incoming edge, a test on the scatter-added edge count), the column means and variances of the aggregate and of the gate's
  pre-activation (variance as the mean of squared deviations), and the two normalised results.
-/
import proofs.«139856_j11905649344612_2_alg».proof.Proof.RefValue
import proofs.«139856_j11905649344612_2_alg».proof.Proof.KernelStats

set_option maxRecDepth 16384

noncomputable section

namespace Cert.RefValue

open Cert.ReferenceIdeal Cert.ReferenceIdeal.ReadP Idealize.ShloMosaic Idealize.ShloMosaic.TcCoe
open Idealize.ShloMosaic.ValueIdx Cert.ValueTools Cert.Spec
open Cert.KernelIdeal.Chain

variable (x0 : S50000x128.Idx → EReal) (x1 : S800000x128.Idx → EReal) (x2 x3 : IVec S800000 32)
  (x4 : S128x128.Idx → EReal) (x5 : S128.Idx → EReal) (x6 : S128x128.Idx → EReal) (x7 : S128.Idx → EReal)
  (x8 : S128x128.Idx → EReal) (x9 : S128.Idx → EReal) (x10 : S128x128.Idx → EReal) (x11 : S128.Idx → EReal)
  (x12 : S128x128.Idx → EReal) (x13 : S128.Idx → EReal) (x14 x15 x16 x17 : S128.Idx → EReal)

/-- The normalisation formula with its two literal words spelt as the programs print them. -/
theorem bnEntry_words (x res g b mu var : EReal) :
    res + max (g * (x - mu) * Ideal.rsqrt (var + Ideal.ofBits .f32 0x3727C5AC#32) + b) (Ideal.ofBits .f32 0x00000000#32)
      = bnEntry x res g b mu var := by
  unfold bnEntry eps
  rw [Ideal.ofBits_zero_f32]

/-! ## The aggregate -/

/-- The aggregate with its fallback decided on a separate word `deg`. -/
def aggR (deg den a num h : EReal) : EReal :=
  Scalar.select (Ideal.cmp .ogt deg (Ideal.ofBits .f32 0x00000000#32))
    (a + Ideal.div num (Scalar.select (Ideal.cmp .oeq den (Ideal.ofBits .f32 0x00000000#32)) (Ideal.ofBits .f32 0x3F800000#32) den)) h

theorem aggRaw_eq_aggR (den a num h : EReal) : aggRaw den a num h = aggR den den a num h := rfl

/-- The reference's aggregate at an entry: the fallback is decided on the count of edges arriving at the node. -/
theorem agg_v68 (p : Fin 50000) (q : Fin 128) :
    val_main_v68 (F := Ideal) x0 x1 x2 x3 x4 x5 x6 x7 x8 x9 x10 x11 x12 x13 (ix2 p q)
      = aggR (val_main_v59 (F := Ideal) x3 (ix1 p)) (den x0 x1 x2 x3 x8 x9 x10 x11 x12 x13 (ix2 p q)) (AhT x0 x4 x5 (ix2 p q)) (num x0 x1 x2 x3 x6 x7 x8 x9 x10 x11 x12 x13 (ix2 p q)) (x0 (ix2 p q)) := by
  rw [val_main_v68_apply, val_main_call1_v0_apply, val_main_v67_apply, val_main_v65_apply, val_main_v66_apply, val_main_cst_12_apply,
    val_main_v64_apply, val_main_v63_apply, val_main_v62_apply, val_main_v61_apply, val_main_v60_apply, val_main_cst_10_apply,
    val_main_call0_v1_apply, val_main_call0_v0_apply, val_main_cst_11_apply, lin_v3, num_v52, den_v55]
  have e : idx_main_v65 (idx_main_call1_v0 (ix2 p q)) = ix1 p := funext fun a => Fin.ext (by
    match a with
    | ⟨0, _⟩ => rfl)
  rw [e]
  rfl

/-! ## The edge side's statistics and result -/

/-- The reference's column mean is the whole column's sum (from the zero word) over the row count's word. -/
theorem mean_v98 (c : Fin 128) :
    val_main_v98 (F := Ideal) x0 x1 x2 x3 x8 x9 x10 x11 x12 x13 (ix1 c) = colMean (N := 800000) (val_main_v35 (F := Ideal) x0 x1 x2 x3 x8 x9 x10 x11 x12 x13) wE c := by
  rw [val_main_v98_apply, val_main_v96_apply, val_main_v97_apply, val_main_cst_19_apply, val_main_cst_18_apply]
  have e : ∀ k : Fin 800000, idx_main_v96 (ix1 c) k = ix2 k c := fun k => funext fun a => Fin.ext (by
    match a with
    | ⟨0, _⟩ => rfl
    | ⟨1, _⟩ => rfl)
  unfold colMean
  exact congrArg (fun s => Ideal.div (w0 + s) wE) (Finset.sum_congr rfl fun k _ => congrArg (val_main_v35 (F := Ideal) x0 x1 x2 x3 x8 x9 x10 x11 x12 x13) (e k))

/-- The reference's column variance: the mean of the squared deviations from the column mean. -/
theorem var_v105 (c : Fin 128) :
    val_main_v105 (F := Ideal) x0 x1 x2 x3 x8 x9 x10 x11 x12 x13 (ix1 c)
      = Ideal.div (w0 + ∑ k : Fin 800000, ((val_main_v35 (F := Ideal) x0 x1 x2 x3 x8 x9 x10 x11 x12 x13) (ix2 k c) - val_main_v98 (F := Ideal) x0 x1 x2 x3 x8 x9 x10 x11 x12 x13 (ix1 c))
          * ((val_main_v35 (F := Ideal) x0 x1 x2 x3 x8 x9 x10 x11 x12 x13) (ix2 k c) - val_main_v98 (F := Ideal) x0 x1 x2 x3 x8 x9 x10 x11 x12 x13 (ix1 c))) wE := by
  rw [val_main_v105_apply, val_main_v103_apply, val_main_v104_apply, val_main_cst_21_apply, val_main_cst_20_apply]
  have e : ∀ k : Fin 800000, idx_main_v103 (ix1 c) k = ix2 k c := fun k => funext fun a => Fin.ext (by
    match a with
    | ⟨0, _⟩ => rfl
    | ⟨1, _⟩ => rfl)
  have e' : ∀ k : Fin 800000, idx_main_v99 (idx_main_v100 (ix2 k c)) = ix1 c := fun k => funext fun a => Fin.ext (by
    match a with
    | ⟨0, _⟩ => rfl)
  refine congrArg (fun s => Ideal.div (w0 + s) wE) (Finset.sum_congr rfl fun k _ => ?_)
  rw [e k, val_main_v102_apply, val_main_v101_apply, val_main_v100_apply, val_main_v99_apply, e' k]
  rfl

/-- The reference's edge result at an entry: the normalisation formula of the stage, the residual, the scale and shift,
    and the reference's own mean and variance. -/
theorem out_v122 (p : Fin 800000) (q : Fin 128) :
    val_main_v122 (F := Ideal) x0 x1 x2 x3 x8 x9 x10 x11 x12 x13 x16 x17 (ix2 p q)
      = bnEntry ((val_main_v35 (F := Ideal) x0 x1 x2 x3 x8 x9 x10 x11 x12 x13) (ix2 p q)) (x1 (ix2 p q)) (x16 (ix1 q)) (x17 (ix1 q))
          (val_main_v98 (F := Ideal) x0 x1 x2 x3 x8 x9 x10 x11 x12 x13 (ix1 q)) (val_main_v105 (F := Ideal) x0 x1 x2 x3 x8 x9 x10 x11 x12 x13 (ix1 q)) := by
  rw [val_main_v122_apply, val_main_v121_apply, val_main_call3_v0_apply, val_main_call3_cst_apply, val_main_v120_apply,
    val_main_v117_apply, val_main_v111_apply, val_main_v110_apply, val_main_v109_apply, val_main_v108_apply,
    val_main_v107_apply, val_main_v106_apply, val_main_v116_apply, val_main_v115_apply, val_main_v114_apply,
    val_main_v113_apply, val_main_v112_apply, val_main_cst_22_apply, val_main_v119_apply, val_main_v118_apply]
  have eg : idx_main_v109 (idx_main_v110 (ix2 p q)) = ix1 q := funext fun a => Fin.ext (by
    match a with
    | ⟨0, _⟩ => rfl)
  have em : idx_main_v106 (idx_main_v107 (ix2 p q)) = ix1 q := funext fun a => Fin.ext (by
    match a with
    | ⟨0, _⟩ => rfl)
  have er : idx_main_v115 (idx_main_v116 (ix2 p q)) = ix1 q := funext fun a => Fin.ext (by
    match a with
    | ⟨0, _⟩ => rfl)
  have eb : idx_main_v118 (idx_main_v119 (ix2 p q)) = ix1 q := funext fun a => Fin.ext (by
    match a with
    | ⟨0, _⟩ => rfl)
  rw [eg, em, er, eb]
  exact bnEntry_words _ _ _ _ _ _

/-! ## The node side's statistics and result -/

/-- The reference's column mean is the whole column's sum (from the zero word) over the row count's word. -/
theorem mean_v71 (c : Fin 128) :
    val_main_v71 (F := Ideal) x0 x1 x2 x3 x4 x5 x6 x7 x8 x9 x10 x11 x12 x13 (ix1 c) = colMean (N := 50000) (val_main_v68 (F := Ideal) x0 x1 x2 x3 x4 x5 x6 x7 x8 x9 x10 x11 x12 x13) wH c := by
  rw [val_main_v71_apply, val_main_v69_apply, val_main_v70_apply, val_main_cst_14_apply, val_main_cst_13_apply]
  have e : ∀ k : Fin 50000, idx_main_v69 (ix1 c) k = ix2 k c := fun k => funext fun a => Fin.ext (by
    match a with
    | ⟨0, _⟩ => rfl
    | ⟨1, _⟩ => rfl)
  unfold colMean
  exact congrArg (fun s => Ideal.div (w0 + s) wH) (Finset.sum_congr rfl fun k _ => congrArg (val_main_v68 (F := Ideal) x0 x1 x2 x3 x4 x5 x6 x7 x8 x9 x10 x11 x12 x13) (e k))

/-- The reference's column variance: the mean of the squared deviations from the column mean. -/
theorem var_v78 (c : Fin 128) :
    val_main_v78 (F := Ideal) x0 x1 x2 x3 x4 x5 x6 x7 x8 x9 x10 x11 x12 x13 (ix1 c)
      = Ideal.div (w0 + ∑ k : Fin 50000, ((val_main_v68 (F := Ideal) x0 x1 x2 x3 x4 x5 x6 x7 x8 x9 x10 x11 x12 x13) (ix2 k c) - val_main_v71 (F := Ideal) x0 x1 x2 x3 x4 x5 x6 x7 x8 x9 x10 x11 x12 x13 (ix1 c))
          * ((val_main_v68 (F := Ideal) x0 x1 x2 x3 x4 x5 x6 x7 x8 x9 x10 x11 x12 x13) (ix2 k c) - val_main_v71 (F := Ideal) x0 x1 x2 x3 x4 x5 x6 x7 x8 x9 x10 x11 x12 x13 (ix1 c))) wH := by
  rw [val_main_v78_apply, val_main_v76_apply, val_main_v77_apply, val_main_cst_16_apply, val_main_cst_15_apply]
  have e : ∀ k : Fin 50000, idx_main_v76 (ix1 c) k = ix2 k c := fun k => funext fun a => Fin.ext (by
    match a with
    | ⟨0, _⟩ => rfl
    | ⟨1, _⟩ => rfl)
  have e' : ∀ k : Fin 50000, idx_main_v72 (idx_main_v73 (ix2 k c)) = ix1 c := fun k => funext fun a => Fin.ext (by
    match a with
    | ⟨0, _⟩ => rfl)
  refine congrArg (fun s => Ideal.div (w0 + s) wH) (Finset.sum_congr rfl fun k _ => ?_)
  rw [e k, val_main_v75_apply, val_main_v74_apply, val_main_v73_apply, val_main_v72_apply, e' k]
  rfl

/-- The reference's node result at an entry: the normalisation formula of the stage, the residual, the scale and shift,
    and the reference's own mean and variance. -/
theorem out_v95 (p : Fin 50000) (q : Fin 128) :
    val_main_v95 (F := Ideal) x0 x1 x2 x3 x4 x5 x6 x7 x8 x9 x10 x11 x12 x13 x14 x15 (ix2 p q)
      = bnEntry ((val_main_v68 (F := Ideal) x0 x1 x2 x3 x4 x5 x6 x7 x8 x9 x10 x11 x12 x13) (ix2 p q)) (x0 (ix2 p q)) (x14 (ix1 q)) (x15 (ix1 q))
          (val_main_v71 (F := Ideal) x0 x1 x2 x3 x4 x5 x6 x7 x8 x9 x10 x11 x12 x13 (ix1 q)) (val_main_v78 (F := Ideal) x0 x1 x2 x3 x4 x5 x6 x7 x8 x9 x10 x11 x12 x13 (ix1 q)) := by
  rw [val_main_v95_apply, val_main_v94_apply, val_main_call2_v0_apply, val_main_call2_cst_apply, val_main_v93_apply,
    val_main_v90_apply, val_main_v84_apply, val_main_v83_apply, val_main_v82_apply, val_main_v81_apply,
    val_main_v80_apply, val_main_v79_apply, val_main_v89_apply, val_main_v88_apply, val_main_v87_apply,
    val_main_v86_apply, val_main_v85_apply, val_main_cst_17_apply, val_main_v92_apply, val_main_v91_apply]
  have eg : idx_main_v82 (idx_main_v83 (ix2 p q)) = ix1 q := funext fun a => Fin.ext (by
    match a with
    | ⟨0, _⟩ => rfl)
  have em : idx_main_v79 (idx_main_v80 (ix2 p q)) = ix1 q := funext fun a => Fin.ext (by
    match a with
    | ⟨0, _⟩ => rfl)
  have er : idx_main_v88 (idx_main_v89 (ix2 p q)) = ix1 q := funext fun a => Fin.ext (by
    match a with
    | ⟨0, _⟩ => rfl)
  have eb : idx_main_v91 (idx_main_v92 (ix2 p q)) = ix1 q := funext fun a => Fin.ext (by
    match a with
    | ⟨0, _⟩ => rfl)
  rw [eg, em, er, eb]
  exact bnEntry_words _ _ _ _ _ _

end Cert.RefValue

end
-- ==== Proof.ScatterCount.lean ====
import proofs.«139856_j11905649344612_2_alg».proof.ReferenceIdeal
import Idealize.ShloMosaic.PureOps.Ideal
import Idealize.ShloMosaic.Lib.ValueIdx

/-!
# Counting the edges that land on a node: the two scatter-adds of a graph layer

A graph layer adds, for every edge `e` with destination word `dst e`, a row of 128 positive reals into row
`dst e` of a zero `[50000, 128]` array, and separately adds `1` into entry `dst e` of a zero `[50000]` array.
An edge whose destination word, read as a SIGNED integer, lies outside `[0, 50000)` is dropped by both.

This file proves, for the two concrete scatter dimension records of the reference program:

* an update index `j = (e, c')` of the row scatter lands on `(n, c)` exactly when the signed destination word of
  edge `e` is `n` and `c' = c`; an update index `e` of the count scatter lands on `n` exactly when the signed
  destination word of edge `e` is `n`;
* hence some update of the row scatter lands on `(n, c)` iff some update of the count scatter lands on `n`;
* hence, the rows being positive reals, the row sum at `(n, c)` is positive iff the count at `n` is positive,
  and it is zero iff the count at `n` is not positive; and a scatter-add of real updates into a zero array is real.
-/

noncomputable section

namespace Cert.ScatterCount

open Idealize.ShloMosaic Cert.ReferenceIdeal
open Idealize.ShloMosaic.ValueIdx
open scoped BigOperators

variable [Facts₀]

local notation "d2" => scatter_S50000x128_S800000x1_S800000x128_1_0_0_1
local notation "d1" => scatter_S50000_S800000x1_S800000_n_0_0_1

/-! ## The start and window coordinates of the row scatter -/

/-- The scatter-indices index an update index `j` of the row scatter reads its start from: row `j 0`, column `0`. -/
theorem d2_siIdx (j : S800000x128.Idx) (c : Fin (d2).scatterDimsToOperandDims.length) :
    (d2).siIdx j c = ix2 (j 0) 0 := by
  funext b; refine Fin.ext ?_
  match b with
  | ⟨0, _⟩ => rfl
  | ⟨1, _⟩ =>
    have : c.val = 0 := by have := c.isLt; simpa [scatter_S50000x128_S800000x1_S800000x128_1_0_0_1] using this
    simpa [ScatterDims.siIdx, scatter_S50000x128_S800000x1_S800000x128_1_0_0_1] using this

/-- On operand axis 0 the window of update `j` starts at the signed destination word of edge `j 0`. -/
theorem d2_start0 (j : S800000x128.Idx) (idx : IVec S800000x1 32) :
    (d2).start j idx 0 = (idx (ix2 (j 0) 0)).toInt := by
  unfold ScatterDims.start
  rw [dif_pos (show (0 : Fin 2) ∈ (d2).scatterDimsToOperandDims from List.mem_singleton.mpr rfl)]
  rw [d2_siIdx]
  rfl

/-- On operand axis 1 the window starts at `0`. -/
theorem d2_start1 (j : S800000x128.Idx) (idx : IVec S800000x1 32) :
    (d2).start j idx 1 = 0 := by
  unfold ScatterDims.start
  rw [dif_neg (show ¬ (1 : Fin 2) ∈ (d2).scatterDimsToOperandDims from
    (by decide : ¬ (1 : Fin 2) ∈ ([0] : List (Fin 2))))]

/-- Operand axis 0 is an inserted axis: the window coordinate there is `0`. -/
theorem d2_window0 (j : S800000x128.Idx) : (d2).window j 0 = 0 := by
  unfold ScatterDims.window
  rw [dif_neg (show ¬ (0 : Fin 2) ∈ (d2).sKept from (by decide : ¬ (0 : Fin 2) ∈ S50000x128.kept [0]))]

/-- On operand axis 1 the window coordinate is the update's column. -/
theorem d2_window1 (j : S800000x128.Idx) : (d2).window j 1 = (j 1).val := by
  unfold ScatterDims.window
  rw [dif_pos (show (1 : Fin 2) ∈ (d2).sKept from (by decide : (1 : Fin 2) ∈ S50000x128.kept [0]))]
  rfl

/-! ## The start and window coordinates of the count scatter -/

/-- The scatter-indices index an update index `e` of the count scatter reads its start from: row `e 0`, column `0`. -/
theorem d1_siIdx (e : S800000.Idx) (c : Fin (d1).scatterDimsToOperandDims.length) :
    (d1).siIdx e c = ix2 (e 0) 0 := by
  funext b; refine Fin.ext ?_
  match b with
  | ⟨0, _⟩ => rfl
  | ⟨1, _⟩ =>
    have : c.val = 0 := by have := c.isLt; simpa [scatter_S50000_S800000x1_S800000_n_0_0_1] using this
    simpa [ScatterDims.siIdx, scatter_S50000_S800000x1_S800000_n_0_0_1] using this

/-- On the operand's one axis the window of update `e` starts at the signed destination word of edge `e 0`. -/
theorem d1_start0 (e : S800000.Idx) (idx : IVec S800000x1 32) :
    (d1).start e idx 0 = (idx (ix2 (e 0) 0)).toInt := by
  unfold ScatterDims.start
  rw [dif_pos (show (0 : Fin 1) ∈ (d1).scatterDimsToOperandDims from List.mem_singleton.mpr rfl)]
  rw [d1_siIdx]
  rfl

/-- The operand's one axis is an inserted axis: the window coordinate there is `0`. -/
theorem d1_window0 (e : S800000.Idx) : (d1).window e 0 = 0 := by
  unfold ScatterDims.window
  rw [dif_neg (show ¬ (0 : Fin 1) ∈ (d1).sKept from (by decide : ¬ (0 : Fin 1) ∈ S50000.kept [0]))]

/-! ## Where an update lands -/

/-- An update index `j` of the row scatter lands on `(n, c)` exactly when the signed destination word of edge
    `j 0` is `n` and the update's column is `c`. -/
theorem d2_resultIdx_iff (j : S800000x128.Idx) (idx : IVec S800000x1 32) (n : Fin 50000) (c : Fin 128) :
    (d2).resultIdx? j idx = some (ix2 n c) ↔
      (idx (ix2 (j 0) 0)).toInt = (n.val : Int) ∧ (j 1).val = c.val := by
  unfold ScatterDims.resultIdx?
  constructor
  · intro h
    split at h
    · rename_i hall
      have h' := Option.some.inj h
      have h0 := congrArg (fun f => (f 0).val) h'
      have h1 := congrArg (fun f => (f 1).val) h'
      simp only [d2_start0, d2_start1, d2_window0, d2_window1] at h0 h1
      have hb := (hall 0).1
      rw [d2_start0, d2_window0] at hb
      have h0' : ((idx (ix2 (j 0) 0)).toInt + ((0 : Nat) : Int)).toNat = n.val := h0
      have h1' : ((0 : Int) + (((j 1).val : Nat) : Int)).toNat = c.val := h1
      generalize (idx (ix2 (j 0) 0)).toInt = t at hb h0'
      constructor <;> omega
    · exact absurd h (by simp)
  · rintro ⟨h0, h1⟩
    have hall : ∀ a, 0 ≤ (d2).start j idx a + (d2).window j a ∧
        (d2).start j idx a + (d2).window j a < S50000x128.size a := by
      intro a
      match a with
      | ⟨0, _⟩ =>
        show 0 ≤ (d2).start j idx 0 + (d2).window j 0 ∧ (d2).start j idx 0 + (d2).window j 0 < S50000x128.size 0
        rw [d2_start0, d2_window0, h0]
        have := n.isLt
        show 0 ≤ (n.val : Int) + ((0 : Nat) : Int) ∧ (n.val : Int) + ((0 : Nat) : Int) < ((50000 : Nat) : Int)
        omega
      | ⟨1, _⟩ =>
        show 0 ≤ (d2).start j idx 1 + (d2).window j 1 ∧ (d2).start j idx 1 + (d2).window j 1 < S50000x128.size 1
        rw [d2_start1, d2_window1]
        have : (j 1).val < 128 := (j 1).isLt
        show 0 ≤ (0 : Int) + (((j 1).val : Nat) : Int) ∧ (0 : Int) + (((j 1).val : Nat) : Int) < ((128 : Nat) : Int)
        omega
    rw [dif_pos hall]
    congr 1
    funext a
    refine Fin.ext ?_
    match a with
    | ⟨0, _⟩ =>
      show ((d2).start j idx 0 + (d2).window j 0).toNat = n.val
      rw [d2_start0, d2_window0, h0]; simp
    | ⟨1, _⟩ =>
      show ((d2).start j idx 1 + (d2).window j 1).toNat = c.val
      rw [d2_start1, d2_window1, h1]; simp

/-- The same for a general operand index `i`. -/
theorem d2_resultIdx_iff' (j : S800000x128.Idx) (idx : IVec S800000x1 32) (i : S50000x128.Idx) :
    (d2).resultIdx? j idx = some i ↔
      (idx (ix2 (j 0) 0)).toInt = ((i 0).val : Int) ∧ (j 1).val = (i 1).val := by
  have h := d2_resultIdx_iff j idx (i 0) (i 1)
  conv_lhs => rw [eq_ix2 i]
  exact h

/-- An update index `e` of the count scatter lands on `n` exactly when the signed destination word of edge
    `e 0` is `n`. -/
theorem d1_resultIdx_iff (e : S800000.Idx) (idx : IVec S800000x1 32) (n : Fin 50000) :
    (d1).resultIdx? e idx = some (ix1 n) ↔ (idx (ix2 (e 0) 0)).toInt = (n.val : Int) := by
  unfold ScatterDims.resultIdx?
  constructor
  · intro h
    split at h
    · rename_i hall
      have h' := Option.some.inj h
      have h0 := congrArg (fun f => (f 0).val) h'
      simp only [d1_start0, d1_window0] at h0
      have hb := (hall 0).1
      rw [d1_start0, d1_window0] at hb
      have h0' : ((idx (ix2 (e 0) 0)).toInt + ((0 : Nat) : Int)).toNat = n.val := h0
      generalize (idx (ix2 (e 0) 0)).toInt = t at hb h0'
      omega
    · exact absurd h (by simp)
  · intro h0
    have hall : ∀ a, 0 ≤ (d1).start e idx a + (d1).window e a ∧
        (d1).start e idx a + (d1).window e a < S50000.size a := by
      intro a
      match a with
      | ⟨0, _⟩ =>
        show 0 ≤ (d1).start e idx 0 + (d1).window e 0 ∧ (d1).start e idx 0 + (d1).window e 0 < S50000.size 0
        rw [d1_start0, d1_window0, h0]
        have := n.isLt
        show 0 ≤ (n.val : Int) + ((0 : Nat) : Int) ∧ (n.val : Int) + ((0 : Nat) : Int) < ((50000 : Nat) : Int)
        omega
    rw [dif_pos hall]
    congr 1
    funext a
    refine Fin.ext ?_
    match a with
    | ⟨0, _⟩ =>
      show ((d1).start e idx 0 + (d1).window e 0).toNat = n.val
      rw [d1_start0, d1_window0, h0]; simp

/-- The same for a general operand index `i`. -/
theorem d1_resultIdx_iff' (e : S800000.Idx) (idx : IVec S800000x1 32) (i : S50000.Idx) :
    (d1).resultIdx? e idx = some i ↔ (idx (ix2 (e 0) 0)).toInt = ((i 0).val : Int) := by
  have h := d1_resultIdx_iff e idx (i 0)
  conv_lhs => rw [eq_ix1 i]
  exact h

/-! ## Some row update lands on `(n, c)` iff some count update lands on `n` -/

/-- Some update of the row scatter lands on `(n, c)` iff some update of the count scatter lands on `n`. -/
theorem exists_resultIdx_iff (idx : IVec S800000x1 32) (n : Fin 50000) (c : Fin 128) :
    (∃ j : S800000x128.Idx, (d2).resultIdx? j idx = some (ix2 n c)) ↔
      (∃ e : S800000.Idx, (d1).resultIdx? e idx = some (ix1 n)) := by
  constructor
  · rintro ⟨j, hj⟩
    exact ⟨ix1 (j 0), (d1_resultIdx_iff _ idx n).2 ((d2_resultIdx_iff j idx n c).1 hj).1⟩
  · rintro ⟨e, he⟩
    exact ⟨ix2 (e 0) c, (d2_resultIdx_iff _ idx n c).2 ⟨(d1_resultIdx_iff e idx n).1 he, rfl⟩⟩

/-- The set of row updates landing on `(n, c)` is nonempty iff the set of count updates landing on `n` is. -/
theorem filter_nonempty_iff (idx : IVec S800000x1 32) (n : Fin 50000) (c : Fin 128) :
    (Finset.univ.filter (fun j : S800000x128.Idx => (d2).resultIdx? j idx = some (ix2 n c))).Nonempty ↔
      (Finset.univ.filter (fun e : S800000.Idx => (d1).resultIdx? e idx = some (ix1 n))).Nonempty := by
  have h := exists_resultIdx_iff idx n c
  constructor
  · rintro ⟨j, hj⟩
    obtain ⟨e, he⟩ := h.1 ⟨j, (Finset.mem_filter.1 hj).2⟩
    exact ⟨e, Finset.mem_filter.2 ⟨Finset.mem_univ _, he⟩⟩
  · rintro ⟨e, he⟩
    obtain ⟨j, hj⟩ := h.2 ⟨e, (Finset.mem_filter.1 he).2⟩
    exact ⟨j, Finset.mem_filter.2 ⟨Finset.mem_univ _, hj⟩⟩

/-! ## Finite sums of reals inside the extended reals -/

/-- The coercion of a finite sum of reals is the sum of the coercions. -/
private theorem coe_finset_sum {ι : Type} (s : Finset ι) (f : ι → ℝ) :
    ∑ j ∈ s, ((f j : ℝ) : EReal) = ((∑ j ∈ s, f j : ℝ) : EReal) := by
  classical
  refine Finset.induction_on s ?_ ?_
  · simp
  · intro a s ha ih
    rw [Finset.sum_insert ha, Finset.sum_insert ha, ih, EReal.coe_add]

/-- A finite sum of real-valued extended reals is real-valued. -/
private theorem sum_real {ι : Type} (s : Finset ι) (u : ι → EReal) (hu : ∀ j, ∃ r : ℝ, u j = (r : EReal)) :
    ∃ r : ℝ, ∑ j ∈ s, u j = (r : EReal) := by
  choose f hf using hu
  exact ⟨∑ j ∈ s, f j, by rw [← coe_finset_sum]; exact Finset.sum_congr rfl (fun j _ => hf j)⟩

/-- A finite sum of positive reals is positive iff the index set is nonempty. -/
private theorem real_sum_pos_iff {ι : Type} (s : Finset ι) (f : ι → ℝ) (hf : ∀ j, 0 < f j) :
    0 < ∑ j ∈ s, f j ↔ s.Nonempty := by
  constructor
  · intro h
    by_contra hne
    rw [Finset.not_nonempty_iff_eq_empty] at hne
    rw [hne, Finset.sum_empty] at h
    exact lt_irrefl _ h
  · intro hne
    exact Finset.sum_pos (fun j _ => hf j) hne

/-- A finite sum of positive reals, in the extended reals, is positive iff the index set is nonempty. -/
private theorem sum_pos_iff {ι : Type} (s : Finset ι) (u : ι → EReal)
    (hu : ∀ j, ∃ r : ℝ, 0 < r ∧ u j = (r : EReal)) : 0 < ∑ j ∈ s, u j ↔ s.Nonempty := by
  choose f hf using hu
  have hsum : ∑ j ∈ s, u j = ((∑ j ∈ s, f j : ℝ) : EReal) := by
    rw [← coe_finset_sum]; exact Finset.sum_congr rfl (fun j _ => (hf j).2)
  rw [hsum, EReal.coe_pos]
  exact real_sum_pos_iff s f (fun j => (hf j).1)

/-- A finite sum of positive reals, in the extended reals, is zero iff the index set is empty. -/
private theorem sum_eq_zero_iff {ι : Type} (s : Finset ι) (u : ι → EReal)
    (hu : ∀ j, ∃ r : ℝ, 0 < r ∧ u j = (r : EReal)) : ∑ j ∈ s, u j = 0 ↔ ¬ s.Nonempty := by
  constructor
  · intro h hne
    have := (sum_pos_iff s u hu).2 hne
    rw [h] at this
    exact lt_irrefl _ this
  · intro hne
    rw [Finset.not_nonempty_iff_eq_empty] at hne
    rw [hne, Finset.sum_empty]

/-! ## The two scatter-adds into zero arrays -/

/-- A scatter-add of real updates into a zero array is real at every index (any dimension record). -/
theorem hostScatterAdd_zero_real {s si su : Shape} (d : ScatterDims s si su) {w : Nat} (idx : IVec si w)
    (u : su.Idx → EReal) (hu : ∀ j, ∃ r : ℝ, u j = (r : EReal)) (i : s.Idx) :
    ∃ r : ℝ, Ideal.hostScatterAdd d (fun _ => 0) idx u i = (r : EReal) := by
  obtain ⟨r, hr⟩ := sum_real (Finset.univ.filter (fun j => d.resultIdx? j idx = some i)) u hu
  exact ⟨r, by unfold Ideal.hostScatterAdd; rw [zero_add]; exact hr⟩

/-- The row scatter of real updates into a zero array is real at every index. -/
theorem den_real (idx : IVec S800000x1 32) (u : S800000x128.Idx → EReal) (hu : ∀ j, ∃ r : ℝ, u j = (r : EReal))
    (i : S50000x128.Idx) : ∃ r : ℝ, Ideal.hostScatterAdd (d2) (fun _ => 0) idx u i = (r : EReal) :=
  hostScatterAdd_zero_real _ idx u hu i

/-- The count scatter of real updates into a zero array is real at every index. -/
theorem deg_real (idx : IVec S800000x1 32) (u : S800000.Idx → EReal) (hu : ∀ e, ∃ r : ℝ, u e = (r : EReal))
    (i : S50000.Idx) : ∃ r : ℝ, Ideal.hostScatterAdd (d1) (fun _ => 0) idx u i = (r : EReal) :=
  hostScatterAdd_zero_real _ idx u hu i

/-- The row sum at `(n, c)` is positive iff some row update lands there. -/
theorem den_pos_iff_nonempty (idx : IVec S800000x1 32) (σ : S800000x128.Idx → EReal)
    (hσ : ∀ j, ∃ r : ℝ, 0 < r ∧ σ j = (r : EReal)) (i : S50000x128.Idx) :
    0 < Ideal.hostScatterAdd (d2) (fun _ => 0) idx σ i ↔
      (Finset.univ.filter (fun j : S800000x128.Idx => (d2).resultIdx? j idx = some i)).Nonempty := by
  unfold Ideal.hostScatterAdd; rw [zero_add]; exact sum_pos_iff _ σ hσ

/-- The row sum at `(n, c)` is zero iff no row update lands there. -/
theorem den_eq_zero_iff_not_nonempty (idx : IVec S800000x1 32) (σ : S800000x128.Idx → EReal)
    (hσ : ∀ j, ∃ r : ℝ, 0 < r ∧ σ j = (r : EReal)) (i : S50000x128.Idx) :
    Ideal.hostScatterAdd (d2) (fun _ => 0) idx σ i = 0 ↔
      ¬ (Finset.univ.filter (fun j : S800000x128.Idx => (d2).resultIdx? j idx = some i)).Nonempty := by
  unfold Ideal.hostScatterAdd; rw [zero_add]; exact sum_eq_zero_iff _ σ hσ

/-- The count at `n` is positive iff some count update lands there. -/
theorem deg_pos_iff_nonempty (idx : IVec S800000x1 32) (i : S50000.Idx) :
    0 < Ideal.hostScatterAdd (d1) (fun _ => 0) idx (fun _ => 1) i ↔
      (Finset.univ.filter (fun e : S800000.Idx => (d1).resultIdx? e idx = some i)).Nonempty := by
  unfold Ideal.hostScatterAdd; rw [zero_add]
  exact sum_pos_iff _ (fun _ => (1 : EReal)) (fun _ => ⟨1, one_pos, EReal.coe_one.symm⟩)

/-- The count at `n` is positive iff some edge's signed destination word is `n`. -/
theorem deg_pos_iff_exists (idx : IVec S800000x1 32) (n : Fin 50000) :
    0 < Ideal.hostScatterAdd (d1) (fun _ => 0) idx (fun _ => 1) (ix1 n) ↔
      ∃ e : Fin 800000, (idx (ix2 e 0)).toInt = (n.val : Int) := by
  rw [deg_pos_iff_nonempty]
  constructor
  · rintro ⟨e, he⟩
    exact ⟨e 0, (d1_resultIdx_iff e idx n).1 (Finset.mem_filter.1 he).2⟩
  · rintro ⟨e, he⟩
    exact ⟨ix1 e, Finset.mem_filter.2 ⟨Finset.mem_univ _, (d1_resultIdx_iff (ix1 e) idx n).2 he⟩⟩

/-- THE ROW SUM IS POSITIVE EXACTLY WHERE THE COUNT IS: at `(n, c)`, for positive real rows. -/
theorem den_pos_iff_deg_pos (idx : IVec S800000x1 32) (σ : S800000x128.Idx → EReal)
    (hσ : ∀ j, ∃ r : ℝ, 0 < r ∧ σ j = (r : EReal)) (n : Fin 50000) (c : Fin 128) :
    0 < Ideal.hostScatterAdd (d2) (fun _ => 0) idx σ (ix2 n c) ↔
      0 < Ideal.hostScatterAdd (d1) (fun _ => 0) idx (fun _ => 1) (ix1 n) := by
  rw [den_pos_iff_nonempty idx σ hσ, deg_pos_iff_nonempty]
  exact filter_nonempty_iff idx n c

/-- THE ROW SUM IS ZERO EXACTLY WHERE THE COUNT IS NOT POSITIVE: at `(n, c)`, for positive real rows. -/
theorem den_eq_zero_iff_not_deg_pos (idx : IVec S800000x1 32) (σ : S800000x128.Idx → EReal)
    (hσ : ∀ j, ∃ r : ℝ, 0 < r ∧ σ j = (r : EReal)) (n : Fin 50000) (c : Fin 128) :
    Ideal.hostScatterAdd (d2) (fun _ => 0) idx σ (ix2 n c) = 0 ↔
      ¬ 0 < Ideal.hostScatterAdd (d1) (fun _ => 0) idx (fun _ => 1) (ix1 n) := by
  rw [den_eq_zero_iff_not_nonempty idx σ hσ, deg_pos_iff_nonempty]
  exact not_congr (filter_nonempty_iff idx n c)

/-- The same two facts at a general index `i` of the row array, the count read at `i 0`. -/
theorem den_pos_iff_deg_pos' (idx : IVec S800000x1 32) (σ : S800000x128.Idx → EReal)
    (hσ : ∀ j, ∃ r : ℝ, 0 < r ∧ σ j = (r : EReal)) (i : S50000x128.Idx) :
    0 < Ideal.hostScatterAdd (d2) (fun _ => 0) idx σ i ↔
      0 < Ideal.hostScatterAdd (d1) (fun _ => 0) idx (fun _ => 1) (ix1 (i 0)) := by
  have h := den_pos_iff_deg_pos idx σ hσ (i 0) (i 1)
  conv_lhs => rw [eq_ix2 i]
  exact h

theorem den_eq_zero_iff_not_deg_pos' (idx : IVec S800000x1 32) (σ : S800000x128.Idx → EReal)
    (hσ : ∀ j, ∃ r : ℝ, 0 < r ∧ σ j = (r : EReal)) (i : S50000x128.Idx) :
    Ideal.hostScatterAdd (d2) (fun _ => 0) idx σ i = 0 ↔
      ¬ 0 < Ideal.hostScatterAdd (d1) (fun _ => 0) idx (fun _ => 1) (ix1 (i 0)) := by
  have h := den_eq_zero_iff_not_deg_pos idx σ hσ (i 0) (i 1)
  conv_lhs => rw [eq_ix2 i]
  exact h

end Cert.ScatterCount
-- ==== Proof.Bridge.lean ====
/-
  The two programs compute the same two arrays when every float argument entry is a real number.
  Finiteness propagates: each projection entry is a finite sum of products of reals plus a real; a gathered entry is an
  entry of the table; the gate's pre-activation is real, so the gate — the logistic function of it — is a POSITIVE real,
  the messages are real, and the scattered sums num, den are real. Because the gates are positive, the scattered gate sum
  den[n, c] is positive exactly when some edge arrives at node n, which is exactly when the scattered edge count at n is
  positive: the kernel's test and the reference's select the same branch, so the two aggregates are one array, and it is
  real (where den > 0 the quotient's divisor is a nonzero real). For a real column the mean of squared deviations from
  the mean equals mean of squares minus squared mean, which is nonnegative, so the kernel's clamp at zero changes nothing:
  the two variances agree, the means agree as sums (a sum over all rows is the sum over blocks of block sums), and the
  normalised results agree entry by entry.
-/
import proofs.«139856_j11905649344612_2_alg».proof.Proof.RefValue2
import proofs.«139856_j11905649344612_2_alg».proof.Proof.ScatterCount

set_option maxRecDepth 16384

noncomputable section

namespace Cert.Bridge

open Cert.ReferenceIdeal Cert.ReferenceIdeal.ReadP Idealize.ShloMosaic Idealize.ShloMosaic.TcCoe
open Idealize.ShloMosaic.ValueIdx Cert.ValueTools Cert.Spec ExtRealStats
open Cert.KernelIdeal.Chain Cert.RefValue

variable (x0 : S50000x128.Idx → EReal) (x1 : S800000x128.Idx → EReal) (x2 x3 : IVec S800000 32)
  (x4 : S128x128.Idx → EReal) (x5 : S128.Idx → EReal) (x6 : S128x128.Idx → EReal) (x7 : S128.Idx → EReal)
  (x8 : S128x128.Idx → EReal) (x9 : S128.Idx → EReal) (x10 : S128x128.Idx → EReal) (x11 : S128.Idx → EReal)
  (x12 : S128x128.Idx → EReal) (x13 : S128.Idx → EReal) (x14 x15 x16 x17 : S128.Idx → EReal)

/-! ## Finiteness through the shared stages -/

theorem lin_real {x : S50000x128.Idx → EReal} {W : S128x128.Idx → EReal} {b : S128.Idx → EReal}
    (hx : ∀ i, IsReal (x i)) (hW : ∀ i, IsReal (W i)) (hb : ∀ i, IsReal (b i)) (i : S50000x128.Idx) :
    IsReal (Cert.KernelIdeal.Region0.linRows x W b i) := by
  unfold Cert.KernelIdeal.Region0.linRows
  exact (isReal_sum_univ _ fun k => (hx _).mul (hW _)).add (hb _)

theorem gather_real {T : S50000x128.Idx → EReal} (hT : ∀ i, IsReal (T i)) (idx : IVec S800000x1 32) (i : S800000x128.Idx) :
    IsReal (Host.gather Cert.KernelIdeal.gather_S50000x128_S800000x1_S800000x128_1_0_n_n_0_1_1128 T idx i) := hT _

/-- The kernel's and the reference's scatter dimension records are one record. -/
theorem scatter2_eq : Cert.KernelIdeal.scatter_S50000x128_S800000x1_S800000x128_1_0_0_1
    = Cert.ReferenceIdeal.scatter_S50000x128_S800000x1_S800000x128_1_0_0_1 := rfl

theorem zero2_eq : zero2 = fun _ => (0 : EReal) := by
  funext i
  show Ideal.ofBits .f32 0x00000000#32 = 0
  exact Ideal.ofBits_zero_f32

/-- The scattered sums, with the host's scatter-add read as the exact sum it is at the extended reals. -/
theorem den_eq : den x0 x1 x2 x3 x8 x9 x10 x11 x12 x13 = Ideal.hostScatterAdd Cert.KernelIdeal.scatter_S50000x128_S800000x1_S800000x128_1_0_0_1 zero2 (idxR x3) (gate x0 x1 x2 x3 x8 x9 x10 x11 x12 x13) :=
  Ideal.hostScatterAdd_def Cert.KernelIdeal.scatter_S50000x128_S800000x1_S800000x128_1_0_0_1 .single zero2 (idxR x3) (gate x0 x1 x2 x3 x8 x9 x10 x11 x12 x13)
theorem num_eq : num x0 x1 x2 x3 x6 x7 x8 x9 x10 x11 x12 x13 = Ideal.hostScatterAdd Cert.KernelIdeal.scatter_S50000x128_S800000x1_S800000x128_1_0_0_1 zero2 (idxR x3) (msg x0 x1 x2 x3 x6 x7 x8 x9 x10 x11 x12 x13) :=
  Ideal.hostScatterAdd_def Cert.KernelIdeal.scatter_S50000x128_S800000x1_S800000x128_1_0_0_1 .single zero2 (idxR x3) (msg x0 x1 x2 x3 x6 x7 x8 x9 x10 x11 x12 x13)
/-- The reference's edge count likewise. -/
theorem deg_eq : val_main_v59 (F := Ideal) x3
    = Ideal.hostScatterAdd Cert.ReferenceIdeal.scatter_S50000_S800000x1_S800000_n_0_0_1 (val_main_v57 (F := Ideal)) (val_main_v58 (F := Ideal) x3)
        (val_main_v56 (F := Ideal)) :=
  Ideal.hostScatterAdd_def Cert.ReferenceIdeal.scatter_S50000_S800000x1_S800000_n_0_0_1 .single (val_main_v57 (F := Ideal))
    (val_main_v58 (F := Ideal) x3) (val_main_v56 (F := Ideal))

section Reals
variable (h0 : ∀ i, IsReal (x0 i)) (h1 : ∀ i, IsReal (x1 i)) (h4 : ∀ i, IsReal (x4 i)) (h5 : ∀ i, IsReal (x5 i))
  (h6 : ∀ i, IsReal (x6 i)) (h7 : ∀ i, IsReal (x7 i)) (h8 : ∀ i, IsReal (x8 i)) (h9 : ∀ i, IsReal (x9 i))
  (h10 : ∀ i, IsReal (x10 i)) (h11 : ∀ i, IsReal (x11 i)) (h12 : ∀ i, IsReal (x12 i)) (h13 : ∀ i, IsReal (x13 i))
include h0 h1 h8 h9 h10 h11 h12 h13

theorem eij_real (i : S800000x128.Idx) : IsReal (eij x0 x1 x2 x3 x8 x9 x10 x11 x12 x13 i) := by
  show IsReal (((∑ k : Fin 128, x1 (ix2 (i 0) k) * x8 (ix2 k (i 1))) + x9 (ix1 (i 1))) + gD x0 x2 x10 x11 i + gE x0 x3 x12 x13 i)
  refine (((isReal_sum_univ _ fun k => (h1 _).mul (h8 _)).add (h9 _)).add ?_).add ?_
  · exact gather_real (fun j => lin_real h0 h10 h11 j) _ i
  · exact gather_real (fun j => lin_real h0 h12 h13 j) _ i

/-- The gate is a positive real at every entry. -/
theorem gate_pos (i : S800000x128.Idx) : ∃ r : ℝ, 0 < r ∧ gate x0 x1 x2 x3 x8 x9 x10 x11 x12 x13 i = (r : EReal) :=
  logistic_pos_real (eij_real x0 x1 x2 x3 x8 x9 x10 x11 x12 x13 h0 h1 h8 h9 h10 h11 h12 h13 i)

theorem gate_real (i : S800000x128.Idx) : ∃ r : ℝ, gate x0 x1 x2 x3 x8 x9 x10 x11 x12 x13 i = (r : EReal) := by
  obtain ⟨r, -, hr⟩ := gate_pos x0 x1 x2 x3 x8 x9 x10 x11 x12 x13 h0 h1 h8 h9 h10 h11 h12 h13 i
  exact ⟨r, hr⟩

theorem den_real' (i : S50000x128.Idx) : IsReal (den x0 x1 x2 x3 x8 x9 x10 x11 x12 x13 i) := by
  rw [den_eq, zero2_eq]
  exact Cert.ScatterCount.hostScatterAdd_zero_real _ _ _ (gate_real x0 x1 x2 x3 x8 x9 x10 x11 x12 x13 h0 h1 h8 h9 h10 h11 h12 h13) i

/-- The kernel's test on the scattered gate sum and the reference's test on the scattered edge count agree. -/
theorem den_pos_iff (i : S50000x128.Idx) :
    Ideal.ofBits .f32 0x00000000#32 < den x0 x1 x2 x3 x8 x9 x10 x11 x12 x13 i ↔ Ideal.ofBits .f32 0x00000000#32 < val_main_v59 (F := Ideal) x3 (ix1 (i 0)) := by
  rw [Ideal.ofBits_zero_f32]
  have hk : den x0 x1 x2 x3 x8 x9 x10 x11 x12 x13 i
      = Ideal.hostScatterAdd Cert.ReferenceIdeal.scatter_S50000x128_S800000x1_S800000x128_1_0_0_1 (fun _ => 0) (idxR x3) (gate x0 x1 x2 x3 x8 x9 x10 x11 x12 x13) i := by
    rw [den_eq, zero2_eq, scatter2_eq]
  have hr : val_main_v59 (F := Ideal) x3 (ix1 (i 0))
      = Ideal.hostScatterAdd Cert.ReferenceIdeal.scatter_S50000_S800000x1_S800000_n_0_0_1 (fun _ => 0) (idxR x3) (fun _ => 1) (ix1 (i 0)) := by
    have ez : (val_main_v57 (F := Ideal)) = fun _ => (0 : EReal) := funext fun j => (show Ideal.ofBits .f32 0x00000000#32 = 0 from Ideal.ofBits_zero_f32)
    have e1 : (val_main_v56 (F := Ideal)) = fun _ => (1 : EReal) := funext fun j => (show Ideal.ofBits .f32 0x3F800000#32 = 1 from ofBits_one')
    rw [deg_eq, ez, e1, idx_v58]
  rw [hk, hr]
  exact Cert.ScatterCount.den_pos_iff_deg_pos' (idxR x3) _ (gate_pos x0 x1 x2 x3 x8 x9 x10 x11 x12 x13 h0 h1 h8 h9 h10 h11 h12 h13) i

end Reals

/-! ## The two aggregates are one array -/

theorem aggR_congr_deg {d1 d2 den a num h : EReal}
    (hiff : Ideal.ofBits .f32 0x00000000#32 < d1 ↔ Ideal.ofBits .f32 0x00000000#32 < d2) : aggR d1 den a num h = aggR d2 den a num h := by
  unfold aggR Ideal.cmp
  simp only [decide_eq_decide.mpr hiff]

theorem select_ofBool {α : Type} (b : Bool) (x y : α) : Scalar.select (BitVec.ofBool b) x y = if b then x else y := by
  cases b <;> rfl

/-- The aggregate of real entries is real. -/
theorem aggRaw_real {den a num h : EReal} (hden : IsReal den) (ha : IsReal a) (hnum : IsReal num) (hh : IsReal h) :
    IsReal (aggRaw den a num h) := by
  unfold aggRaw Ideal.cmp
  rw [select_ofBool, select_ofBool, Ideal.ofBits_zero_f32]
  by_cases hp : (0 : EReal) < den
  · have hne : den ≠ 0 := ne_of_gt hp
    simp only [decide_eq_true hp, if_true, decide_eq_false hne, Bool.false_eq_true, if_false]
    exact ha.add (hnum.div hden hne)
  · simp only [decide_eq_false hp, Bool.false_eq_true, if_false]
    exact hh

/-! ## The results agree -/

section Results
variable (h0 : ∀ i, IsReal (x0 i)) (h1 : ∀ i, IsReal (x1 i)) (h4 : ∀ i, IsReal (x4 i)) (h5 : ∀ i, IsReal (x5 i))
  (h6 : ∀ i, IsReal (x6 i)) (h7 : ∀ i, IsReal (x7 i)) (h8 : ∀ i, IsReal (x8 i)) (h9 : ∀ i, IsReal (x9 i))
  (h10 : ∀ i, IsReal (x10 i)) (h11 : ∀ i, IsReal (x11 i)) (h12 : ∀ i, IsReal (x12 i)) (h13 : ∀ i, IsReal (x13 i))
include h0 h1 h4 h5 h6 h7 h8 h9 h10 h11 h12 h13

theorem msg_real (i : S800000x128.Idx) : ∃ r : ℝ, msg x0 x1 x2 x3 x6 x7 x8 x9 x10 x11 x12 x13 i = (r : EReal) := by
  show IsReal (gate x0 x1 x2 x3 x8 x9 x10 x11 x12 x13 i * gB x0 x2 x6 x7 i)
  obtain ⟨r, -, hr⟩ := gate_pos x0 x1 x2 x3 x8 x9 x10 x11 x12 x13 h0 h1 h8 h9 h10 h11 h12 h13 i
  have hg : IsReal (gate x0 x1 x2 x3 x8 x9 x10 x11 x12 x13 i) := ⟨r, hr⟩
  exact hg.mul (gather_real (fun j => lin_real h0 h6 h7 j) _ i)

theorem num_real' (i : S50000x128.Idx) : IsReal (num x0 x1 x2 x3 x6 x7 x8 x9 x10 x11 x12 x13 i) := by
  rw [num_eq, zero2_eq]
  exact Cert.ScatterCount.hostScatterAdd_zero_real _ _ _ (msg_real x0 x1 x2 x3 x4 x5 x6 x7 x8 x9 x10 x11 x12 x13 h0 h1 h4 h5 h6 h7 h8 h9 h10 h11 h12 h13) i

/-- The reference's aggregate is the kernel's. -/
theorem hagg_eq : val_main_v68 (F := Ideal) x0 x1 x2 x3 x4 x5 x6 x7 x8 x9 x10 x11 x12 x13 = hagg x0 x1 x2 x3 x4 x5 x6 x7 x8 x9 x10 x11 x12 x13 := by
  funext i
  obtain ⟨p, q, rfl⟩ : ∃ (p : Fin 50000) (q : Fin 128), i = ix2 p q := ⟨i 0, i 1, eq_ix2 i⟩
  rw [agg_v68]
  have hk : hagg x0 x1 x2 x3 x4 x5 x6 x7 x8 x9 x10 x11 x12 x13 (ix2 p q)
      = aggR (den x0 x1 x2 x3 x8 x9 x10 x11 x12 x13 (ix2 p q)) (den x0 x1 x2 x3 x8 x9 x10 x11 x12 x13 (ix2 p q)) (AhT x0 x4 x5 (ix2 p q)) (num x0 x1 x2 x3 x6 x7 x8 x9 x10 x11 x12 x13 (ix2 p q)) (x0 (ix2 p q)) := rfl
  rw [hk]
  exact aggR_congr_deg (den_pos_iff x0 x1 x2 x3 x8 x9 x10 x11 x12 x13 h0 h1 h8 h9 h10 h11 h12 h13 (ix2 p q)).symm

theorem hagg_real (i : S50000x128.Idx) : IsReal (hagg x0 x1 x2 x3 x4 x5 x6 x7 x8 x9 x10 x11 x12 x13 i) := by
  show IsReal (aggRaw (den x0 x1 x2 x3 x8 x9 x10 x11 x12 x13 i) (AhT x0 x4 x5 i) (num x0 x1 x2 x3 x6 x7 x8 x9 x10 x11 x12 x13 i) (x0 i))
  exact aggRaw_real (den_real' x0 x1 x2 x3 x8 x9 x10 x11 x12 x13 h0 h1 h8 h9 h10 h11 h12 h13 i) (lin_real h0 h4 h5 i) (num_real' x0 x1 x2 x3 x4 x5 x6 x7 x8 x9 x10 x11 x12 x13 h0 h1 h4 h5 h6 h7 h8 h9 h10 h11 h12 h13 i) (h0 i)

omit h0 h1 h4 h5 h6 h7 h8 h9 h10 h11 h12 h13 in
/-- For a real column, the mean of squared deviations is the clamped (mean of squares − squared mean). -/
theorem var_bridge {N : ℕ} (X : (⟨2, ![N, 128]⟩ : Shape).Idx → EReal) (hX : ∀ i, IsReal (X i)) (w : EReal) (n : ℝ)
    (hw : w = (n : EReal)) (hn : n ≠ 0) (hcard : (N : ℝ) = n) (c : Fin 128) :
    Ideal.div (w0 + ∑ k : Fin N, (X (ix2 k c) - colMean X w c) * (X (ix2 k c) - colMean X w c)) w = colVarClamped X w c := by
  subst hw
  unfold colVarClamped colMean
  have hw0 : w0 = 0 := Ideal.ofBits_zero_f32
  rw [hw0]
  exact variance_identity_univ_zero_add (fun k : Fin N => X (ix2 k c)) (fun k => hX _) n hn
    (by rw [Fintype.card_fin]; exact hcard) _ rfl

/-- The edge results agree. -/
theorem e_out_eq : val_main_v122 (F := Ideal) x0 x1 x2 x3 x8 x9 x10 x11 x12 x13 x16 x17 = eOut x0 x1 x2 x3 x8 x9 x10 x11 x12 x13 x16 x17 := by
  funext i
  obtain ⟨p, q, rfl⟩ : ∃ (p : Fin 800000) (q : Fin 128), i = ix2 p q := ⟨i 0, i 1, eq_ix2 i⟩
  rw [out_v122, eOut_apply, var_v105, mean_v98, eij_v35]
  rw [var_bridge (N := 800000) (eij x0 x1 x2 x3 x8 x9 x10 x11 x12 x13) (eij_real x0 x1 x2 x3 x8 x9 x10 x11 x12 x13 h0 h1 h8 h9 h10 h11 h12 h13) wE 800000 ofBits_800000 (by norm_num) (by norm_num) q]

/-- The node results agree. -/
theorem h_out_eq : val_main_v95 (F := Ideal) x0 x1 x2 x3 x4 x5 x6 x7 x8 x9 x10 x11 x12 x13 x14 x15 = hOut x0 x1 x2 x3 x4 x5 x6 x7 x8 x9 x10 x11 x12 x13 x14 x15 := by
  funext i
  obtain ⟨p, q, rfl⟩ : ∃ (p : Fin 50000) (q : Fin 128), i = ix2 p q := ⟨i 0, i 1, eq_ix2 i⟩
  rw [out_v95, hOut_apply, var_v78, mean_v71, hagg_eq x0 x1 x2 x3 x4 x5 x6 x7 x8 x9 x10 x11 x12 x13 h0 h1 h4 h5 h6 h7 h8 h9 h10 h11 h12 h13]
  rw [var_bridge (N := 50000) (hagg x0 x1 x2 x3 x4 x5 x6 x7 x8 x9 x10 x11 x12 x13) (hagg_real x0 x1 x2 x3 x4 x5 x6 x7 x8 x9 x10 x11 x12 x13 h0 h1 h4 h5 h6 h7 h8 h9 h10 h11 h12 h13) wH 50000 ofBits_50000 (by norm_num) (by norm_num) q]

end Results

end Cert.Bridge

end
-- ==== Proof.FiniteInputs.lean ====
/-
  The precondition of this certificate, read back at the extended-real instance. The printed predicate takes the
  eighteen argument arrays of the program and, for each of the sixteen float arrays x (arguments 0, 1 and 4 to 17; arguments
  2 and 3 are integer arrays and are not constrained), compares |x| < +∞ elementwise, reduces the comparison by "and" over
  every axis from the constant 1, and conjoins the sixteen one-bit results. At the extended-real instance a float is an
  element of [-∞, +∞], |x| is max x (-x), and the pattern 0x7F800000 denotes ⊤. So the predicate being 1 says: every
  entry of every float argument is neither ⊥ nor ⊤, that is, a real number.

  `inf_bits`            the pattern 0x7F800000 denotes ⊤.
  `real_of_abs_lt_inf`  an extended real x whose comparison max x (-x) < ⊤ came out 1 is a real number.
  `all_real`            one array, any shape: if the "and"-reduction over all axes of the elementwise comparison
                        |x| < +∞ is 1, every entry of x is a real number.
  `fn_finite`           the printed predicate over variables: if it is 1, every entry of each of the sixteen float
                        arguments is a real number (sixteen conjuncts, in argument order).
  `kernel_args_real`, `reference_args_real`  the same of the argument arrays a launch memory holds on a device, under the
                        precondition of the kernel program and of the reference program at the extended reals.
-/
import proofs.«139856_j11905649344612_2_alg».proof.Defs
import proofs.«139856_j11905649344612_2_alg».proof.Proof.Gen.Pre_finite_inputs
import Idealize.ShloMosaic.Lib.ReduceAll
import Idealize.ShloMosaic.Lib.ValueIdx
import Idealize.ShloMosaic.PureOps.Ideal

noncomputable section

namespace Cert.FiniteInputs

open Idealize.ShloMosaic Idealize.ShloMosaic.ValueIdx Idealize.SL.Sem
open Cert.Pre_finite_inputs (S_ S50000x128 S800000x128 S800000 S128x128 S128)

/-- The f32 pattern of +∞ denotes the top of the extended reals. -/
theorem inf_bits : Ideal.ofBits .f32 0x7F800000#32 = (⊤ : EReal) := by
  simp [Ideal.ofBits, Ideal.ieee]

/-- An extended real whose absolute value max x (-x) compares below +∞ is a real number: at ⊥ and at ⊤ the
    absolute value is ⊤, which is not below ⊤. -/
theorem real_of_abs_lt_inf (x : EReal)
    (h : Ideal.cmp .olt (max x (-x)) (Ideal.ofBits .f32 0x7F800000#32) = 1#1) : ∃ r : ℝ, x = (r : EReal) := by
  rw [inf_bits] at h
  induction x using EReal.rec with
  | bot => simp [Ideal.cmp] at h
  | coe r => exact ⟨r, rfl⟩
  | top => simp [Ideal.cmp] at h

/-- The rank-0 shape has one index. -/
instance : Subsingleton S_.Idx := ⟨fun a b => funext fun d => d.elim0⟩

/-- One array of any shape: if the reduction by "and" over all axes (into the one-index result, from the constant 1)
    of the elementwise comparison |x| < +∞ is 1, then every entry of x is a real number. -/
theorem all_real {s : Shape} {axes : List (Fin s.rank)}
    (hb : S_.BroadcastsInDim s (![] : Fin 0 → Fin s.rank))
    (hr : s.ReducesTo axes S_) (hu : 0 < S_.numel)
    (x : FVec Ideal s .f32) (j : S_.Idx)
    (e : Host.reduce IntOp.andi
          (cmpf .olt (Host.absf x) (broadcastInDim s ![] hb (constant (F := Ideal) S_ .f32 0x7F800000#32)))
          (constantI S_ 1 1#1) hr hu j = 1#1) :
    ∀ i, ∃ r : ℝ, x i = (r : EReal) := by
  intro i
  -- every element of the compared array is 1, and the element at i is the comparison of |x i| with +∞
  have h := Host.reduce_andi_all _ _ hr hu j e i
  exact real_of_abs_lt_inf (x i) h

/-- The printed predicate over variables: if it is 1 (at its one index), every entry of each of the sixteen float
    arguments is a real number. The conjunction of the sixteen one-bit reductions is nested to the left, in argument
    order; each conjunct is one instance of `all_real`. -/
theorem fn_finite [Cert.Pre_finite_inputs.Facts]
    (x0 : FVec Ideal S50000x128 .f32) (x1 : FVec Ideal S800000x128 .f32) (x2 : IVec S800000 32) (x3 : IVec S800000 32)
    (x4 : FVec Ideal S128x128 .f32) (x5 : FVec Ideal S128 .f32) (x6 : FVec Ideal S128x128 .f32) (x7 : FVec Ideal S128 .f32)
    (x8 : FVec Ideal S128x128 .f32) (x9 : FVec Ideal S128 .f32) (x10 : FVec Ideal S128x128 .f32) (x11 : FVec Ideal S128 .f32)
    (x12 : FVec Ideal S128x128 .f32) (x13 : FVec Ideal S128 .f32) (x14 : FVec Ideal S128 .f32) (x15 : FVec Ideal S128 .f32)
    (x16 : FVec Ideal S128 .f32) (x17 : FVec Ideal S128 .f32)
    (h : Cert.Pre_finite_inputs.fn (F := Ideal) x0 x1 x2 x3 x4 x5 x6 x7 x8 x9 x10 x11 x12 x13 x14 x15 x16 x17 = (fun _ => 1#1)) :
    (∀ i, ∃ r : ℝ, x0 i = (r : EReal)) ∧ (∀ i, ∃ r : ℝ, x1 i = (r : EReal)) ∧ (∀ i, ∃ r : ℝ, x4 i = (r : EReal)) ∧
    (∀ i, ∃ r : ℝ, x5 i = (r : EReal)) ∧ (∀ i, ∃ r : ℝ, x6 i = (r : EReal)) ∧ (∀ i, ∃ r : ℝ, x7 i = (r : EReal)) ∧
    (∀ i, ∃ r : ℝ, x8 i = (r : EReal)) ∧ (∀ i, ∃ r : ℝ, x9 i = (r : EReal)) ∧ (∀ i, ∃ r : ℝ, x10 i = (r : EReal)) ∧
    (∀ i, ∃ r : ℝ, x11 i = (r : EReal)) ∧ (∀ i, ∃ r : ℝ, x12 i = (r : EReal)) ∧ (∀ i, ∃ r : ℝ, x13 i = (r : EReal)) ∧
    (∀ i, ∃ r : ℝ, x14 i = (r : EReal)) ∧ (∀ i, ∃ r : ℝ, x15 i = (r : EReal)) ∧ (∀ i, ∃ r : ℝ, x16 i = (r : EReal)) ∧
    (∀ i, ∃ r : ℝ, x17 i = (r : EReal)) := by
  have e := congrFun h ix0
  dsimp only [Cert.Pre_finite_inputs.fn, Cert.Pre_finite_inputs.fn_part1, Cert.Pre_finite_inputs.fn_part2,
    Cert.Pre_finite_inputs.fn_part3, Cert.Pre_finite_inputs.fn_part4] at e
  simp only [andi, IntOp.andi_eq_one] at e
  obtain ⟨⟨⟨⟨⟨⟨⟨⟨⟨⟨⟨⟨⟨⟨⟨e0, e1⟩, e4⟩, e5⟩, e6⟩, e7⟩, e8⟩, e9⟩, e10⟩, e11⟩, e12⟩, e13⟩, e14⟩, e15⟩, e16⟩, e17⟩ := e
  exact ⟨all_real _ _ _ x0 _ e0, all_real _ _ _ x1 _ e1, all_real _ _ _ x4 _ e4, all_real _ _ _ x5 _ e5,
    all_real _ _ _ x6 _ e6, all_real _ _ _ x7 _ e7, all_real _ _ _ x8 _ e8, all_real _ _ _ x9 _ e9,
    all_real _ _ _ x10 _ e10, all_real _ _ _ x11 _ e11, all_real _ _ _ x12 _ e12, all_real _ _ _ x13 _ e13,
    all_real _ _ _ x14 _ e14, all_real _ _ _ x15 _ e15, all_real _ _ _ x16 _ e16, all_real _ _ _ x17 _ e17⟩

/-- Under the precondition of the kernel program at the extended reals, on every device every entry of each of the
    sixteen float argument arrays is a real number. -/
theorem kernel_args_real
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal)) ∧
    (∀ i, ∃ r : ℝ, m ((c.tc : Thread Cert.KernelIdeal.nD Cert.KernelIdeal.τ).loc Cert.KernelIdeal.main_arg1) i = (r : EReal)) ∧
    (∀ i, ∃ r : ℝ, m ((c.tc : Thread Cert.KernelIdeal.nD Cert.KernelIdeal.τ).loc Cert.KernelIdeal.main_arg4) i = (r : EReal)) ∧
    (∀ i, ∃ r : ℝ, m ((c.tc : Thread Cert.KernelIdeal.nD Cert.KernelIdeal.τ).loc Cert.KernelIdeal.main_arg5) i = (r : EReal)) ∧
    (∀ i, ∃ r : ℝ, m ((c.tc : Thread Cert.KernelIdeal.nD Cert.KernelIdeal.τ).loc Cert.KernelIdeal.main_arg6) i = (r : EReal)) ∧
    (∀ i, ∃ r : ℝ, m ((c.tc : Thread Cert.KernelIdeal.nD Cert.KernelIdeal.τ).loc Cert.KernelIdeal.main_arg7) i = (r : EReal)) ∧
    (∀ i, ∃ r : ℝ, m ((c.tc : Thread Cert.KernelIdeal.nD Cert.KernelIdeal.τ).loc Cert.KernelIdeal.main_arg8) i = (r : EReal)) ∧
    (∀ i, ∃ r : ℝ, m ((c.tc : Thread Cert.KernelIdeal.nD Cert.KernelIdeal.τ).loc Cert.KernelIdeal.main_arg9) i = (r : EReal)) ∧
    (∀ i, ∃ r : ℝ, m ((c.tc : Thread Cert.KernelIdeal.nD Cert.KernelIdeal.τ).loc Cert.KernelIdeal.main_arg10) i = (r : EReal)) ∧
    (∀ i, ∃ r : ℝ, m ((c.tc : Thread Cert.KernelIdeal.nD Cert.KernelIdeal.τ).loc Cert.KernelIdeal.main_arg11) i = (r : EReal)) ∧
    (∀ i, ∃ r : ℝ, m ((c.tc : Thread Cert.KernelIdeal.nD Cert.KernelIdeal.τ).loc Cert.KernelIdeal.main_arg12) i = (r : EReal)) ∧
    (∀ i, ∃ r : ℝ, m ((c.tc : Thread Cert.KernelIdeal.nD Cert.KernelIdeal.τ).loc Cert.KernelIdeal.main_arg13) i = (r : EReal)) ∧
    (∀ i, ∃ r : ℝ, m ((c.tc : Thread Cert.KernelIdeal.nD Cert.KernelIdeal.τ).loc Cert.KernelIdeal.main_arg14) i = (r : EReal)) ∧
    (∀ i, ∃ r : ℝ, m ((c.tc : Thread Cert.KernelIdeal.nD Cert.KernelIdeal.τ).loc Cert.KernelIdeal.main_arg15) i = (r : EReal)) ∧
    (∀ i, ∃ r : ℝ, m ((c.tc : Thread Cert.KernelIdeal.nD Cert.KernelIdeal.τ).loc Cert.KernelIdeal.main_arg16) i = (r : EReal)) ∧
    (∀ i, ∃ r : ℝ, m ((c.tc : Thread Cert.KernelIdeal.nD Cert.KernelIdeal.τ).loc Cert.KernelIdeal.main_arg17) i = (r : EReal)) :=
  fn_finite _ _ _ _ _ _ _ _ _ _ _ _ _ _ _ _ _ _ (h c)

/-- Under the precondition of the reference program at the extended reals, on every device every entry of each of the
    sixteen float argument arrays is a real number. -/
theorem reference_args_real
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ i, ∃ r : ℝ, m ((c.tc : Thread Cert.ReferenceIdeal.nD Cert.ReferenceIdeal.τ).loc Cert.ReferenceIdeal.main_arg0) i = (r : EReal)) ∧
    (∀ i, ∃ r : ℝ, m ((c.tc : Thread Cert.ReferenceIdeal.nD Cert.ReferenceIdeal.τ).loc Cert.ReferenceIdeal.main_arg1) i = (r : EReal)) ∧
    (∀ i, ∃ r : ℝ, m ((c.tc : Thread Cert.ReferenceIdeal.nD Cert.ReferenceIdeal.τ).loc Cert.ReferenceIdeal.main_arg4) i = (r : EReal)) ∧
    (∀ i, ∃ r : ℝ, m ((c.tc : Thread Cert.ReferenceIdeal.nD Cert.ReferenceIdeal.τ).loc Cert.ReferenceIdeal.main_arg5) i = (r : EReal)) ∧
    (∀ i, ∃ r : ℝ, m ((c.tc : Thread Cert.ReferenceIdeal.nD Cert.ReferenceIdeal.τ).loc Cert.ReferenceIdeal.main_arg6) i = (r : EReal)) ∧
    (∀ i, ∃ r : ℝ, m ((c.tc : Thread Cert.ReferenceIdeal.nD Cert.ReferenceIdeal.τ).loc Cert.ReferenceIdeal.main_arg7) i = (r : EReal)) ∧
    (∀ i, ∃ r : ℝ, m ((c.tc : Thread Cert.ReferenceIdeal.nD Cert.ReferenceIdeal.τ).loc Cert.ReferenceIdeal.main_arg8) i = (r : EReal)) ∧
    (∀ i, ∃ r : ℝ, m ((c.tc : Thread Cert.ReferenceIdeal.nD Cert.ReferenceIdeal.τ).loc Cert.ReferenceIdeal.main_arg9) i = (r : EReal)) ∧
    (∀ i, ∃ r : ℝ, m ((c.tc : Thread Cert.ReferenceIdeal.nD Cert.ReferenceIdeal.τ).loc Cert.ReferenceIdeal.main_arg10) i = (r : EReal)) ∧
    (∀ i, ∃ r : ℝ, m ((c.tc : Thread Cert.ReferenceIdeal.nD Cert.ReferenceIdeal.τ).loc Cert.ReferenceIdeal.main_arg11) i = (r : EReal)) ∧
    (∀ i, ∃ r : ℝ, m ((c.tc : Thread Cert.ReferenceIdeal.nD Cert.ReferenceIdeal.τ).loc Cert.ReferenceIdeal.main_arg12) i = (r : EReal)) ∧
    (∀ i, ∃ r : ℝ, m ((c.tc : Thread Cert.ReferenceIdeal.nD Cert.ReferenceIdeal.τ).loc Cert.ReferenceIdeal.main_arg13) i = (r : EReal)) ∧
    (∀ i, ∃ r : ℝ, m ((c.tc : Thread Cert.ReferenceIdeal.nD Cert.ReferenceIdeal.τ).loc Cert.ReferenceIdeal.main_arg14) i = (r : EReal)) ∧
    (∀ i, ∃ r : ℝ, m ((c.tc : Thread Cert.ReferenceIdeal.nD Cert.ReferenceIdeal.τ).loc Cert.ReferenceIdeal.main_arg15) i = (r : EReal)) ∧
    (∀ i, ∃ r : ℝ, m ((c.tc : Thread Cert.ReferenceIdeal.nD Cert.ReferenceIdeal.τ).loc Cert.ReferenceIdeal.main_arg16) i = (r : EReal)) ∧
    (∀ i, ∃ r : ℝ, m ((c.tc : Thread Cert.ReferenceIdeal.nD Cert.ReferenceIdeal.τ).loc Cert.ReferenceIdeal.main_arg17) i = (r : EReal)) :=
  fn_finite _ _ _ _ _ _ _ _ _ _ _ _ _ _ _ _ _ _ (h c)

end Cert.FiniteInputs

end
-- ==== Proof.lean ====
/-
  The claims of this certificate. The kernel is a gated graph layer in five pipelined regions (node projections; the
  edge gate with per-block column sums; the gated aggregate with per-block column sums; two batch normalisations) among
  host gathers, scatter-adds and the reductions of the block sums; the reference is the same layer in plain array
  operations. The three frames are the generated frame certificates (the reference's is its run with the results
  dropped). The idealization rewrote nothing. At the extended reals, under the precondition that every float argument
  entry is a real number, the two programs end with equal results: the kernel's two result arrays are read off the fold
  of its memory through the regions and stretches (KernelChain), the reference's off its run (RefValue, RefValue2), and
  the two agree (Bridge) — the gate is a positive real, so the kernel's test den > 0 on the scattered gate sums selects
  the same branch as the reference's test on the scattered edge counts, and for real columns the clamped
  (mean of squares − squared mean) is the mean of squared deviations.
-/
import proofs.«139856_j11905649344612_2_alg».proof.Defs
import proofs.«139856_j11905649344612_2_alg».proof.Proof.Gen.Kernel
import proofs.«139856_j11905649344612_2_alg».proof.Proof.Gen.Kernel.Skeleton
import proofs.«139856_j11905649344612_2_alg».proof.Proof.Gen.Kernel.Launch
import proofs.«139856_j11905649344612_2_alg».proof.Proof.Gen.Kernel.Points
import proofs.«139856_j11905649344612_2_alg».proof.Proof.Gen.Kernel.Frame
import proofs.«139856_j11905649344612_2_alg».proof.Proof.Gen.KernelIdeal
import proofs.«139856_j11905649344612_2_alg».proof.Proof.Gen.KernelIdeal.Skeleton
import proofs.«139856_j11905649344612_2_alg».proof.Proof.Gen.KernelIdeal.Launch
import proofs.«139856_j11905649344612_2_alg».proof.Proof.Gen.KernelIdeal.Points
import proofs.«139856_j11905649344612_2_alg».proof.Proof.Gen.KernelIdeal.Frame
import proofs.«139856_j11905649344612_2_alg».proof.Proof.Gen.ReferenceIdeal
import proofs.«139856_j11905649344612_2_alg».proof.Proof.Gen.Pre_finite_inputs
import proofs.«139856_j11905649344612_2_alg».proof.Proof.KernelChain
import proofs.«139856_j11905649344612_2_alg».proof.Proof.Bridge
import proofs.«139856_j11905649344612_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote nothing. -/
theorem preserves : Cert.preserves_Kernel_KernelIdeal := trivial

set_option maxHeartbeats 4000000 in
/-- Both idealized programs run, from memories agreeing on the arguments, to the same two arrays. -/
theorem algebraic : Cert.algebraic_KernelIdeal_ReferenceIdeal := by
  intro m ρ m' ρ' hpre hagree
  refine ⟨fun c => Cert.KernelIdeal.Chain.hOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.KernelIdeal.Chain.eOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · refine (θ_run Cert.KernelIdeal.defs _ _).mono (fun r h c => ?_) (Cert.KernelIdeal.Gen.run_all m ρ)
    exact ⟨(h c _ (Cert.KernelIdeal.Gen.mem_uc Cert.KernelIdeal.main_v55 (by decide))).trans (Cert.KernelIdeal.Chain.W8_v55 m ρ c),
      (h c _ (Cert.KernelIdeal.Gen.mem_uc Cert.KernelIdeal.main_v54 (by decide))).trans (Cert.KernelIdeal.Chain.W8_v54 m ρ c),
      (h c _ (Cert.KernelIdeal.Gen.mem_uc Cert.KernelIdeal.main_arg0 (by decide))).trans (Cert.KernelIdeal.Gen.W8_main_arg0 m ρ c),
      (h c _ (Cert.KernelIdeal.Gen.mem_uc Cert.KernelIdeal.main_arg1 (by decide))).trans (Cert.KernelIdeal.Gen.W8_main_arg1 m ρ c),
      (h c _ (Cert.KernelIdeal.Gen.mem_uc Cert.KernelIdeal.main_arg2 (by decide))).trans (Cert.KernelIdeal.Gen.W8_main_arg2 m ρ c),
      (h c _ (Cert.KernelIdeal.Gen.mem_uc Cert.KernelIdeal.main_arg3 (by decide))).trans (Cert.KernelIdeal.Gen.W8_main_arg3 m ρ c),
      (h c _ (Cert.KernelIdeal.Gen.mem_uc Cert.KernelIdeal.main_arg4 (by decide))).trans (Cert.KernelIdeal.Gen.W8_main_arg4 m ρ c),
      (h c _ (Cert.KernelIdeal.Gen.mem_uc Cert.KernelIdeal.main_arg5 (by decide))).trans (Cert.KernelIdeal.Gen.W8_main_arg5 m ρ c),
      (h c _ (Cert.KernelIdeal.Gen.mem_uc Cert.KernelIdeal.main_arg6 (by decide))).trans (Cert.KernelIdeal.Gen.W8_main_arg6 m ρ c),
      (h c _ (Cert.KernelIdeal.Gen.mem_uc Cert.KernelIdeal.main_arg7 (by decide))).trans (Cert.KernelIdeal.Gen.W8_main_arg7 m ρ c),
      (h c _ (Cert.KernelIdeal.Gen.mem_uc Cert.KernelIdeal.main_arg8 (by decide))).trans (Cert.KernelIdeal.Gen.W8_main_arg8 m ρ c),
      (h c _ (Cert.KernelIdeal.Gen.mem_uc Cert.KernelIdeal.main_arg9 (by decide))).trans (Cert.KernelIdeal.Gen.W8_main_arg9 m ρ c),
      (h c _ (Cert.KernelIdeal.Gen.mem_uc Cert.KernelIdeal.main_arg10 (by decide))).trans (Cert.KernelIdeal.Gen.W8_main_arg10 m ρ c),
      (h c _ (Cert.KernelIdeal.Gen.mem_uc Cert.KernelIdeal.main_arg11 (by decide))).trans (Cert.KernelIdeal.Gen.W8_main_arg11 m ρ c),
      (h c _ (Cert.KernelIdeal.Gen.mem_uc Cert.KernelIdeal.main_arg12 (by decide))).trans (Cert.KernelIdeal.Gen.W8_main_arg12 m ρ c),
      (h c _ (Cert.KernelIdeal.Gen.mem_uc Cert.KernelIdeal.main_arg13 (by decide))).trans (Cert.KernelIdeal.Gen.W8_main_arg13 m ρ c),
      (h c _ (Cert.KernelIdeal.Gen.mem_uc Cert.KernelIdeal.main_arg14 (by decide))).trans (Cert.KernelIdeal.Gen.W8_main_arg14 m ρ c),
      (h c _ (Cert.KernelIdeal.Gen.mem_uc Cert.KernelIdeal.main_arg15 (by decide))).trans (Cert.KernelIdeal.Gen.W8_main_arg15 m ρ c),
      (h c _ (Cert.KernelIdeal.Gen.mem_uc Cert.KernelIdeal.main_arg16 (by decide))).trans (Cert.KernelIdeal.Gen.W8_main_arg16 m ρ c),
      (h c _ (Cert.KernelIdeal.Gen.mem_uc Cert.KernelIdeal.main_arg17 (by decide))).trans (Cert.KernelIdeal.Gen.W8_main_arg17 m ρ c)⟩
  · refine (θ_run Cert.ReferenceIdeal.defs _ _).mono (fun r h c => ?_) (Cert.ReferenceIdeal.ValueP.run (F := Ideal) m' ρ')
    obtain ⟨g0, g1, g2, g3, g4, g5, g6, g7, g8, g9, g10, g11, g12, g13, g14, g15, g16, g17⟩ := hagree c
    obtain ⟨h0, h1, h4, h5, h6, h7, h8, h9, h10, h11, h12, h13, h14, h15, h16, h17⟩ := Cert.FiniteInputs.kernel_args_real m hpre c
    refine ⟨(h c).1.trans ?_, (h c).2.1.trans ?_, (h c).2.2⟩
    · rw [Cert.ReferenceIdeal.ReadP.val_main_v95_eq, g0, g1, g2, g3, g4, g5, g6, g7, g8, g9, g10, g11, g12, g13, g14, g15]
      exact Cert.Bridge.h_out_eq _ _ _ _ _ _ _ _ _ _ _ _ _ _ _ _ h0 h1 h4 h5 h6 h7 h8 h9 h10 h11 h12 h13
    · rw [Cert.ReferenceIdeal.ReadP.val_main_v122_eq, g0, g1, g2, g3, g8, g9, g10, g11, g12, g13, g16, g17]
      exact Cert.Bridge.e_out_eq _ _ _ _ _ _ _ _ _ _ _ _ _ _ _ _ h0 h1 h4 h5 h6 h7 h8 h9 h10 h11 h12 h13

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
